-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S1024x3072 : Shape := ⟨2, ![1024, 3072]⟩
abbrev S3x8192x1024 : Shape := ⟨3, ![3, 8192, 1024]⟩
abbrev S512x1024 : Shape := ⟨2, ![512, 1024]⟩
abbrev S3x512x1024 : Shape := ⟨3, ![3, 512, 1024]⟩
abbrev S512x3072 : Shape := ⟨2, ![512, 3072]⟩
abbrev S1x512x1024 : Shape := ⟨3, ![1, 512, 1024]⟩
abbrev S3x4x2048x1024 : Shape := ⟨4, ![3, 4, 2048, 1024]⟩
abbrev S1x4x2048x1024 : Shape := ⟨4, ![1, 4, 2048, 1024]⟩
abbrev S1x512x1 : Shape := ⟨3, ![1, 512, 1]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 16
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S1024x3072, .f32⟩
  | .hbm, ⟨6, _⟩ => ⟨S1024x3072, .bf16⟩
  | .hbm, ⟨7, _⟩ => ⟨S3x8192x1024, .bf16⟩
  | .hbm, ⟨8, _⟩ => ⟨S3x4x2048x1024, .bf16⟩
  | .hbm, ⟨9, _⟩ => ⟨S1x4x2048x1024, .bf16⟩
  | .hbm, ⟨10, _⟩ => ⟨S4x2048x1024, .bf16⟩
  | .hbm, ⟨11, _⟩ => ⟨S1x4x2048x1024, .bf16⟩
  | .hbm, ⟨12, _⟩ => ⟨S4x2048x1024, .bf16⟩
  | .hbm, ⟨13, _⟩ => ⟨S1x4x2048x1024, .bf16⟩
  | .hbm, ⟨14, _⟩ => ⟨S4x2048x1024, .bf16⟩
  | .hbm, ⟨15, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3x512x1024, .bf16⟩
  | .local _ .vmem, ⟨4, _⟩ => ⟨S3x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x512x1, .f32⟩
  | .local _ .vmem, ⟨14, _⟩ => ⟨S1x512x1, .f32⟩
  | .local _ .vmem, ⟨15, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  concatenates_S1024x1024_S1024x1024_S1024x1024_S1024x3072_d1 : Shape.Concatenates [S1024x1024, S1024x1024, S1024x1024] S1024x3072 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  inb_S3x512x1024_S1x512x1024_0_0_0 : ∀ a, (![0, 0, 0] : Fin 3 → Nat) a + S1x512x1024.size a ≤ S3x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S3x512x1024_S1x512x1024_0_0_0 : (Rect.unit (s := S3x512x1024) ![0, 0, 0] S1x512x1024.size inb_S3x512x1024_S1x512x1024_0_0_0).PackedRows (EltTy.packing .bf16)
  slices_S512x3072_o0_1024_S512x1024 : S512x3072.Slices ![0, 1024] S512x1024
  inb_S3x512x1024_S1x512x1024_1_0_0 : ∀ a, (![1, 0, 0] : Fin 3 → Nat) a + S1x512x1024.size a ≤ S3x512x1024.size a
  packedbf16_S3x512x1024_S1x512x1024_1_0_0 : (Rect.unit (s := S3x512x1024) ![1, 0, 0] S1x512x1024.size inb_S3x512x1024_S1x512x1024_1_0_0).PackedRows (EltTy.packing .bf16)
  slices_S512x3072_o0_2048_S512x1024 : S512x3072.Slices ![0, 2048] S512x1024
  inb_S3x512x1024_S1x512x1024_2_0_0 : ∀ a, (![2, 0, 0] : Fin 3 → Nat) a + S1x512x1024.size a ≤ S3x512x1024.size a
  packedbf16_S3x512x1024_S1x512x1024_2_0_0 : (Rect.unit (s := S3x512x1024) ![2, 0, 0] S1x512x1024.size inb_S3x512x1024_S1x512x1024_2_0_0).PackedRows (EltTy.packing .bf16)
  shapeCasts_S3x8192x1024_S3x4x2048x1024 : S3x8192x1024.ShapeCasts S3x4x2048x1024
  slices_S3x4x2048x1024_S1x4x2048x1024_0_0_0_0 : S3x4x2048x1024.Slices ![0, 0, 0, 0] S1x4x2048x1024
  shapeCasts_S1x4x2048x1024_S4x2048x1024 : S1x4x2048x1024.ShapeCasts S4x2048x1024
  slices_S3x4x2048x1024_S1x4x2048x1024_1_0_0_0 : S3x4x2048x1024.Slices ![1, 0, 0, 0] S1x4x2048x1024
  slices_S3x4x2048x1024_S1x4x2048x1024_2_0_0_0 : S3x4x2048x1024.Slices ![2, 0, 0, 0] S1x4x2048x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x1024_S1x512x1024_0_0_0 : ∀ a, (![0, 0, 0] : Fin 3 → Nat) a + S1x512x1024.size a ≤ S1x512x1024.size a
  shapeCasts_S1x512x1024_S1x512x1024 : S1x512x1024.ShapeCasts S1x512x1024
  iota_S512x512_d0_w32 : S512x512.Iotas .tc 32 [0]
  iota_S512x512_d1_w32 : S512x512.Iotas .tc 32 [1]
  shapeCasts_S512x512_S1x512x512 : S512x512.ShapeCasts S1x512x512
  reduces_S1x512x512_S1x512 : S1x512x512.Reduces [2] S1x512
  shapeCasts_S1x512_S1x512x1 : S1x512.ShapeCasts S1x512x1
  broadcasts_S1x512x1_S1x512x512 : S1x512x1.Broadcasts S1x512x512
  broadcasts_S1x512x1_S1x512x1024 : S1x512x1.Broadcasts S1x512x1024
  dot_S512x1024_S1024x3072_S512x3072_1_0_0_1_n_n_wf : DotDims.WF S512x1024 S1024x3072 S512x3072 [1] [0] [0] [1] [] []
  dot_S1x512x1024_S1x512x1024_S1x512x512_2_2_1_1_0_0_wf : DotDims.WF S1x512x1024 S1x512x1024 S1x512x512 [2] [2] [1] [1] [0] [0]
  dot_S1x512x512_S1x512x1024_S1x512x1024_2_1_1_2_0_0_wf : DotDims.WF S1x512x512 S1x512x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x512x1024.size a ≤ S3x8192x1024.size a
  hwx0_2 : ∀ i : grid0.Coords, EltTy.bits .bf16 = 32 ∨ (Rect.block (s := S3x8192x1024) S3x512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1x512x1024_S1x512x1024_S1x512x512_2_2_1_1_0_0 : DotDims S1x512x1024 S1x512x1024 S1x512x512 where
  lhsContracting := [2]
  rhsContracting := [2]
  lhsNonContracting := [1]
  rhsNonContracting := [1]
  lhsBatch := [0]
  rhsBatch := [0]
  wf := dot_S1x512x1024_S1x512x1024_S1x512x512_2_2_1_1_0_0_wf
def dot_S1x512x512_S1x512x1024_S1x512x1024_2_1_1_2_0_0 : DotDims S1x512x512 S1x512x1024 S1x512x1024 where
  lhsContracting := [2]
  rhsContracting := [1]
  lhsNonContracting := [1]
  rhsNonContracting := [2]
  lhsBatch := [0]
  rhsBatch := [0]
  wf := dot_S1x512x512_S1x512x1024_S1x512x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩
abbrev S2048x2048 : Shape := ⟨2, ![2048, 2048]⟩
abbrev S4x2048x2048 : Shape := ⟨3, ![4, 2048, 2048]⟩
abbrev S1x2048x2048 : Shape := ⟨3, ![1, 2048, 2048]⟩
abbrev S4x2048 : Shape := ⟨2, ![4, 2048]⟩
abbrev S4x2048x1 : Shape := ⟨3, ![4, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S1x2048x2048, .i1⟩
  | .hbm, ⟨26, _⟩ => ⟨S_, .f32⟩
  | .hbm, ⟨27, _⟩ => ⟨S_, .f32⟩
  | .hbm, ⟨28, _⟩ => ⟨S4x2048x2048, .i1⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S4x2048, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x2048, .f32⟩
  | .hbm, ⟨44, _⟩ => ⟨S4x2048x2048, .f32⟩
  | .hbm, ⟨45, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S4x2048x2048 : S_.BroadcastsInDim S4x2048x2048 (![] : Fin 0 → Fin S4x2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.BitsR0.lean ====
/-
  The projection region (the first kernel launch), at any float instance and at any contents `V` of the
  TensorCore's buffers when the region is entered.

  At grid point t the body reads the 512×1024 block t of the reshaped input and the whole 1024×3072 weight, forms
  their matrix product (512×3072), and stores its three 512×1024 column panels as the three leading slices of the
  3×512×1024 output block. The three stores tile the output block, so what the block holds after the body is one
  function of the two input blocks.
-/
import proofs.«160108_j10788957848091_2_alg».proof.Proof.Gen.Kernel.Launch
import proofs.«160108_j10788957848091_2_alg».proof.Proof.Gen.Kernel.Skeleton
import proofs.«160108_j10788957848091_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles of the body's accesses: the whole input block, the whole weight, the three slices of the output block. -/
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rO0 : Rect S3x512x1024 := Rect.unit (s := S3x512x1024) ![0, 0, 0] S1x512x1024.size inb_S3x512x1024_S1x512x1024_0_0_0
abbrev rO1 : Rect S3x512x1024 := Rect.unit (s := S3x512x1024) ![1, 0, 0] S1x512x1024.size inb_S3x512x1024_S1x512x1024_1_0_0
abbrev rO2 : Rect S3x512x1024 := Rect.unit (s := S3x512x1024) ![2, 0, 0] S1x512x1024.size inb_S3x512x1024_S1x512x1024_2_0_0

/-- The output block after the body: its three stores as pieces, the last store first. -/
def out0_2 (x0 : Vec F S512x1024 .f32) (x1 : Vec F S1024x3072 .bf16) : Vec F S3x512x1024 .bf16 :=
  View.canon [⟨rO2, k0_pay4 (View.ld x0 rX) (View.ld x1 rW)⟩, ⟨rO1, k0_pay3 (View.ld x0 rX) (View.ld x1 rW)⟩, ⟨rO0, k0_pay2 (View.ld x0 rX) (View.ld x1 rW)⟩]

/-- The three slices tile the output block. -/
theorem cover0_2 (p0 p1 p2 : Vec F S1x512x1024 .bf16) (y : S3x512x1024.Idx) :
    ∃ pc ∈ ([⟨rO2, p2⟩, ⟨rO1, p1⟩, ⟨rO0, p0⟩] : List (View.Piece (Elt F) S3x512x1024 .bf16)), y ∈ pc.1.set :=
  View.cover_of_tiled [⟨rO2, p2⟩, ⟨rO1, p1⟩, ⟨rO0, p0⟩] S1x512x1024.size (by rfl) y

set_option maxHeartbeats 1000000 in
/-- The body on whole staging memrefs: the inputs are left as they were, the output block ends at `out0_2` of them. -/
theorem sound_kernel0 (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S3x512x1024 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _)

/-- The proof data of the projection pipeline on core `c`: the arrays as the region finds them; after the body at
    point `t` each input's buffer at its block and the output's at `out0_2` of the two input blocks; nothing else
    is carried between points, nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BitsR1.lean ====
/-
  The attention region (the second kernel launch), at any float instance and at any contents `V` of the
  TensorCore's buffers when the region is entered.

  The grid is (batch, query tile, key tile), 4 × 4 × 4, each tile 512 rows. The body keeps three running statistics
  per query row in scratch buffers across the key tiles of one query tile — the maximum of the masked scaled scores
  seen so far, the sum of exp(score − maximum), and the accumulator ∑ exp(score − maximum)·value — resets them at the
  first key tile, updates them at every key tile not after the query tile, and at the last key tile stores the
  accumulator divided by the sum into the output block. Five combinations of the three conditions occur on the grid.
-/
import proofs.«160108_j10788957848091_2_alg».proof.Proof.Gen.Kernel.Launch
import proofs.«160108_j10788957848091_2_alg».proof.Proof.Gen.Kernel.Skeleton
import proofs.«160108_j10788957848091_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

local notation "𝕄" => MT nD τ sig Unit (Elt F) ℕ (UR sig nD τ) ℕ

/-! ## The branch conditions of the attention body, from the grid coordinates (batch, query tile, key tile) -/

/-- The first key tile of a query tile: the running statistics are reset. -/
abbrev cond1_0 (i : grid1.Coords) : Prop := (Scalar.cmpi .ne (Scalar.extui (Scalar.cmpi .eq (BitVec.ofNat 32 (i 2).val) 0#32)) 0#32) = 1#1
/-- The key tile is not after the query tile: the tile contributes. -/
abbrev cond1_1 (i : grid1.Coords) : Prop := (Scalar.cmpi .ne (Scalar.extui (Scalar.cmpi .sle (BitVec.ofNat 32 (i 2).val) (BitVec.ofNat 32 (i 1).val))) 0#32) = 1#1
/-- The last key tile: the output block is written. -/
abbrev cond1_2 (i : grid1.Coords) : Prop := k1_cond3 i = 1#1
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)
theorem hcond1_2 : ∀ t : Fin cfg1.N, cond1_2 (grid1.coords t) ↔ t.val % 4 = 3 :=
  (by decide +kernel : ∀ t : Fin grid1.N, cond1_2 (grid1.coords t) ↔ t.val % 4 = 3)

/-! ## One step of the running softmax, as functions of the blocks and of the carried statistics -/

/-- The statistics a query tile starts from: maximum -∞, sum 0, accumulator 0. -/
def initM : Vec F S1x512x1 .f32 := k1_pay1
def initL : Vec F S1x512x1 .f32 := k1_pay2
def initA : Vec F S1x512x1024 .f32 := k1_pay3
/-- The new running maximum: the old one against the row maxima of the masked scaled scores of this tile. -/
def stepM (i : grid1.Coords) (q k : Vec F S1x512x1024 .bf16) (m : Vec F S1x512x1 .f32) : Vec F S1x512x1 .f32 :=
  k1_pay6 (k1_pay10 (BitVec.ofNat 32 (i 1).val) (BitVec.ofNat 32 (i 2).val) q k m)
/-- The new running sum: the old one rescaled by exp(old max − new max) plus the row sums of exp(score − new max). -/
def stepL (i : grid1.Coords) (q k : Vec F S1x512x1024 .bf16) (m l : Vec F S1x512x1 .f32) : Vec F S1x512x1 .f32 :=
  k1_pay4 (k1_pay13 (BitVec.ofNat 32 (i 1).val) (BitVec.ofNat 32 (i 2).val) q k m m l) (k1_pay14 (BitVec.ofNat 32 (i 1).val) (BitVec.ofNat 32 (i 2).val) q k m)
/-- The new accumulator: the old one rescaled the same way plus exp(score − new max) times the value block. -/
def stepA (i : grid1.Coords) (q k v : Vec F S1x512x1024 .bf16) (m : Vec F S1x512x1 .f32) (a : Vec F S1x512x1024 .f32) : Vec F S1x512x1024 .f32 :=
  k1_pay5 (k1_pay8 v) (k1_pay11 (BitVec.ofNat 32 (i 1).val) (BitVec.ofNat 32 (i 2).val) q k m m) (k1_pay12 (BitVec.ofNat 32 (i 1).val) (BitVec.ofNat 32 (i 2).val) q k m) a
/-- The output block: the accumulator divided by the running sum. -/
def finO (a : Vec F S1x512x1024 .f32) (l : Vec F S1x512x1 .f32) : Vec F S1x512x1024 .f32 := k1_pay7 a l

theorem hz3 : (![0, 0, 0] : Fin 3 → Nat) = fun _ => 0 := by funext a; fin_cases a <;> rfl

/-- A whole-buffer store covers the buffer, whatever was stored before it. -/
theorem coverCol {e : EltTy} (inb : ∀ a, (![0, 0, 0] : Fin 3 → Nat) a + S1x512x1.size a ≤ S1x512x1.size a) (p : S1x512x1.Idx → Elt F e)
    (L : List (View.Piece (Elt F) S1x512x1 e)) :
    ∀ y, ∃ pc ∈ ((⟨Rect.unit (s := S1x512x1) ![0, 0, 0] S1x512x1.size inb, p⟩ : View.Piece (Elt F) S1x512x1 e) :: L), y ∈ pc.1.set :=
  fun y => ⟨_, List.Mem.head _, View.mem_set_unit_zero hz3 inb y⟩
theorem coverBlk {e : EltTy} (inb : ∀ a, (![0, 0, 0] : Fin 3 → Nat) a + S1x512x1024.size a ≤ S1x512x1024.size a) (p : S1x512x1024.Idx → Elt F e)
    (L : List (View.Piece (Elt F) S1x512x1024 e)) :
    ∀ y, ∃ pc ∈ ((⟨Rect.unit (s := S1x512x1024) ![0, 0, 0] S1x512x1024.size inb, p⟩ : View.Piece (Elt F) S1x512x1024 e) :: L), y ∈ pc.1.set :=
  fun y => ⟨_, List.Mem.head _, View.mem_set_unit_zero hz3 inb y⟩

/-- Closes "the buffer, after whole-buffer stores the last of which wrote `p`, reads as `p`", with the loads inside `p`
    read back: a load of the whole buffer after a whole-buffer store reads the stored value, a load of an untouched
    whole buffer reads its contents. -/
macro "closeStore" : tactic => `(tactic| (
  first
    | rw [View.read_writes_eq_canon _ _ _ (coverCol _ _ _), View.canon_cons_unit_zero hz3]
    | rw [View.read_writes_eq_canon _ _ _ (coverBlk _ _ _), View.canon_cons_unit_zero hz3]
  simp only [View.readCov_unit_zero (S := S1x512x1) _ hz3, View.readCov_unit_zero (S := S1x512x1024) _ hz3, View.readAt_eq_ld,
    Memref.IsWhole.read_unread, View.ld_unit_zero (S := S1x512x1) hz3, View.ld_unit_zero (S := S1x512x1024) hz3]
  rfl))

set_option maxHeartbeats 4000000 in
/-- The first key tile of a query tile (it always contributes): the statistics are reset and one step is taken; the output block is left as found. -/
theorem runA (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : cond1_0 i) (hc1 : cond1_1 i) (hc2 : ¬cond1_2 i)
    (x0 x1 x2 : Vec F S1x512x1024 .bf16) (xo : Vec F S1x512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xo
            ∗ owns (c : Thread nD τ) arg7 fullShare (stepM i x0 x1 initM)
            ∗ owns (c : Thread nD τ) arg8 fullShare (stepL i x0 x1 initM initL)
            ∗ owns (c : Thread nD τ) arg9 fullShare (stepA i x0 x1 x2 initM initA)) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
  obtain rfl := harg3.eq_unread hf0; obtain rfl := harg4.eq_unread hf1; obtain rfl := harg5.eq_unread hf2
  obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    sl_unfold_words
    closeStore
  isplitl [H8]
  · iexists _; isplitr
    swap; · iexact H8
    ipureintro
    sl_unfold_words
    closeStore
  iexists _; isplitr
  swap; · iexact H9
  ipureintro
  sl_unfold_words
  closeStore

set_option maxHeartbeats 4000000 in
/-- A later contributing key tile that is not the last: one step from the carried statistics; the output block is left as found. -/
theorem runB (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (hc2 : ¬cond1_2 i)
    (x0 x1 x2 : Vec F S1x512x1024 .bf16) (xo : Vec F S1x512x1024 .f32) (xm xl : Vec F S1x512x1 .f32) (xa : Vec F S1x512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo
        ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2
            ∗ owns (c : Thread nD τ) arg6 fullShare xo
            ∗ owns (c : Thread nD τ) arg7 fullShare (stepM i x0 x1 xm)
            ∗ owns (c : Thread nD τ) arg8 fullShare (stepL i x0 x1 xm xl)
            ∗ owns (c : Thread nD τ) arg9 fullShare (stepA i x0 x1 x2 xm xa)) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg6.eq_unread hf3
  obtain rfl := harg7.eq_unread hf7; obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    sl_unfold_words
    closeStore
  isplitl [H8]
  · iexists _; isplitr
    swap; · iexact H8
    ipureintro
    sl_unfold_words
    closeStore
  iexists _; isplitr
  swap; · iexact H9
  ipureintro
  sl_unfold_words
  closeStore

set_option maxHeartbeats 4000000 in
/-- A key tile after the query tile that is not the last: nothing is read or written. -/
theorem runC (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : ¬cond1_0 i) (hc1 : ¬cond1_1 i) (hc2 : ¬cond1_2 i)
    (x0 x1 x2 : Vec F S1x512x1024 .bf16) (xo : Vec F S1x512x1024 .f32) (xm xl : Vec F S1x512x1 .f32) (xa : Vec F S1x512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo
        ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2
            ∗ owns (c : Thread nD τ) arg6 fullShare xo
            ∗ owns (c : Thread nD τ) arg7 fullShare xm
            ∗ owns (c : Thread nD τ) arg8 fullShare xl
            ∗ owns (c : Thread nD τ) arg9 fullShare xa) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg6.eq_unread hf3
  obtain rfl := harg7.eq_unread hf7; obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 4000000 in
/-- The last key tile when it contributes (the last query tile): one step, then the output block is the accumulator over the sum. -/
theorem runD (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (hc2 : cond1_2 i)
    (x0 x1 x2 : Vec F S1x512x1024 .bf16) (xm xl : Vec F S1x512x1 .f32) (xa : Vec F S1x512x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2
            ∗ owns (c : Thread nD τ) arg6 fullShare (finO (stepA i x0 x1 x2 xm xa) (stepL i x0 x1 xm xl))
            ∗ owns (c : Thread nD τ) arg7 fullShare (stepM i x0 x1 xm)
            ∗ owns (c : Thread nD τ) arg8 fullShare (stepL i x0 x1 xm xl)
            ∗ owns (c : Thread nD τ) arg9 fullShare (stepA i x0 x1 x2 xm xa)) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    closeStore
  isplitl [H7]
  · iexists _; isplitr
    swap; · iexact H7
    ipureintro
    sl_unfold_words
    closeStore
  isplitl [H8]
  · iexists _; isplitr
    swap; · iexact H8
    ipureintro
    sl_unfold_words
    closeStore
  iexists _; isplitr
  swap; · iexact H9
  ipureintro
  sl_unfold_words
  closeStore

set_option maxHeartbeats 4000000 in
/-- The last key tile when it does not contribute: the output block is the carried accumulator over the carried sum. -/
theorem runE (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : ¬cond1_0 i) (hc1 : ¬cond1_1 i) (hc2 : cond1_2 i)
    (x0 x1 x2 : Vec F S1x512x1024 .bf16) (xm xl : Vec F S1x512x1 .f32) (xa : Vec F S1x512x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2
            ∗ owns (c : Thread nD τ) arg6 fullShare (finO xa xl)
            ∗ owns (c : Thread nD τ) arg7 fullShare xm
            ∗ owns (c : Thread nD τ) arg8 fullShare xl
            ∗ owns (c : Thread nD τ) arg9 fullShare xa) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    closeStore
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the key and value
    blocks of a skipped tile are the previous tile's, the block index being clamped). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The carried statistics: running maximum, running sum, accumulator. -/
abbrev Stat (F : FTy → Type) : Type := Vec F S1x512x1 .f32 × Vec F S1x512x1 .f32 × Vec F S1x512x1024 .f32

/-- One step at point `t` from the statistics `s`, on the point's query, key and value blocks. -/
def stepAt (c : Dev nD) (t : Fin cfg1.N) (s : Stat F) : Stat F :=
  (stepM (grid1.coords t) (iblk1 V c 0 t) (iblk1 V c 1 t) s.1,
   stepL (grid1.coords t) (iblk1 V c 0 t) (iblk1 V c 1 t) s.1 s.2.1,
   stepA (grid1.coords t) (iblk1 V c 0 t) (iblk1 V c 1 t) (iblk1 V c 2 t) s.1 s.2.2)

/-- The statistics after the body at position `n` (position = 16·batch + 4·query tile + key tile): reset and stepped at
    a first key tile, stepped at a contributing later one, left alone at a key tile after the query tile. -/
def stat1 (c : Dev nD) : (n : ℕ) → n < cfg1.N → Stat F
  | 0, hn => stepAt V c ⟨0, hn⟩ (initM, initL, initA)
  | n + 1, hn =>
    if (n + 1) % 4 = 0 then stepAt V c ⟨n + 1, hn⟩ (initM, initL, initA)
    else if (n + 1) % 4 ≤ (n + 1) / 4 % 4 then stepAt V c ⟨n + 1, hn⟩ (stat1 c n (Nat.lt_of_succ_lt hn))
    else stat1 c n (Nat.lt_of_succ_lt hn)

theorem stat1_A (c : Dev nD) (t : Fin cfg1.N) (h0 : t.val % 4 = 0) :
    stat1 V c t.val t.isLt = stepAt V c t (initM, initL, initA) := by
  obtain ⟨n, hn⟩ := t
  cases n with
  | zero => rfl
  | succ n => exact if_pos h0

theorem stat1_B (c : Dev nD) (t : Fin cfg1.N) (h0 : ¬t.val % 4 = 0) (h1 : t.val % 4 ≤ t.val / 4 % 4) :
    stat1 V c t.val t.isLt = stepAt V c t (stat1 V c (t.val - 1) (Nat.lt_of_le_of_lt (Nat.sub_le _ _) t.isLt)) := by
  obtain ⟨n, hn⟩ := t
  cases n with
  | zero => exact absurd (Nat.zero_mod _) h0
  | succ n => exact (if_neg h0).trans (if_pos h1)

theorem stat1_C (c : Dev nD) (t : Fin cfg1.N) (h0 : ¬t.val % 4 = 0) (h1 : ¬t.val % 4 ≤ t.val / 4 % 4) :
    stat1 V c t.val t.isLt = stat1 V c (t.val - 1) (Nat.lt_of_le_of_lt (Nat.sub_le _ _) t.isLt) := by
  obtain ⟨n, hn⟩ := t
  cases n with
  | zero => exact absurd (Nat.zero_mod _) h0
  | succ n => exact (if_neg h0).trans (if_neg h1)

/-- The scratch operands: whole scoped buffers of the kernel's own. -/
abbrev scM : Memref sig .tc .vmem S1x512x1 .f32 := Memref.whole cc1_scratch0
abbrev scL : Memref sig .tc .vmem S1x512x1 .f32 := Memref.whole cc1_scratch1
abbrev scA : Memref sig .tc .vmem S1x512x1024 .f32 := Memref.whole cc1_scratch2

/-- A scoped buffer the attention kernel does not use (a staging buffer of the projection), at some contents. -/
abbrev anyBuf (c : Dev nD) (b : Ref sig .tc) : sProp 𝕄 :=
  iprop(∃ f : Buf (Elt F) ((c : Thread nD τ).loc b), ((c : Thread nD τ).loc b) ↦{fullShare} f)

/-- The region's invariant before the first point, with the scratch operands as memrefs owned at some contents. -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_stg2_0 ∗ anyBuf c cc0_stg2_1
          ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-- The region's invariant before position `n`: before the first point every scratch buffer at anything; afterwards
    the three scratch buffers at the statistics the point before left. -/
def PhiS (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_stg2_0 ∗ anyBuf c cc0_stg2_1
      ∗ owns (c : Thread nD τ) scM fullShare (stat1 V c n hn).1 ∗ owns (c : Thread nD τ) scL fullShare (stat1 V c n hn).2.1
      ∗ owns (c : Thread nD τ) scA fullShare (stat1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyBuf c cc0_stg0_0 ∗ anyBuf c cc0_stg0_1 ∗ anyBuf c cc0_stg1_0 ∗ anyBuf c cc0_stg2_0 ∗ anyBuf c cc0_stg2_1
      ∗ owns (c : Thread nD τ) scM fullShare (stat1 V c n hn).1 ∗ owns (c : Thread nD τ) scL fullShare (stat1 V c n hn).2.1
      ∗ owns (c : Thread nD τ) scA fullShare (stat1 V c n hn).2.2) ∗ (∃ r, prngReg c r)) := rfl

theorem PhiS_pos (c : Dev nD) (n : ℕ) (h : n ≤ cfg1.N) (hz : n ≠ 0) :
    PhiS V c n h = iprop(iprop(anyBuf c cc0_stg0_0 ∗ anyBuf c cc0_stg0_1 ∗ anyBuf c cc0_stg1_0 ∗ anyBuf c cc0_stg2_0 ∗ anyBuf c cc0_stg2_1
      ∗ owns (c : Thread nD τ) scM fullShare (stat1 V c (n - 1) (by omega)).1 ∗ owns (c : Thread nD τ) scL fullShare (stat1 V c (n - 1) (by omega)).2.1
      ∗ owns (c : Thread nD τ) scA fullShare (stat1 V c (n - 1) (by omega)).2.2) ∗ (∃ r, prngReg c r)) := by
  cases n with
  | zero => exact absurd rfl hz
  | succ n => rfl

/-- The proof data of the attention pipeline on core `c`: the arrays as the region finds them; after the body each
    input's buffer at its block, the output's at the accumulator over the sum (consulted at the last key tile only);
    the invariant carries the statistics; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => finO (stat1 V c t.val t.isLt).2.2 (stat1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = finO (stat1 V c t.val t.isLt).2.2 (stat1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Where the output window is idle: everywhere but at the last key tile, where its block is also written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem liveAt1_3 : ∀ t : Fin cfg1.N, cond1_2 (grid1.coords t) → cfg1.idle 3 (grid1.coords t) = false := by decide +kernel

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the position decides which of the five cases it is in; the invariant hands the body the
    statistics the point before left (anything at the first point) and takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · have hc0 : cond1_0 (grid1.coords t) := (hcond1_0 t).mpr h0
    have hc1 : cond1_1 (grid1.coords t) := (hcond1_1 t).mpr (by omega)
    have hc2 : ¬cond1_2 (grid1.coords t) := fun h => by have := (hcond1_2 t).mp h; omega
    rw [show (dat1 V c).leavesExact 0 t = owns (c : Thread nD τ) (st1_0 t) fullShare ((dat1 V c).after 0 t) from rfl, after1_0,
      show (dat1 V c).leavesExact 1 t = owns (c : Thread nD τ) (st1_1 t) fullShare ((dat1 V c).after 1 t) from rfl, after1_1,
      show (dat1 V c).leavesExact 2 t = owns (c : Thread nD τ) (st1_2 t) fullShare ((dat1 V c).after 2 t) from rfl, after1_2]
    rw [Dat.leavesExact_idle (dat1 V c) 3 t (idleAt1_3 t hc2) (noFlush1_3 t hc2)]
    rw [stat1_A V c t h0]; unfold stepAt; (try dsimp only)
    by_cases hz : t.val = 0
    · rw [PhiS_castSucc V c t, PhiS_zero V c _ _ hz, PhiA1_eq]
      iintro ⟨⟨⟨E1, E2, E3, E4, E5, HS7, HS8, HS9⟩, Hg⟩, Ho, ⟨%d0, H0⟩, ⟨%d1, H1⟩, ⟨%d2, H2⟩, ⟨%d3, H3⟩⟩
      iapply (runA c Set.univ (grid1.coords t) _ _ _ _ _ _ _ _ _ _ _ _ _ _ hc0 hc1 hc2 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS7]; · iexact HS7
      isplitl [HS8]; · iexact HS8
      isplitl [HS9]; · iexact HS9
      iintro ⟨H0, H1, H2, H3, HS7, HS8, HS9⟩
      isplitl [E1 E2 E3 E4 E5 HS7 HS8 HS9 Hg]
      · isplitr [Hg]
        · isplitl [E1]; · iexact E1
          isplitl [E2]; · iexact E2
          isplitl [E3]; · iexact E3
          isplitl [E4]; · iexact E4
          isplitl [E5]; · iexact E5
          isplitl [HS7]; · iexact HS7
          isplitl [HS8]; · iexact HS8
          iexact HS9
        iexact Hg
      isplitl [Ho]; · iexact Ho
      isplitl [H0]; · iexact H0
      isplitl [H1]; · iexact H1
      isplitl [H2]; · iexact H2
      iexists d3; iexact H3
    · rw [PhiS_castSucc V c t, PhiS_pos V c _ _ hz]
      iintro ⟨⟨⟨E1, E2, E3, E4, E5, HS7, HS8, HS9⟩, Hg⟩, Ho, ⟨%d0, H0⟩, ⟨%d1, H1⟩, ⟨%d2, H2⟩, ⟨%d3, H3⟩⟩
      iapply (runA c Set.univ (grid1.coords t) _ _ _ _ _ _ _ _ _ _ _ _ _ _ hc0 hc1 hc2 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS7]; · iexists _; iexact HS7
      isplitl [HS8]; · iexists _; iexact HS8
      isplitl [HS9]; · iexists _; iexact HS9
      iintro ⟨H0, H1, H2, H3, HS7, HS8, HS9⟩
      isplitl [E1 E2 E3 E4 E5 HS7 HS8 HS9 Hg]
      · isplitr [Hg]
        · isplitl [E1]; · iexact E1
          isplitl [E2]; · iexact E2
          isplitl [E3]; · iexact E3
          isplitl [E4]; · iexact E4
          isplitl [E5]; · iexact E5
          isplitl [HS7]; · iexact HS7
          isplitl [HS8]; · iexact HS8
          iexact HS9
        iexact Hg
      isplitl [Ho]; · iexact Ho
      isplitl [H0]; · iexact H0
      isplitl [H1]; · iexact H1
      isplitl [H2]; · iexact H2
      iexists d3; iexact H3

  · have hc0 : ¬cond1_0 (grid1.coords t) := fun h => h0 ((hcond1_0 t).mp h)
    by_cases h1 : t.val % 4 ≤ t.val / 4 % 4
    · have hc1 : cond1_1 (grid1.coords t) := (hcond1_1 t).mpr h1
      by_cases h2 : t.val % 4 = 3
      · have hc2 : cond1_2 (grid1.coords t) := (hcond1_2 t).mpr h2
        rw [show (dat1 V c).leavesExact 0 t = owns (c : Thread nD τ) (st1_0 t) fullShare ((dat1 V c).after 0 t) from rfl, after1_0,
          show (dat1 V c).leavesExact 1 t = owns (c : Thread nD τ) (st1_1 t) fullShare ((dat1 V c).after 1 t) from rfl, after1_1,
          show (dat1 V c).leavesExact 2 t = owns (c : Thread nD τ) (st1_2 t) fullShare ((dat1 V c).after 2 t) from rfl, after1_2]
        rw [show (dat1 V c).leavesExact 3 t = owns (c : Thread nD τ) (st1_3 t) fullShare ((dat1 V c).after 3 t) from by
          unfold Dat.leavesExact; rw [liveAt1_3 t hc2], after1_3]
        rw [stat1_B V c t h0 h1]; unfold stepAt; (try dsimp only)
        have hz : t.val ≠ 0 := fun hz => h0 (by rw [hz])
        rw [PhiS_castSucc V c t, PhiS_pos V c _ _ hz]
        iintro ⟨⟨⟨E1, E2, E3, E4, E5, HS7, HS8, HS9⟩, Hg⟩, Ho, ⟨%d0, H0⟩, ⟨%d1, H1⟩, ⟨%d2, H2⟩, ⟨%d3, H3⟩⟩
        iapply (runD c Set.univ (grid1.coords t) _ _ _ _ _ _ _ _ _ _ _ _ _ _ hc0 hc1 hc2 (iblk1 V c 0 t) (iblk1 V c 1 t) (iblk1 V c 2 t) (stat1 V c (t.val - 1) (Nat.lt_of_le_of_lt (Nat.sub_le _ _) t.isLt)).1 (stat1 V c (t.val - 1) (Nat.lt_of_le_of_lt (Nat.sub_le _ _) t.isLt)).2.1 (stat1 V c (t.val - 1) (Nat.lt_of_le_of_lt (Nat.sub_le _ _) t.isLt)).2.2 _)
        isplitl [H0]; · iexact H0
        isplitl [H1]; · iexact H1
        isplitl [H2]; · iexact H2
        isplitl [H3]; · iexists _; iexact H3
        isplitl [HS7]; · iexact HS7
        isplitl [HS8]; · iexact HS8
        isplitl [HS9]; · iexact HS9
        iintro ⟨H0, H1, H2, H3, HS7, HS8, HS9⟩
        isplitl [E1 E2 E3 E4 E5 HS7 HS8 HS9 Hg]
        · isplitr [Hg]
          · isplitl [E1]; · iexact E1
            isplitl [E2]; · iexact E2
            isplitl [E3]; · iexact E3
            isplitl [E4]; · iexact E4
            isplitl [E5]; · iexact E5
            isplitl [HS7]; · iexact HS7
            isplitl [HS8]; · iexact HS8
            iexact HS9
          iexact Hg
        isplitl [Ho]; · iexact Ho
        isplitl [H0]; · iexact H0
        isplitl [H1]; · iexact H1
        isplitl [H2]; · iexact H2
        iexact H3

      · have hc2 : ¬cond1_2 (grid1.coords t) := fun h => h2 ((hcond1_2 t).mp h)
        rw [show (dat1 V c).leavesExact 0 t = owns (c : Thread nD τ) (st1_0 t) fullShare ((dat1 V c).after 0 t) from rfl, after1_0,
          show (dat1 V c).leavesExact 1 t = owns (c : Thread nD τ) (st1_1 t) fullShare ((dat1 V c).after 1 t) from rfl, after1_1,
          show (dat1 V c).leavesExact 2 t = owns (c : Thread nD τ) (st1_2 t) fullShare ((dat1 V c).after 2 t) from rfl, after1_2]
        rw [Dat.leavesExact_idle (dat1 V c) 3 t (idleAt1_3 t hc2) (noFlush1_3 t hc2)]
        rw [stat1_B V c t h0 h1]; unfold stepAt; (try dsimp only)
        have hz : t.val ≠ 0 := fun hz => h0 (by rw [hz])
        rw [PhiS_castSucc V c t, PhiS_pos V c _ _ hz]
        iintro ⟨⟨⟨E1, E2, E3, E4, E5, HS7, HS8, HS9⟩, Hg⟩, Ho, ⟨%d0, H0⟩, ⟨%d1, H1⟩, ⟨%d2, H2⟩, ⟨%d3, H3⟩⟩
        iapply (runB c Set.univ (grid1.coords t) _ _ _ _ _ _ _ _ _ _ _ _ _ _ hc0 hc1 hc2 (iblk1 V c 0 t) (iblk1 V c 1 t) (iblk1 V c 2 t) ((dat1 V c).before 3 t d3) (stat1 V c (t.val - 1) (Nat.lt_of_le_of_lt (Nat.sub_le _ _) t.isLt)).1 (stat1 V c (t.val - 1) (Nat.lt_of_le_of_lt (Nat.sub_le _ _) t.isLt)).2.1 (stat1 V c (t.val - 1) (Nat.lt_of_le_of_lt (Nat.sub_le _ _) t.isLt)).2.2 _)
        isplitl [H0]; · iexact H0
        isplitl [H1]; · iexact H1
        isplitl [H2]; · iexact H2
        isplitl [H3]; · iexact H3
        isplitl [HS7]; · iexact HS7
        isplitl [HS8]; · iexact HS8
        isplitl [HS9]; · iexact HS9
        iintro ⟨H0, H1, H2, H3, HS7, HS8, HS9⟩
        isplitl [E1 E2 E3 E4 E5 HS7 HS8 HS9 Hg]
        · isplitr [Hg]
          · isplitl [E1]; · iexact E1
            isplitl [E2]; · iexact E2
            isplitl [E3]; · iexact E3
            isplitl [E4]; · iexact E4
            isplitl [E5]; · iexact E5
            isplitl [HS7]; · iexact HS7
            isplitl [HS8]; · iexact HS8
            iexact HS9
          iexact Hg
        isplitl [Ho]; · iexact Ho
        isplitl [H0]; · iexact H0
        isplitl [H1]; · iexact H1
        isplitl [H2]; · iexact H2
        iexists d3; iexact H3

    · have hc1 : ¬cond1_1 (grid1.coords t) := fun h => h1 ((hcond1_1 t).mp h)
      by_cases h2 : t.val % 4 = 3
      · have hc2 : cond1_2 (grid1.coords t) := (hcond1_2 t).mpr h2
        rw [show (dat1 V c).leavesExact 0 t = owns (c : Thread nD τ) (st1_0 t) fullShare ((dat1 V c).after 0 t) from rfl, after1_0,
          show (dat1 V c).leavesExact 1 t = owns (c : Thread nD τ) (st1_1 t) fullShare ((dat1 V c).after 1 t) from rfl, after1_1,
          show (dat1 V c).leavesExact 2 t = owns (c : Thread nD τ) (st1_2 t) fullShare ((dat1 V c).after 2 t) from rfl, after1_2]
        rw [show (dat1 V c).leavesExact 3 t = owns (c : Thread nD τ) (st1_3 t) fullShare ((dat1 V c).after 3 t) from by
          unfold Dat.leavesExact; rw [liveAt1_3 t hc2], after1_3]
        rw [stat1_C V c t h0 h1]
        have hz : t.val ≠ 0 := fun hz => h0 (by rw [hz])
        rw [PhiS_castSucc V c t, PhiS_pos V c _ _ hz]
        iintro ⟨⟨⟨E1, E2, E3, E4, E5, HS7, HS8, HS9⟩, Hg⟩, Ho, ⟨%d0, H0⟩, ⟨%d1, H1⟩, ⟨%d2, H2⟩, ⟨%d3, H3⟩⟩
        iapply (runE c Set.univ (grid1.coords t) _ _ _ _ _ _ _ _ _ _ _ _ _ _ hc0 hc1 hc2 (iblk1 V c 0 t) (iblk1 V c 1 t) (iblk1 V c 2 t) (stat1 V c (t.val - 1) (Nat.lt_of_le_of_lt (Nat.sub_le _ _) t.isLt)).1 (stat1 V c (t.val - 1) (Nat.lt_of_le_of_lt (Nat.sub_le _ _) t.isLt)).2.1 (stat1 V c (t.val - 1) (Nat.lt_of_le_of_lt (Nat.sub_le _ _) t.isLt)).2.2 _)
        isplitl [H0]; · iexact H0
        isplitl [H1]; · iexact H1
        isplitl [H2]; · iexact H2
        isplitl [H3]; · iexists _; iexact H3
        isplitl [HS7]; · iexact HS7
        isplitl [HS8]; · iexact HS8
        isplitl [HS9]; · iexact HS9
        iintro ⟨H0, H1, H2, H3, HS7, HS8, HS9⟩
        isplitl [E1 E2 E3 E4 E5 HS7 HS8 HS9 Hg]
        · isplitr [Hg]
          · isplitl [E1]; · iexact E1
            isplitl [E2]; · iexact E2
            isplitl [E3]; · iexact E3
            isplitl [E4]; · iexact E4
            isplitl [E5]; · iexact E5
            isplitl [HS7]; · iexact HS7
            isplitl [HS8]; · iexact HS8
            iexact HS9
          iexact Hg
        isplitl [Ho]; · iexact Ho
        isplitl [H0]; · iexact H0
        isplitl [H1]; · iexact H1
        isplitl [H2]; · iexact H2
        iexact H3

      · have hc2 : ¬cond1_2 (grid1.coords t) := fun h => h2 ((hcond1_2 t).mp h)
        rw [show (dat1 V c).leavesExact 0 t = owns (c : Thread nD τ) (st1_0 t) fullShare ((dat1 V c).after 0 t) from rfl, after1_0,
          show (dat1 V c).leavesExact 1 t = owns (c : Thread nD τ) (st1_1 t) fullShare ((dat1 V c).after 1 t) from rfl, after1_1,
          show (dat1 V c).leavesExact 2 t = owns (c : Thread nD τ) (st1_2 t) fullShare ((dat1 V c).after 2 t) from rfl, after1_2]
        rw [Dat.leavesExact_idle (dat1 V c) 3 t (idleAt1_3 t hc2) (noFlush1_3 t hc2)]
        rw [stat1_C V c t h0 h1]
        have hz : t.val ≠ 0 := fun hz => h0 (by rw [hz])
        rw [PhiS_castSucc V c t, PhiS_pos V c _ _ hz]
        iintro ⟨⟨⟨E1, E2, E3, E4, E5, HS7, HS8, HS9⟩, Hg⟩, Ho, ⟨%d0, H0⟩, ⟨%d1, H1⟩, ⟨%d2, H2⟩, ⟨%d3, H3⟩⟩
        iapply (runC c Set.univ (grid1.coords t) _ _ _ _ _ _ _ _ _ _ _ _ _ _ hc0 hc1 hc2 (iblk1 V c 0 t) (iblk1 V c 1 t) (iblk1 V c 2 t) ((dat1 V c).before 3 t d3) (stat1 V c (t.val - 1) (Nat.lt_of_le_of_lt (Nat.sub_le _ _) t.isLt)).1 (stat1 V c (t.val - 1) (Nat.lt_of_le_of_lt (Nat.sub_le _ _) t.isLt)).2.1 (stat1 V c (t.val - 1) (Nat.lt_of_le_of_lt (Nat.sub_le _ _) t.isLt)).2.2 _)
        isplitl [H0]; · iexact H0
        isplitl [H1]; · iexact H1
        isplitl [H2]; · iexact H2
        isplitl [H3]; · iexact H3
        isplitl [HS7]; · iexact HS7
        isplitl [HS8]; · iexact HS8
        isplitl [HS9]; · iexact HS9
        iintro ⟨H0, H1, H2, H3, HS7, HS8, HS9⟩
        isplitl [E1 E2 E3 E4 E5 HS7 HS8 HS9 Hg]
        · isplitr [Hg]
          · isplitl [E1]; · iexact E1
            isplitl [E2]; · iexact E2
            isplitl [E3]; · iexact E3
            isplitl [E4]; · iexact E4
            isplitl [E5]; · iexact E5
            isplitl [HS7]; · iexact HS7
            isplitl [HS8]; · iexact HS8
            iexact HS9
          iexact Hg
        isplitl [Ho]; · iexact Ho
        isplitl [H0]; · iexact H0
        isplitl [H1]; · iexact H1
        isplitl [H2]; · iexact H2
        iexists d3; iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scratch buffers back, their contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨E1, E2, E3, E4, E5, HS7, HS8, HS9⟩, Hg⟩
  isplitr [Hg]
  · isplitl [E1]; · iexact E1
    isplitl [E2]; · iexact E2
    isplitl [E3]; · iexact E3
    isplitl [E4]; · iexact E4
    isplitl [E5]; · iexact E5
    isplitl [HS7]; · iexists _; iexact HS7
    isplitl [HS8]; · iexists _; iexact HS8
    iexists _; iexact HS9
  iexact Hg

end Region1

end Cert.Kernel.Hand

end
-- ==== Proof.BitsRun.lean ====
/-
  The whole run of the kernel program, at any float instance: the host operations before the projection (a reshape of
  the input, the concatenation of the three weights, a change of format), the projection region, the host operations
  between (a reshape and three slices with their reshapes), the attention region.

  The contents of the TensorCore's unscoped buffers are followed from the launch to the return: each stretch of host
  operations rewrites the buffers it writes, each region leaves its output array at what its write-backs leave and
  every other buffer as it found it. Every weakly fair execution terminates without a fault and ends with every unscoped
  buffer at the last of these contents; in particular the four argument arrays end as launched, and the result array
  ends at what the attention region's write-backs leave.
-/
import proofs.«160108_j10788957848091_2_alg».proof.Proof.Gen.Kernel.Launch
import proofs.«160108_j10788957848091_2_alg».proof.Proof.Gen.Kernel.Skeleton
import proofs.«160108_j10788957848091_2_alg».proof.Proof.Gen.Kernel.Points
import Idealize.ShloMosaic.Lib.Pipeline.FrameBody
import Idealize.ShloMosaic.Lib.Pipeline.Value
import proofs.«160108_j10788957848091_2_alg».proof.Proof.BitsR0
import proofs.«160108_j10788957848091_2_alg».proof.Proof.BitsR1
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m ((c : Dev nD), b)
/-- After the first stretch of host operations (the projection region's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At the projection region's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second stretch of host operations (the attention region's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At the attention region's exit. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- Argument 0 reaches the end as launched: no host operation writes it and no region has it as a window. -/
theorem B4_main_arg0 (c : Dev nD) : B4 m c (Proc.devRef .tc main_arg0) = m ((c : Thread nD τ).loc main_arg0) :=
  calc B4 m c (Proc.devRef .tc main_arg0)
    _ = B3 m c (Proc.devRef .tc main_arg0) := B4_of_ne m c main_arg0 (by decide)
    _ = B2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m c (Proc.devRef .tc main_arg0) := B2_of_ne m c main_arg0 (by decide)
    _ = B0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

/-- Argument 1 reaches the end as launched: no host operation writes it and no region has it as a window. -/
theorem B4_main_arg1 (c : Dev nD) : B4 m c (Proc.devRef .tc main_arg1) = m ((c : Thread nD τ).loc main_arg1) :=
  calc B4 m c (Proc.devRef .tc main_arg1)
    _ = B3 m c (Proc.devRef .tc main_arg1) := B4_of_ne m c main_arg1 (by decide)
    _ = B2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m c (Proc.devRef .tc main_arg1) := B2_of_ne m c main_arg1 (by decide)
    _ = B0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-- Argument 2 reaches the end as launched: no host operation writes it and no region has it as a window. -/
theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m c (Proc.devRef .tc main_arg2) := B2_of_ne m c main_arg2 (by decide)
    _ = B0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

/-- Argument 3 reaches the end as launched: no host operation writes it and no region has it as a window. -/
theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m c (Proc.devRef .tc main_arg3) := B2_of_ne m c main_arg3 (by decide)
    _ = B0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-- The result array ends at what the attention region's write-backs leave. -/
theorem B4_main_v11 (c : Dev nD) : B4 m c (Proc.devRef .tc main_v11) = (dat1 (E3 m) c).arrAt 3 cfg1.N := B4_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (B4 m c) ∗ ∃ r, prngReg c r)

set_option backward.isDefEq.respectTransparency.types false in
/-- The projection region as a segment: entered with every unscoped buffer at the contents before it, left with
    them at the contents after it. Its windows' arrays are split out of the unscoped buffers at entry and put back at
    exit; the generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ Rest c)
  post c := iprop(StableHlo.held (c : Thread nD τ) (Pipeline.ucRefs τ sig) (B2 m c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region as a segment: entered with every unscoped buffer at the contents before it, left with
    them at the contents after it. Its windows' arrays are split out of the unscoped buffers at entry and put back at
    exit; the generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c); unfold Pipeline.ΦA
    iintro ⟨Hp, -, Hr⟩
    isplitl [Hr]; · iexact Hr
    iexact Hp
  hout c := by
    rw [Pipeline.ownSems0_none]
    refine BIBase.Entails.trans (hout1 (E3 m) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c)⟩) (run_all m ρ)

/-- The run with the result array named. -/
theorem run_result : θ_run defs (onTc (τ := τ) (main (F := F))) ⟨m, fun _ => 0, ρ⟩ (fun r => ∀ c : Dev nD,
      r.2.mem ((c.tc : Thread nD τ).loc main_v11) = (dat1 (E3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v11 (by decide))).trans (B4_main_v11 m c),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c)⟩) (run_all m ρ)

end Cert.Kernel.Hand

end
-- ==== Proof.IdealR0.lean ====
/-
  The projection region (the first kernel launch), at any float instance and at any contents `V` of the
  TensorCore's buffers when the region is entered.

  At grid point t the body reads the 512×1024 block t of the reshaped input and the whole 1024×3072 weight, forms
  their matrix product (512×3072), and stores its three 512×1024 column panels as the three leading slices of the
  3×512×1024 output block. The three stores tile the output block, so what the block holds after the body is one
  function of the two input blocks.
-/
import proofs.«160108_j10788957848091_2_alg».proof.Proof.Gen.KernelIdeal.Launch
import proofs.«160108_j10788957848091_2_alg».proof.Proof.Gen.KernelIdeal.Skeleton
import proofs.«160108_j10788957848091_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles of the body's accesses: the whole input block, the whole weight, the three slices of the output block. -/
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rO0 : Rect S3x512x1024 := Rect.unit (s := S3x512x1024) ![0, 0, 0] S1x512x1024.size inb_S3x512x1024_S1x512x1024_0_0_0
abbrev rO1 : Rect S3x512x1024 := Rect.unit (s := S3x512x1024) ![1, 0, 0] S1x512x1024.size inb_S3x512x1024_S1x512x1024_1_0_0
abbrev rO2 : Rect S3x512x1024 := Rect.unit (s := S3x512x1024) ![2, 0, 0] S1x512x1024.size inb_S3x512x1024_S1x512x1024_2_0_0

/-- The output block after the body: its three stores as pieces, the last store first. -/
def out0_2 (x0 : Vec F S512x1024 .f32) (x1 : Vec F S1024x3072 .bf16) : Vec F S3x512x1024 .bf16 :=
  View.canon [⟨rO2, k0_pay4 (View.ld x0 rX) (View.ld x1 rW)⟩, ⟨rO1, k0_pay3 (View.ld x0 rX) (View.ld x1 rW)⟩, ⟨rO0, k0_pay2 (View.ld x0 rX) (View.ld x1 rW)⟩]

/-- The three slices tile the output block. -/
theorem cover0_2 (p0 p1 p2 : Vec F S1x512x1024 .bf16) (y : S3x512x1024.Idx) :
    ∃ pc ∈ ([⟨rO2, p2⟩, ⟨rO1, p1⟩, ⟨rO0, p0⟩] : List (View.Piece (Elt F) S3x512x1024 .bf16)), y ∈ pc.1.set :=
  View.cover_of_tiled [⟨rO2, p2⟩, ⟨rO1, p1⟩, ⟨rO0, p0⟩] S1x512x1024.size (by rfl) y

set_option maxHeartbeats 1000000 in
/-- The body on whole staging memrefs: the inputs are left as they were, the output block ends at `out0_2` of them. -/
theorem sound_kernel0 (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S3x512x1024 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _)

/-- The proof data of the projection pipeline on core `c`: the arrays as the region finds them; after the body at
    point `t` each input's buffer at its block and the output's at `out0_2` of the two input blocks; nothing else
    is carried between points, nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.IdealR1.lean ====
/-
  The attention region (the second kernel launch), at any float instance and at any contents `V` of the
  TensorCore's buffers when the region is entered.

  The grid is (batch, query tile, key tile), 4 × 4 × 4, each tile 512 rows. The body keeps three running statistics
  per query row in scratch buffers across the key tiles of one query tile — the maximum of the masked scaled scores
  seen so far, the sum of exp(score − maximum), and the accumulator ∑ exp(score − maximum)·value — resets them at the
  first key tile, updates them at every key tile not after the query tile, and at the last key tile stores the
  accumulator divided by the sum into the output block. Five combinations of the three conditions occur on the grid.
-/
import proofs.«160108_j10788957848091_2_alg».proof.Proof.Gen.KernelIdeal.Launch
import proofs.«160108_j10788957848091_2_alg».proof.Proof.Gen.KernelIdeal.Skeleton
import proofs.«160108_j10788957848091_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F] [Named F]

local notation "𝕄" => MT nD τ sig Unit (Elt F) ℕ (UR sig nD τ) ℕ

/-! ## The branch conditions of the attention body, from the grid coordinates (batch, query tile, key tile) -/

/-- The first key tile of a query tile: the running statistics are reset. -/
abbrev cond1_0 (i : grid1.Coords) : Prop := (Scalar.cmpi .ne (Scalar.extui (Scalar.cmpi .eq (BitVec.ofNat 32 (i 2).val) 0#32)) 0#32) = 1#1
/-- The key tile is not after the query tile: the tile contributes. -/
abbrev cond1_1 (i : grid1.Coords) : Prop := (Scalar.cmpi .ne (Scalar.extui (Scalar.cmpi .sle (BitVec.ofNat 32 (i 2).val) (BitVec.ofNat 32 (i 1).val))) 0#32) = 1#1
/-- The last key tile: the output block is written. -/
abbrev cond1_2 (i : grid1.Coords) : Prop := k1_cond3 i = 1#1
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)
theorem hcond1_2 : ∀ t : Fin cfg1.N, cond1_2 (grid1.coords t) ↔ t.val % 4 = 3 :=
  (by decide +kernel : ∀ t : Fin grid1.N, cond1_2 (grid1.coords t) ↔ t.val % 4 = 3)

/-! ## One step of the running softmax, as functions of the blocks and of the carried statistics -/

/-- The statistics a query tile starts from: maximum -∞, sum 0, accumulator 0. -/
def initM : Vec F S1x512x1 .f32 := k1_pay1
def initL : Vec F S1x512x1 .f32 := k1_pay2
def initA : Vec F S1x512x1024 .f32 := k1_pay3
/-- The new running maximum: the old one against the row maxima of the masked scaled scores of this tile. -/
def stepM (i : grid1.Coords) (q k : Vec F S1x512x1024 .bf16) (m : Vec F S1x512x1 .f32) : Vec F S1x512x1 .f32 :=
  k1_pay6 (k1_pay10 (BitVec.ofNat 32 (i 1).val) (BitVec.ofNat 32 (i 2).val) q k m)
/-- The new running sum: the old one rescaled by exp(old max − new max) plus the row sums of exp(score − new max). -/
def stepL (i : grid1.Coords) (q k : Vec F S1x512x1024 .bf16) (m l : Vec F S1x512x1 .f32) : Vec F S1x512x1 .f32 :=
  k1_pay4 (k1_pay13 (BitVec.ofNat 32 (i 1).val) (BitVec.ofNat 32 (i 2).val) q k m m l) (k1_pay14 (BitVec.ofNat 32 (i 1).val) (BitVec.ofNat 32 (i 2).val) q k m)
/-- The new accumulator: the old one rescaled the same way plus exp(score − new max) times the value block. -/
def stepA (i : grid1.Coords) (q k v : Vec F S1x512x1024 .bf16) (m : Vec F S1x512x1 .f32) (a : Vec F S1x512x1024 .f32) : Vec F S1x512x1024 .f32 :=
  k1_pay5 (k1_pay8 v) (k1_pay11 (BitVec.ofNat 32 (i 1).val) (BitVec.ofNat 32 (i 2).val) q k m m) (k1_pay12 (BitVec.ofNat 32 (i 1).val) (BitVec.ofNat 32 (i 2).val) q k m) a
/-- The output block: the accumulator divided by the running sum. -/
def finO (a : Vec F S1x512x1024 .f32) (l : Vec F S1x512x1 .f32) : Vec F S1x512x1024 .f32 := k1_pay7 a l

theorem hz3 : (![0, 0, 0] : Fin 3 → Nat) = fun _ => 0 := by funext a; fin_cases a <;> rfl

/-- A whole-buffer store covers the buffer, whatever was stored before it. -/
theorem coverCol {e : EltTy} (inb : ∀ a, (![0, 0, 0] : Fin 3 → Nat) a + S1x512x1.size a ≤ S1x512x1.size a) (p : S1x512x1.Idx → Elt F e)
    (L : List (View.Piece (Elt F) S1x512x1 e)) :
    ∀ y, ∃ pc ∈ ((⟨Rect.unit (s := S1x512x1) ![0, 0, 0] S1x512x1.size inb, p⟩ : View.Piece (Elt F) S1x512x1 e) :: L), y ∈ pc.1.set :=
  fun y => ⟨_, List.Mem.head _, View.mem_set_unit_zero hz3 inb y⟩
theorem coverBlk {e : EltTy} (inb : ∀ a, (![0, 0, 0] : Fin 3 → Nat) a + S1x512x1024.size a ≤ S1x512x1024.size a) (p : S1x512x1024.Idx → Elt F e)
    (L : List (View.Piece (Elt F) S1x512x1024 e)) :
    ∀ y, ∃ pc ∈ ((⟨Rect.unit (s := S1x512x1024) ![0, 0, 0] S1x512x1024.size inb, p⟩ : View.Piece (Elt F) S1x512x1024 e) :: L), y ∈ pc.1.set :=
  fun y => ⟨_, List.Mem.head _, View.mem_set_unit_zero hz3 inb y⟩

/-- Closes "the buffer, after whole-buffer stores the last of which wrote `p`, reads as `p`", with the loads inside `p`
    read back: a load of the whole buffer after a whole-buffer store reads the stored value, a load of an untouched
    whole buffer reads its contents. -/
macro "closeStore" : tactic => `(tactic| (
  first
    | rw [View.read_writes_eq_canon _ _ _ (coverCol _ _ _), View.canon_cons_unit_zero hz3]
    | rw [View.read_writes_eq_canon _ _ _ (coverBlk _ _ _), View.canon_cons_unit_zero hz3]
  simp only [View.readCov_unit_zero (S := S1x512x1) _ hz3, View.readCov_unit_zero (S := S1x512x1024) _ hz3, View.readAt_eq_ld,
    Memref.IsWhole.read_unread, View.ld_unit_zero (S := S1x512x1) hz3, View.ld_unit_zero (S := S1x512x1024) hz3]
  rfl))

set_option maxHeartbeats 4000000 in
/-- The first key tile of a query tile (it always contributes): the statistics are reset and one step is taken; the output block is left as found. -/
theorem runA (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : cond1_0 i) (hc1 : cond1_1 i) (hc2 : ¬cond1_2 i)
    (x0 x1 x2 : Vec F S1x512x1024 .bf16) (xo : Vec F S1x512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xo
            ∗ owns (c : Thread nD τ) arg7 fullShare (stepM i x0 x1 initM)
            ∗ owns (c : Thread nD τ) arg8 fullShare (stepL i x0 x1 initM initL)
            ∗ owns (c : Thread nD τ) arg9 fullShare (stepA i x0 x1 x2 initM initA)) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
  obtain rfl := harg3.eq_unread hf0; obtain rfl := harg4.eq_unread hf1; obtain rfl := harg5.eq_unread hf2
  obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    sl_unfold_words
    closeStore
  isplitl [H8]
  · iexists _; isplitr
    swap; · iexact H8
    ipureintro
    sl_unfold_words
    closeStore
  iexists _; isplitr
  swap; · iexact H9
  ipureintro
  sl_unfold_words
  closeStore

set_option maxHeartbeats 4000000 in
/-- A later contributing key tile that is not the last: one step from the carried statistics; the output block is left as found. -/
theorem runB (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (hc2 : ¬cond1_2 i)
    (x0 x1 x2 : Vec F S1x512x1024 .bf16) (xo : Vec F S1x512x1024 .f32) (xm xl : Vec F S1x512x1 .f32) (xa : Vec F S1x512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo
        ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2
            ∗ owns (c : Thread nD τ) arg6 fullShare xo
            ∗ owns (c : Thread nD τ) arg7 fullShare (stepM i x0 x1 xm)
            ∗ owns (c : Thread nD τ) arg8 fullShare (stepL i x0 x1 xm xl)
            ∗ owns (c : Thread nD τ) arg9 fullShare (stepA i x0 x1 x2 xm xa)) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg6.eq_unread hf3
  obtain rfl := harg7.eq_unread hf7; obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    sl_unfold_words
    closeStore
  isplitl [H8]
  · iexists _; isplitr
    swap; · iexact H8
    ipureintro
    sl_unfold_words
    closeStore
  iexists _; isplitr
  swap; · iexact H9
  ipureintro
  sl_unfold_words
  closeStore

set_option maxHeartbeats 4000000 in
/-- A key tile after the query tile that is not the last: nothing is read or written. -/
theorem runC (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : ¬cond1_0 i) (hc1 : ¬cond1_1 i) (hc2 : ¬cond1_2 i)
    (x0 x1 x2 : Vec F S1x512x1024 .bf16) (xo : Vec F S1x512x1024 .f32) (xm xl : Vec F S1x512x1 .f32) (xa : Vec F S1x512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo
        ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2
            ∗ owns (c : Thread nD τ) arg6 fullShare xo
            ∗ owns (c : Thread nD τ) arg7 fullShare xm
            ∗ owns (c : Thread nD τ) arg8 fullShare xl
            ∗ owns (c : Thread nD τ) arg9 fullShare xa) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg6.eq_unread hf3
  obtain rfl := harg7.eq_unread hf7; obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 4000000 in
/-- The last key tile when it contributes (the last query tile): one step, then the output block is the accumulator over the sum. -/
theorem runD (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (hc2 : cond1_2 i)
    (x0 x1 x2 : Vec F S1x512x1024 .bf16) (xm xl : Vec F S1x512x1 .f32) (xa : Vec F S1x512x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2
            ∗ owns (c : Thread nD τ) arg6 fullShare (finO (stepA i x0 x1 x2 xm xa) (stepL i x0 x1 xm xl))
            ∗ owns (c : Thread nD τ) arg7 fullShare (stepM i x0 x1 xm)
            ∗ owns (c : Thread nD τ) arg8 fullShare (stepL i x0 x1 xm xl)
            ∗ owns (c : Thread nD τ) arg9 fullShare (stepA i x0 x1 x2 xm xa)) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    closeStore
  isplitl [H7]
  · iexists _; isplitr
    swap; · iexact H7
    ipureintro
    sl_unfold_words
    closeStore
  isplitl [H8]
  · iexists _; isplitr
    swap; · iexact H8
    ipureintro
    sl_unfold_words
    closeStore
  iexists _; isplitr
  swap; · iexact H9
  ipureintro
  sl_unfold_words
  closeStore

set_option maxHeartbeats 4000000 in
/-- The last key tile when it does not contribute: the output block is the carried accumulator over the carried sum. -/
theorem runE (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : ¬cond1_0 i) (hc1 : ¬cond1_1 i) (hc2 : cond1_2 i)
    (x0 x1 x2 : Vec F S1x512x1024 .bf16) (xm xl : Vec F S1x512x1 .f32) (xa : Vec F S1x512x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2
            ∗ owns (c : Thread nD τ) arg6 fullShare (finO xa xl)
            ∗ owns (c : Thread nD τ) arg7 fullShare xm
            ∗ owns (c : Thread nD τ) arg8 fullShare xl
            ∗ owns (c : Thread nD τ) arg9 fullShare xa) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    closeStore
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the key and value
    blocks of a skipped tile are the previous tile's, the block index being clamped). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The carried statistics: running maximum, running sum, accumulator. -/
abbrev Stat (F : FTy → Type) : Type := Vec F S1x512x1 .f32 × Vec F S1x512x1 .f32 × Vec F S1x512x1024 .f32

/-- One step at point `t` from the statistics `s`, on the point's query, key and value blocks. -/
def stepAt (c : Dev nD) (t : Fin cfg1.N) (s : Stat F) : Stat F :=
  (stepM (grid1.coords t) (iblk1 V c 0 t) (iblk1 V c 1 t) s.1,
   stepL (grid1.coords t) (iblk1 V c 0 t) (iblk1 V c 1 t) s.1 s.2.1,
   stepA (grid1.coords t) (iblk1 V c 0 t) (iblk1 V c 1 t) (iblk1 V c 2 t) s.1 s.2.2)

/-- The statistics after the body at position `n` (position = 16·batch + 4·query tile + key tile): reset and stepped at
    a first key tile, stepped at a contributing later one, left alone at a key tile after the query tile. -/
def stat1 (c : Dev nD) : (n : ℕ) → n < cfg1.N → Stat F
  | 0, hn => stepAt V c ⟨0, hn⟩ (initM, initL, initA)
  | n + 1, hn =>
    if (n + 1) % 4 = 0 then stepAt V c ⟨n + 1, hn⟩ (initM, initL, initA)
    else if (n + 1) % 4 ≤ (n + 1) / 4 % 4 then stepAt V c ⟨n + 1, hn⟩ (stat1 c n (Nat.lt_of_succ_lt hn))
    else stat1 c n (Nat.lt_of_succ_lt hn)

theorem stat1_A (c : Dev nD) (t : Fin cfg1.N) (h0 : t.val % 4 = 0) :
    stat1 V c t.val t.isLt = stepAt V c t (initM, initL, initA) := by
  obtain ⟨n, hn⟩ := t
  cases n with
  | zero => rfl
  | succ n => exact if_pos h0

theorem stat1_B (c : Dev nD) (t : Fin cfg1.N) (h0 : ¬t.val % 4 = 0) (h1 : t.val % 4 ≤ t.val / 4 % 4) :
    stat1 V c t.val t.isLt = stepAt V c t (stat1 V c (t.val - 1) (Nat.lt_of_le_of_lt (Nat.sub_le _ _) t.isLt)) := by
  obtain ⟨n, hn⟩ := t
  cases n with
  | zero => exact absurd (Nat.zero_mod _) h0
  | succ n => exact (if_neg h0).trans (if_pos h1)

theorem stat1_C (c : Dev nD) (t : Fin cfg1.N) (h0 : ¬t.val % 4 = 0) (h1 : ¬t.val % 4 ≤ t.val / 4 % 4) :
    stat1 V c t.val t.isLt = stat1 V c (t.val - 1) (Nat.lt_of_le_of_lt (Nat.sub_le _ _) t.isLt) := by
  obtain ⟨n, hn⟩ := t
  cases n with
  | zero => exact absurd (Nat.zero_mod _) h0
  | succ n => exact (if_neg h0).trans (if_neg h1)

/-- The scratch operands: whole scoped buffers of the kernel's own. -/
abbrev scM : Memref sig .tc .vmem S1x512x1 .f32 := Memref.whole cc1_scratch0
abbrev scL : Memref sig .tc .vmem S1x512x1 .f32 := Memref.whole cc1_scratch1
abbrev scA : Memref sig .tc .vmem S1x512x1024 .f32 := Memref.whole cc1_scratch2

/-- A scoped buffer the attention kernel does not use (a staging buffer of the projection), at some contents. -/
abbrev anyBuf (c : Dev nD) (b : Ref sig .tc) : sProp 𝕄 :=
  iprop(∃ f : Buf (Elt F) ((c : Thread nD τ).loc b), ((c : Thread nD τ).loc b) ↦{fullShare} f)

/-- The region's invariant before the first point, with the scratch operands as memrefs owned at some contents. -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_stg2_0 ∗ anyBuf c cc0_stg2_1
          ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-- The region's invariant before position `n`: before the first point every scratch buffer at anything; afterwards
    the three scratch buffers at the statistics the point before left. -/
def PhiS (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_stg2_0 ∗ anyBuf c cc0_stg2_1
      ∗ owns (c : Thread nD τ) scM fullShare (stat1 V c n hn).1 ∗ owns (c : Thread nD τ) scL fullShare (stat1 V c n hn).2.1
      ∗ owns (c : Thread nD τ) scA fullShare (stat1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyBuf c cc0_stg0_0 ∗ anyBuf c cc0_stg0_1 ∗ anyBuf c cc0_stg1_0 ∗ anyBuf c cc0_stg2_0 ∗ anyBuf c cc0_stg2_1
      ∗ owns (c : Thread nD τ) scM fullShare (stat1 V c n hn).1 ∗ owns (c : Thread nD τ) scL fullShare (stat1 V c n hn).2.1
      ∗ owns (c : Thread nD τ) scA fullShare (stat1 V c n hn).2.2) ∗ (∃ r, prngReg c r)) := rfl

theorem PhiS_pos (c : Dev nD) (n : ℕ) (h : n ≤ cfg1.N) (hz : n ≠ 0) :
    PhiS V c n h = iprop(iprop(anyBuf c cc0_stg0_0 ∗ anyBuf c cc0_stg0_1 ∗ anyBuf c cc0_stg1_0 ∗ anyBuf c cc0_stg2_0 ∗ anyBuf c cc0_stg2_1
      ∗ owns (c : Thread nD τ) scM fullShare (stat1 V c (n - 1) (by omega)).1 ∗ owns (c : Thread nD τ) scL fullShare (stat1 V c (n - 1) (by omega)).2.1
      ∗ owns (c : Thread nD τ) scA fullShare (stat1 V c (n - 1) (by omega)).2.2) ∗ (∃ r, prngReg c r)) := by
  cases n with
  | zero => exact absurd rfl hz
  | succ n => rfl

/-- The proof data of the attention pipeline on core `c`: the arrays as the region finds them; after the body each
    input's buffer at its block, the output's at the accumulator over the sum (consulted at the last key tile only);
    the invariant carries the statistics; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => finO (stat1 V c t.val t.isLt).2.2 (stat1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = finO (stat1 V c t.val t.isLt).2.2 (stat1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Where the output window is idle: everywhere but at the last key tile, where its block is also written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem liveAt1_3 : ∀ t : Fin cfg1.N, cond1_2 (grid1.coords t) → cfg1.idle 3 (grid1.coords t) = false := by decide +kernel

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the position decides which of the five cases it is in; the invariant hands the body the
    statistics the point before left (anything at the first point) and takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · have hc0 : cond1_0 (grid1.coords t) := (hcond1_0 t).mpr h0
    have hc1 : cond1_1 (grid1.coords t) := (hcond1_1 t).mpr (by omega)
    have hc2 : ¬cond1_2 (grid1.coords t) := fun h => by have := (hcond1_2 t).mp h; omega
    rw [show (dat1 V c).leavesExact 0 t = owns (c : Thread nD τ) (st1_0 t) fullShare ((dat1 V c).after 0 t) from rfl, after1_0,
      show (dat1 V c).leavesExact 1 t = owns (c : Thread nD τ) (st1_1 t) fullShare ((dat1 V c).after 1 t) from rfl, after1_1,
      show (dat1 V c).leavesExact 2 t = owns (c : Thread nD τ) (st1_2 t) fullShare ((dat1 V c).after 2 t) from rfl, after1_2]
    rw [Dat.leavesExact_idle (dat1 V c) 3 t (idleAt1_3 t hc2) (noFlush1_3 t hc2)]
    rw [stat1_A V c t h0]; unfold stepAt; (try dsimp only)
    by_cases hz : t.val = 0
    · rw [PhiS_castSucc V c t, PhiS_zero V c _ _ hz, PhiA1_eq]
      iintro ⟨⟨⟨E1, E2, E3, E4, E5, HS7, HS8, HS9⟩, Hg⟩, Ho, ⟨%d0, H0⟩, ⟨%d1, H1⟩, ⟨%d2, H2⟩, ⟨%d3, H3⟩⟩
      iapply (runA c Set.univ (grid1.coords t) _ _ _ _ _ _ _ _ _ _ _ _ _ _ hc0 hc1 hc2 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS7]; · iexact HS7
      isplitl [HS8]; · iexact HS8
      isplitl [HS9]; · iexact HS9
      iintro ⟨H0, H1, H2, H3, HS7, HS8, HS9⟩
      isplitl [E1 E2 E3 E4 E5 HS7 HS8 HS9 Hg]
      · isplitr [Hg]
        · isplitl [E1]; · iexact E1
          isplitl [E2]; · iexact E2
          isplitl [E3]; · iexact E3
          isplitl [E4]; · iexact E4
          isplitl [E5]; · iexact E5
          isplitl [HS7]; · iexact HS7
          isplitl [HS8]; · iexact HS8
          iexact HS9
        iexact Hg
      isplitl [Ho]; · iexact Ho
      isplitl [H0]; · iexact H0
      isplitl [H1]; · iexact H1
      isplitl [H2]; · iexact H2
      iexists d3; iexact H3
    · rw [PhiS_castSucc V c t, PhiS_pos V c _ _ hz]
      iintro ⟨⟨⟨E1, E2, E3, E4, E5, HS7, HS8, HS9⟩, Hg⟩, Ho, ⟨%d0, H0⟩, ⟨%d1, H1⟩, ⟨%d2, H2⟩, ⟨%d3, H3⟩⟩
      iapply (runA c Set.univ (grid1.coords t) _ _ _ _ _ _ _ _ _ _ _ _ _ _ hc0 hc1 hc2 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS7]; · iexists _; iexact HS7
      isplitl [HS8]; · iexists _; iexact HS8
      isplitl [HS9]; · iexists _; iexact HS9
      iintro ⟨H0, H1, H2, H3, HS7, HS8, HS9⟩
      isplitl [E1 E2 E3 E4 E5 HS7 HS8 HS9 Hg]
      · isplitr [Hg]
        · isplitl [E1]; · iexact E1
          isplitl [E2]; · iexact E2
          isplitl [E3]; · iexact E3
          isplitl [E4]; · iexact E4
          isplitl [E5]; · iexact E5
          isplitl [HS7]; · iexact HS7
          isplitl [HS8]; · iexact HS8
          iexact HS9
        iexact Hg
      isplitl [Ho]; · iexact Ho
      isplitl [H0]; · iexact H0
      isplitl [H1]; · iexact H1
      isplitl [H2]; · iexact H2
      iexists d3; iexact H3

  · have hc0 : ¬cond1_0 (grid1.coords t) := fun h => h0 ((hcond1_0 t).mp h)
    by_cases h1 : t.val % 4 ≤ t.val / 4 % 4
    · have hc1 : cond1_1 (grid1.coords t) := (hcond1_1 t).mpr h1
      by_cases h2 : t.val % 4 = 3
      · have hc2 : cond1_2 (grid1.coords t) := (hcond1_2 t).mpr h2
        rw [show (dat1 V c).leavesExact 0 t = owns (c : Thread nD τ) (st1_0 t) fullShare ((dat1 V c).after 0 t) from rfl, after1_0,
          show (dat1 V c).leavesExact 1 t = owns (c : Thread nD τ) (st1_1 t) fullShare ((dat1 V c).after 1 t) from rfl, after1_1,
          show (dat1 V c).leavesExact 2 t = owns (c : Thread nD τ) (st1_2 t) fullShare ((dat1 V c).after 2 t) from rfl, after1_2]
        rw [show (dat1 V c).leavesExact 3 t = owns (c : Thread nD τ) (st1_3 t) fullShare ((dat1 V c).after 3 t) from by
          unfold Dat.leavesExact; rw [liveAt1_3 t hc2], after1_3]
        rw [stat1_B V c t h0 h1]; unfold stepAt; (try dsimp only)
        have hz : t.val ≠ 0 := fun hz => h0 (by rw [hz])
        rw [PhiS_castSucc V c t, PhiS_pos V c _ _ hz]
        iintro ⟨⟨⟨E1, E2, E3, E4, E5, HS7, HS8, HS9⟩, Hg⟩, Ho, ⟨%d0, H0⟩, ⟨%d1, H1⟩, ⟨%d2, H2⟩, ⟨%d3, H3⟩⟩
        iapply (runD c Set.univ (grid1.coords t) _ _ _ _ _ _ _ _ _ _ _ _ _ _ hc0 hc1 hc2 (iblk1 V c 0 t) (iblk1 V c 1 t) (iblk1 V c 2 t) (stat1 V c (t.val - 1) (Nat.lt_of_le_of_lt (Nat.sub_le _ _) t.isLt)).1 (stat1 V c (t.val - 1) (Nat.lt_of_le_of_lt (Nat.sub_le _ _) t.isLt)).2.1 (stat1 V c (t.val - 1) (Nat.lt_of_le_of_lt (Nat.sub_le _ _) t.isLt)).2.2 _)
        isplitl [H0]; · iexact H0
        isplitl [H1]; · iexact H1
        isplitl [H2]; · iexact H2
        isplitl [H3]; · iexists _; iexact H3
        isplitl [HS7]; · iexact HS7
        isplitl [HS8]; · iexact HS8
        isplitl [HS9]; · iexact HS9
        iintro ⟨H0, H1, H2, H3, HS7, HS8, HS9⟩
        isplitl [E1 E2 E3 E4 E5 HS7 HS8 HS9 Hg]
        · isplitr [Hg]
          · isplitl [E1]; · iexact E1
            isplitl [E2]; · iexact E2
            isplitl [E3]; · iexact E3
            isplitl [E4]; · iexact E4
            isplitl [E5]; · iexact E5
            isplitl [HS7]; · iexact HS7
            isplitl [HS8]; · iexact HS8
            iexact HS9
          iexact Hg
        isplitl [Ho]; · iexact Ho
        isplitl [H0]; · iexact H0
        isplitl [H1]; · iexact H1
        isplitl [H2]; · iexact H2
        iexact H3

      · have hc2 : ¬cond1_2 (grid1.coords t) := fun h => h2 ((hcond1_2 t).mp h)
        rw [show (dat1 V c).leavesExact 0 t = owns (c : Thread nD τ) (st1_0 t) fullShare ((dat1 V c).after 0 t) from rfl, after1_0,
          show (dat1 V c).leavesExact 1 t = owns (c : Thread nD τ) (st1_1 t) fullShare ((dat1 V c).after 1 t) from rfl, after1_1,
          show (dat1 V c).leavesExact 2 t = owns (c : Thread nD τ) (st1_2 t) fullShare ((dat1 V c).after 2 t) from rfl, after1_2]
        rw [Dat.leavesExact_idle (dat1 V c) 3 t (idleAt1_3 t hc2) (noFlush1_3 t hc2)]
        rw [stat1_B V c t h0 h1]; unfold stepAt; (try dsimp only)
        have hz : t.val ≠ 0 := fun hz => h0 (by rw [hz])
        rw [PhiS_castSucc V c t, PhiS_pos V c _ _ hz]
        iintro ⟨⟨⟨E1, E2, E3, E4, E5, HS7, HS8, HS9⟩, Hg⟩, Ho, ⟨%d0, H0⟩, ⟨%d1, H1⟩, ⟨%d2, H2⟩, ⟨%d3, H3⟩⟩
        iapply (runB c Set.univ (grid1.coords t) _ _ _ _ _ _ _ _ _ _ _ _ _ _ hc0 hc1 hc2 (iblk1 V c 0 t) (iblk1 V c 1 t) (iblk1 V c 2 t) ((dat1 V c).before 3 t d3) (stat1 V c (t.val - 1) (Nat.lt_of_le_of_lt (Nat.sub_le _ _) t.isLt)).1 (stat1 V c (t.val - 1) (Nat.lt_of_le_of_lt (Nat.sub_le _ _) t.isLt)).2.1 (stat1 V c (t.val - 1) (Nat.lt_of_le_of_lt (Nat.sub_le _ _) t.isLt)).2.2 _)
        isplitl [H0]; · iexact H0
        isplitl [H1]; · iexact H1
        isplitl [H2]; · iexact H2
        isplitl [H3]; · iexact H3
        isplitl [HS7]; · iexact HS7
        isplitl [HS8]; · iexact HS8
        isplitl [HS9]; · iexact HS9
        iintro ⟨H0, H1, H2, H3, HS7, HS8, HS9⟩
        isplitl [E1 E2 E3 E4 E5 HS7 HS8 HS9 Hg]
        · isplitr [Hg]
          · isplitl [E1]; · iexact E1
            isplitl [E2]; · iexact E2
            isplitl [E3]; · iexact E3
            isplitl [E4]; · iexact E4
            isplitl [E5]; · iexact E5
            isplitl [HS7]; · iexact HS7
            isplitl [HS8]; · iexact HS8
            iexact HS9
          iexact Hg
        isplitl [Ho]; · iexact Ho
        isplitl [H0]; · iexact H0
        isplitl [H1]; · iexact H1
        isplitl [H2]; · iexact H2
        iexists d3; iexact H3

    · have hc1 : ¬cond1_1 (grid1.coords t) := fun h => h1 ((hcond1_1 t).mp h)
      by_cases h2 : t.val % 4 = 3
      · have hc2 : cond1_2 (grid1.coords t) := (hcond1_2 t).mpr h2
        rw [show (dat1 V c).leavesExact 0 t = owns (c : Thread nD τ) (st1_0 t) fullShare ((dat1 V c).after 0 t) from rfl, after1_0,
          show (dat1 V c).leavesExact 1 t = owns (c : Thread nD τ) (st1_1 t) fullShare ((dat1 V c).after 1 t) from rfl, after1_1,
          show (dat1 V c).leavesExact 2 t = owns (c : Thread nD τ) (st1_2 t) fullShare ((dat1 V c).after 2 t) from rfl, after1_2]
        rw [show (dat1 V c).leavesExact 3 t = owns (c : Thread nD τ) (st1_3 t) fullShare ((dat1 V c).after 3 t) from by
          unfold Dat.leavesExact; rw [liveAt1_3 t hc2], after1_3]
        rw [stat1_C V c t h0 h1]
        have hz : t.val ≠ 0 := fun hz => h0 (by rw [hz])
        rw [PhiS_castSucc V c t, PhiS_pos V c _ _ hz]
        iintro ⟨⟨⟨E1, E2, E3, E4, E5, HS7, HS8, HS9⟩, Hg⟩, Ho, ⟨%d0, H0⟩, ⟨%d1, H1⟩, ⟨%d2, H2⟩, ⟨%d3, H3⟩⟩
        iapply (runE c Set.univ (grid1.coords t) _ _ _ _ _ _ _ _ _ _ _ _ _ _ hc0 hc1 hc2 (iblk1 V c 0 t) (iblk1 V c 1 t) (iblk1 V c 2 t) (stat1 V c (t.val - 1) (Nat.lt_of_le_of_lt (Nat.sub_le _ _) t.isLt)).1 (stat1 V c (t.val - 1) (Nat.lt_of_le_of_lt (Nat.sub_le _ _) t.isLt)).2.1 (stat1 V c (t.val - 1) (Nat.lt_of_le_of_lt (Nat.sub_le _ _) t.isLt)).2.2 _)
        isplitl [H0]; · iexact H0
        isplitl [H1]; · iexact H1
        isplitl [H2]; · iexact H2
        isplitl [H3]; · iexists _; iexact H3
        isplitl [HS7]; · iexact HS7
        isplitl [HS8]; · iexact HS8
        isplitl [HS9]; · iexact HS9
        iintro ⟨H0, H1, H2, H3, HS7, HS8, HS9⟩
        isplitl [E1 E2 E3 E4 E5 HS7 HS8 HS9 Hg]
        · isplitr [Hg]
          · isplitl [E1]; · iexact E1
            isplitl [E2]; · iexact E2
            isplitl [E3]; · iexact E3
            isplitl [E4]; · iexact E4
            isplitl [E5]; · iexact E5
            isplitl [HS7]; · iexact HS7
            isplitl [HS8]; · iexact HS8
            iexact HS9
          iexact Hg
        isplitl [Ho]; · iexact Ho
        isplitl [H0]; · iexact H0
        isplitl [H1]; · iexact H1
        isplitl [H2]; · iexact H2
        iexact H3

      · have hc2 : ¬cond1_2 (grid1.coords t) := fun h => h2 ((hcond1_2 t).mp h)
        rw [show (dat1 V c).leavesExact 0 t = owns (c : Thread nD τ) (st1_0 t) fullShare ((dat1 V c).after 0 t) from rfl, after1_0,
          show (dat1 V c).leavesExact 1 t = owns (c : Thread nD τ) (st1_1 t) fullShare ((dat1 V c).after 1 t) from rfl, after1_1,
          show (dat1 V c).leavesExact 2 t = owns (c : Thread nD τ) (st1_2 t) fullShare ((dat1 V c).after 2 t) from rfl, after1_2]
        rw [Dat.leavesExact_idle (dat1 V c) 3 t (idleAt1_3 t hc2) (noFlush1_3 t hc2)]
        rw [stat1_C V c t h0 h1]
        have hz : t.val ≠ 0 := fun hz => h0 (by rw [hz])
        rw [PhiS_castSucc V c t, PhiS_pos V c _ _ hz]
        iintro ⟨⟨⟨E1, E2, E3, E4, E5, HS7, HS8, HS9⟩, Hg⟩, Ho, ⟨%d0, H0⟩, ⟨%d1, H1⟩, ⟨%d2, H2⟩, ⟨%d3, H3⟩⟩
        iapply (runC c Set.univ (grid1.coords t) _ _ _ _ _ _ _ _ _ _ _ _ _ _ hc0 hc1 hc2 (iblk1 V c 0 t) (iblk1 V c 1 t) (iblk1 V c 2 t) ((dat1 V c).before 3 t d3) (stat1 V c (t.val - 1) (Nat.lt_of_le_of_lt (Nat.sub_le _ _) t.isLt)).1 (stat1 V c (t.val - 1) (Nat.lt_of_le_of_lt (Nat.sub_le _ _) t.isLt)).2.1 (stat1 V c (t.val - 1) (Nat.lt_of_le_of_lt (Nat.sub_le _ _) t.isLt)).2.2 _)
        isplitl [H0]; · iexact H0
        isplitl [H1]; · iexact H1
        isplitl [H2]; · iexact H2
        isplitl [H3]; · iexact H3
        isplitl [HS7]; · iexact HS7
        isplitl [HS8]; · iexact HS8
        isplitl [HS9]; · iexact HS9
        iintro ⟨H0, H1, H2, H3, HS7, HS8, HS9⟩
        isplitl [E1 E2 E3 E4 E5 HS7 HS8 HS9 Hg]
        · isplitr [Hg]
          · isplitl [E1]; · iexact E1
            isplitl [E2]; · iexact E2
            isplitl [E3]; · iexact E3
            isplitl [E4]; · iexact E4
            isplitl [E5]; · iexact E5
            isplitl [HS7]; · iexact HS7
            isplitl [HS8]; · iexact HS8
            iexact HS9
          iexact Hg
        isplitl [Ho]; · iexact Ho
        isplitl [H0]; · iexact H0
        isplitl [H1]; · iexact H1
        isplitl [H2]; · iexact H2
        iexists d3; iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scratch buffers back, their contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨E1, E2, E3, E4, E5, HS7, HS8, HS9⟩, Hg⟩
  isplitr [Hg]
  · isplitl [E1]; · iexact E1
    isplitl [E2]; · iexact E2
    isplitl [E3]; · iexact E3
    isplitl [E4]; · iexact E4
    isplitl [E5]; · iexact E5
    isplitl [HS7]; · iexists _; iexact HS7
    isplitl [HS8]; · iexists _; iexact HS8
    iexists _; iexact HS9
  iexact Hg

end Region1

end Cert.KernelIdeal.Hand

end
-- ==== Proof.IdealRun.lean ====
/-
  The whole run of the kernel program, at any float instance: the host operations before the projection (a reshape of
  the input, the concatenation of the three weights, a change of format), the projection region, the host operations
  between (a reshape and three slices with their reshapes), the attention region.

  The contents of the TensorCore's unscoped buffers are followed from the launch to the return: each stretch of host
  operations rewrites the buffers it writes, each region leaves its output array at what its write-backs leave and
  every other buffer as it found it. Every weakly fair execution terminates without a fault and ends with every unscoped
  buffer at the last of these contents; in particular the four argument arrays end as launched, and the result array
  ends at what the attention region's write-backs leave.
-/
import proofs.«160108_j10788957848091_2_alg».proof.Proof.Gen.KernelIdeal.Launch
import proofs.«160108_j10788957848091_2_alg».proof.Proof.Gen.KernelIdeal.Skeleton
import proofs.«160108_j10788957848091_2_alg».proof.Proof.Gen.KernelIdeal.Points
import Idealize.ShloMosaic.Lib.Pipeline.FrameBody
import Idealize.ShloMosaic.Lib.Pipeline.Value
import proofs.«160108_j10788957848091_2_alg».proof.Proof.IdealR0
import proofs.«160108_j10788957848091_2_alg».proof.Proof.IdealR1
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m ((c : Dev nD), b)
/-- After the first stretch of host operations (the projection region's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At the projection region's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second stretch of host operations (the attention region's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At the attention region's exit. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- Argument 0 reaches the end as launched: no host operation writes it and no region has it as a window. -/
theorem B4_main_arg0 (c : Dev nD) : B4 m c (Proc.devRef .tc main_arg0) = m ((c : Thread nD τ).loc main_arg0) :=
  calc B4 m c (Proc.devRef .tc main_arg0)
    _ = B3 m c (Proc.devRef .tc main_arg0) := B4_of_ne m c main_arg0 (by decide)
    _ = B2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m c (Proc.devRef .tc main_arg0) := B2_of_ne m c main_arg0 (by decide)
    _ = B0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

/-- Argument 1 reaches the end as launched: no host operation writes it and no region has it as a window. -/
theorem B4_main_arg1 (c : Dev nD) : B4 m c (Proc.devRef .tc main_arg1) = m ((c : Thread nD τ).loc main_arg1) :=
  calc B4 m c (Proc.devRef .tc main_arg1)
    _ = B3 m c (Proc.devRef .tc main_arg1) := B4_of_ne m c main_arg1 (by decide)
    _ = B2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m c (Proc.devRef .tc main_arg1) := B2_of_ne m c main_arg1 (by decide)
    _ = B0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-- Argument 2 reaches the end as launched: no host operation writes it and no region has it as a window. -/
theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m c (Proc.devRef .tc main_arg2) := B2_of_ne m c main_arg2 (by decide)
    _ = B0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

/-- Argument 3 reaches the end as launched: no host operation writes it and no region has it as a window. -/
theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = B1 m c (Proc.devRef .tc main_arg3) := B2_of_ne m c main_arg3 (by decide)
    _ = B0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-- The result array ends at what the attention region's write-backs leave. -/
theorem B4_main_v11 (c : Dev nD) : B4 m c (Proc.devRef .tc main_v11) = (dat1 (E3 m) c).arrAt 3 cfg1.N := B4_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (B4 m c) ∗ ∃ r, prngReg c r)

set_option backward.isDefEq.respectTransparency.types false in
/-- The projection region as a segment: entered with every unscoped buffer at the contents before it, left with
    them at the contents after it. Its windows' arrays are split out of the unscoped buffers at entry and put back at
    exit; the generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ Rest c)
  post c := iprop(StableHlo.held (c : Thread nD τ) (Pipeline.ucRefs τ sig) (B2 m c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region as a segment: entered with every unscoped buffer at the contents before it, left with
    them at the contents after it. Its windows' arrays are split out of the unscoped buffers at entry and put back at
    exit; the generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c); unfold Pipeline.ΦA
    iintro ⟨Hp, -, Hr⟩
    isplitl [Hr]; · iexact Hr
    iexact Hp
  hout c := by
    rw [Pipeline.ownSems0_none]
    refine BIBase.Entails.trans (hout1 (E3 m) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c)⟩) (run_all m ρ)

/-- The run with the result array named. -/
theorem run_result : θ_run defs (onTc (τ := τ) (main (F := F))) ⟨m, fun _ => 0, ρ⟩ (fun r => ∀ c : Dev nD,
      r.2.mem ((c.tc : Thread nD τ).loc main_v11) = (dat1 (E3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v11 (by decide))).trans (B4_main_v11 m c),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c)⟩) (run_all m ρ)

end Cert.KernelIdeal.Hand

end
-- ==== Proof.Attn.lean ====
/-
  The function of the argument arrays that both programs compute: causal softmax attention over three
  linear projections of one input.

  With q = x·w_q, k = x·w_k, v = x·w_v (each entry a sum over the 1024 model coordinates), the score of query
  row i against key row j is (∑_d q[i,d]·k[j,d])·(1/32) when j ≤ i and -∞ otherwise; the weight of key j is
  exp(score − row maximum); the result row is (∑_j weight_j · v[j,·]) divided by ∑_j weight_j.
  Everything is read in the extended reals.
-/
import Mathlib
import Idealize.ShloMosaic.PureOps.Ideal
import Idealize.ShloMosaic.Lib.ValueIdx

noncomputable section

open scoped BigOperators
open Idealize.ShloMosaic

namespace Cert.Attn

/-- An activation array, by batch, row and model coordinate. -/
abbrev Act : Type := Fin 4 → Fin 2048 → Fin 1024 → EReal
/-- A projection matrix, by input and output coordinate. -/
abbrev Mat : Type := Fin 1024 → Fin 1024 → EReal

/-- The scale 1/√1024 = 1/32. -/
def γ : EReal := ((1 / 32 : ℝ) : EReal)

/-- A linear projection: entry (b, t, d) is ∑_k x[b,t,k]·w[k,d]. -/
def proj (x : Act) (w : Mat) : Act := fun b t d => ∑ k : Fin 1024, x b t k * w k d

/-- The causally masked, scaled score of query row i against key row j. -/
def score (q k : Act) (b : Fin 4) (i j : Fin 2048) : EReal :=
  if j.val ≤ i.val then (∑ d : Fin 1024, q b i d * k b j d) * γ else ⊥

/-- The largest score of a query row. -/
def rowMax (q k : Act) (b : Fin 4) (i : Fin 2048) : EReal := Finset.univ.sup (score q k b i)

/-- The unnormalized softmax weight of key row j for query row i. -/
def wgt (q k : Act) (b : Fin 4) (i j : Fin 2048) : EReal := Ideal.exp (score q k b i j - rowMax q k b i)

/-- Attention: the weighted sum of the value rows divided by the sum of the weights. -/
def attn (q k v : Act) : Act := fun b i d =>
  Ideal.div (∑ j : Fin 2048, wgt q k b i j * v b j d) (∑ j : Fin 2048, wgt q k b i j)

/-- The whole function of the four argument arrays. -/
def G (x : Act) (wq wk wv : Mat) : Act := attn (proj x wq) (proj x wk) (proj x wv)

/-- An argument array of shape 4×2048×1024 read by its three coordinates. -/
def act (x : (⟨3, ![4, 2048, 1024]⟩ : Shape).Idx → EReal) : Act := fun b t k => x (ValueIdx.ix3 b t k)

/-- An argument array of shape 1024×1024 read by its two coordinates. -/
def mat (w : (⟨2, ![1024, 1024]⟩ : Shape).Idx → EReal) : Mat := fun k d => w (ValueIdx.ix2 k d)

/-- A function of three coordinates as an array of shape 4×2048×1024. -/
def out (a : Act) : (⟨3, ![4, 2048, 1024]⟩ : Shape).Idx → EReal := fun i => a (i 0) (i 1) (i 2)

end Cert.Attn

end
-- ==== Proof.IdealProjPayload.lean ====
/-
  The projection body's payloads read at an index, at the ideal values: the matrix product of the input block and the
  weight, entry by entry, is the sum over the 1024 shared coordinates; the three stored pieces are its three column
  panels of width 1024.
-/
import proofs.«160108_j10788957848091_2_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.Hand.Proj

open Idealize.ShloMosaic Idealize.ShloMosaic.TcCoe
open Idealize.ShloMosaic.Pipeline (Dat Cfg Window cellOf)
open Cert.KernelIdeal Cert.KernelIdeal.Gen
open scoped BigOperators

/-- The contraction of the body's matrix product has one axis of extent 1024. -/
abbrev dP := dot_S512x1024_S1024x3072_S512x3072_1_0_0_1_n_n

theorem dP_lhs0 (i : S512x3072.Idx) (q : dP.contr.Idx) : (dP.lhsIdx i q 0).val = (i 0).val := by
  unfold DotDims.lhsIdx
  rw [dif_neg (show ¬(0 : Fin S512x1024.rank) ∈ dP.lhsBatch by decide), dif_pos (show (0 : Fin S512x1024.rank) ∈ dP.lhsNonContracting by decide)]
  rfl
theorem dP_lhs1 (i : S512x3072.Idx) (q : dP.contr.Idx) : (dP.lhsIdx i q 1).val = (q ⟨0, by decide⟩).val :=
  dP.lhsIdx_val_of_single rfl i q
theorem dP_rhs0 (i : S512x3072.Idx) (q : dP.contr.Idx) : (dP.rhsIdx i q 0).val = (q ⟨0, by decide⟩).val :=
  dP.rhsIdx_val_of_single rfl i q
theorem dP_rhs1 (i : S512x3072.Idx) (q : dP.contr.Idx) : (dP.rhsIdx i q 1).val = (i 1).val := by
  unfold DotDims.rhsIdx
  rw [dif_neg (show ¬(1 : Fin S1024x3072.rank) ∈ dP.rhsBatch by decide), dif_pos (show (1 : Fin S1024x3072.rank) ∈ dP.rhsNonContracting by decide)]
  rfl

/-- The product of a 512×1024 block and the 1024×3072 weight, entry (r, n): the sum over the 1024 shared coordinates. -/
theorem pay1_apply (x0 : Vec Ideal S512x1024 .f32) (x1 : Vec Ideal S1024x3072 .bf16) (r : Fin 512) (n : Fin 3072) :
    k0_pay1 x0 x1 (ValueIdx.ix2 r n) = ∑ k : Fin 1024, x0 (ValueIdx.ix2 r k) * x1 (ValueIdx.ix2 k n) := by
  unfold k0_pay1
  rw [shapeCast_self, shapeCast_self]
  refine (Ideal.matmul_constant_zero_apply (φ₁ := .bf16) (φ₂ := .bf16) dP none (truncf .bf16 x0 bitsLt_bf16_f32) x1 (ValueIdx.ix2 r n)).trans ?_
  rw [← Equiv.sum_comp (ValueIdx.contrEquiv1 dP 1024 rfl rfl).symm]
  refine Finset.sum_congr rfl fun k _ => ?_
  have hk := ValueIdx.contrEquiv1_symm_val dP 1024 rfl rfl k
  have el : dP.lhsIdx (ValueIdx.ix2 r n) ((ValueIdx.contrEquiv1 dP 1024 rfl rfl).symm k) = ValueIdx.ix2 r k := funext fun a => Fin.ext (by
    match a with
    | ⟨0, _⟩ => exact dP_lhs0 _ _
    | ⟨1, _⟩ => exact (dP_lhs1 _ _).trans hk)
  have er : dP.rhsIdx (ValueIdx.ix2 r n) ((ValueIdx.contrEquiv1 dP 1024 rfl rfl).symm k) = ValueIdx.ix2 k n := funext fun a => Fin.ext (by
    match a with
    | ⟨0, _⟩ => exact (dP_rhs0 _ _).trans hk
    | ⟨1, _⟩ => exact dP_rhs1 _ _)
  rw [el, er]
  rfl

/-- Column d of panel j of the 3072 columns. -/
abbrev colIdx (j : Fin 3) (d : Fin 1024) : Fin 3072 := ⟨j.val * 1024 + d.val, by have := j.isLt; have := d.isLt; omega⟩

/-- Each stored piece, at (0, r, d), is the product's entry (r, offset + d): a slice at that column offset, then a
    leading unit axis. -/
theorem panel_apply (y : FVec Ideal S512x3072 .bf16) (off : Nat) (hoff : off + 1024 ≤ 3072) (hs : S512x3072.Slices ![0, off] S512x1024)
    (r : Fin 512) (d : Fin 1024) :
    shapeCast S1x512x1024 (extractStridedSlice S512x1024 ![0, off] y hs) shapeCasts_S512x1024_S1x512x1024 (ValueIdx.ix3 (0 : Fin 1) r d)
      = y (ValueIdx.ix2 r ⟨off + d.val, by have := d.isLt; omega⟩) := by
  refine (shapeCast_apply _ _ (ValueIdx.ix3 (0 : Fin 1) r d) (ValueIdx.ix2 r d) ?_).trans ?_
  · rw [Shape.rowMajor_val_two, Shape.rowMajor_val_three]
    show r.val * 1024 + d.val = ((0 : Fin 1).val * 512 + r.val) * 1024 + d.val
    simp
  · refine extractStridedSlice_apply _ _ _ (ValueIdx.ix2 r d) _ fun a => ?_
    match a with
    | ⟨0, _⟩ => show r.val = 0 + r.val; omega
    | ⟨1, _⟩ => show off + d.val = off + d.val; rfl

theorem pay2_apply (x0 : Vec Ideal S512x1024 .f32) (x1 : Vec Ideal S1024x3072 .bf16) (r : Fin 512) (d : Fin 1024) :
    k0_pay2 x0 x1 (ValueIdx.ix3 (0 : Fin 1) r d) = ∑ k : Fin 1024, x0 (ValueIdx.ix2 r k) * x1 (ValueIdx.ix2 k (colIdx 0 d)) := by
  unfold k0_pay2
  rw [panel_apply _ 0 (by omega), pay1_apply]
  refine Finset.sum_congr rfl fun k _ => ?_
  congr 3

theorem pay3_apply (x0 : Vec Ideal S512x1024 .f32) (x1 : Vec Ideal S1024x3072 .bf16) (r : Fin 512) (d : Fin 1024) :
    k0_pay3 x0 x1 (ValueIdx.ix3 (0 : Fin 1) r d) = ∑ k : Fin 1024, x0 (ValueIdx.ix2 r k) * x1 (ValueIdx.ix2 k (colIdx 1 d)) := by
  unfold k0_pay3
  rw [panel_apply _ 1024 (by omega), pay1_apply]
  refine Finset.sum_congr rfl fun k _ => ?_
  congr 3

theorem pay4_apply (x0 : Vec Ideal S512x1024 .f32) (x1 : Vec Ideal S1024x3072 .bf16) (r : Fin 512) (d : Fin 1024) :
    k0_pay4 x0 x1 (ValueIdx.ix3 (0 : Fin 1) r d) = ∑ k : Fin 1024, x0 (ValueIdx.ix2 r k) * x1 (ValueIdx.ix2 k (colIdx 2 d)) := by
  unfold k0_pay4
  rw [panel_apply _ 2048 (by omega), pay1_apply]
  refine Finset.sum_congr rfl fun k _ => ?_
  congr 3

end Cert.KernelIdeal.Hand.Proj

end
-- ==== Proof.IdealProjHost.lean ====
/-
  The host operations around the projection region, read at an index at the ideal values.
-/
import proofs.«160108_j10788957848091_2_alg».proof.Proof.IdealRun
import proofs.«160108_j10788957848091_2_alg».proof.Proof.Attn
import proofs.«160108_j10788957848091_2_alg».proof.Proof.IdealProjPayload
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.Hand.Proj

open Idealize.ShloMosaic Idealize.ShloMosaic.TcCoe
open Idealize.ShloMosaic.Pipeline (Dat Cfg Window cellOf)
open Cert.KernelIdeal Cert.KernelIdeal.Gen
open scoped BigOperators

open StableHlo in
/-- The reshaped input as the projection region finds it. -/
theorem E1_main_v0 (m : (ℓ : Loc nD τ sig) → Buf (Elt Ideal) ℓ) (c : Dev nD) :
    (E1 (F := Ideal) m c main_v0 : S8192x1024.Idx → EReal)
      = shapeCast S8192x1024 (m ((c : Thread nD τ).loc main_arg0) : S4x2048x1024.Idx → EReal) shapeCasts_S4x2048x1024_S8192x1024 := by
  show StableHlo.after hostOps0 (B0 m c) (Proc.devRef .tc main_v0) = _
  after_results
  rfl

open StableHlo in
/-- The concatenated weight as the projection region finds it. -/
theorem E1_main_v2 (m : (ℓ : Loc nD τ sig) → Buf (Elt Ideal) ℓ) (c : Dev nD) :
    (E1 (F := Ideal) m c main_v2 : S1024x3072.Idx → EReal)
      = concatenate S1024x3072 1 [⟨S1024x1024, (m ((c : Thread nD τ).loc main_arg1) : S1024x1024.Idx → EReal)⟩, ⟨S1024x1024, (m ((c : Thread nD τ).loc main_arg2) : S1024x1024.Idx → EReal)⟩, ⟨S1024x1024, (m ((c : Thread nD τ).loc main_arg3) : S1024x1024.Idx → EReal)⟩] concatenates_S1024x1024_S1024x1024_S1024x1024_S1024x3072_d1 := by
  show StableHlo.after hostOps0 (B0 m c) (Proc.devRef .tc main_v2) = _
  after_results
  rfl

/-- Row b·2048 + t of the 8192 rows. -/
abbrev rowIdx (b : Fin 4) (t : Fin 2048) : Fin 8192 := ⟨b.val * 2048 + t.val, by have := b.isLt; have := t.isLt; omega⟩

/-- The 4×2048×1024 input viewed as 8192×1024: row b·2048 + t is row t of batch b. -/
theorem reshape_in_apply (X : S4x2048x1024.Idx → EReal) (b : Fin 4) (t : Fin 2048) (k : Fin 1024) :
    shapeCast S8192x1024 X shapeCasts_S4x2048x1024_S8192x1024 (ValueIdx.ix2 (rowIdx b t) k) = X (ValueIdx.ix3 b t k) := by
  refine shapeCast_apply _ _ (ValueIdx.ix2 (rowIdx b t) k) (ValueIdx.ix3 b t k) ?_
  rw [Shape.rowMajor_val_two, Shape.rowMajor_val_three]
  show (b.val * 2048 + t.val) * 1024 + k.val = (b.val * 2048 + t.val) * 1024 + k.val
  rfl

/-- The three weights side by side: column j·1024 + d of the 3072 is column d of weight j. -/
theorem concat_w_apply (W0 W1 W2 : S1024x1024.Idx → EReal) (k : Fin 1024) (d : Fin 1024) :
    concatenate S1024x3072 1 [⟨S1024x1024, W0⟩, ⟨S1024x1024, W1⟩, ⟨S1024x1024, W2⟩] concatenates_S1024x1024_S1024x1024_S1024x1024_S1024x3072_d1 (ValueIdx.ix2 k (colIdx 0 d)) = W0 (ValueIdx.ix2 k d)
    ∧ concatenate S1024x3072 1 [⟨S1024x1024, W0⟩, ⟨S1024x1024, W1⟩, ⟨S1024x1024, W2⟩] concatenates_S1024x1024_S1024x1024_S1024x1024_S1024x3072_d1 (ValueIdx.ix2 k (colIdx 1 d)) = W1 (ValueIdx.ix2 k d)
    ∧ concatenate S1024x3072 1 [⟨S1024x1024, W0⟩, ⟨S1024x1024, W1⟩, ⟨S1024x1024, W2⟩] concatenates_S1024x1024_S1024x1024_S1024x1024_S1024x3072_d1 (ValueIdx.ix2 k (colIdx 2 d)) = W2 (ValueIdx.ix2 k d) := by
  refine ⟨?_, ?_, ?_⟩
  · refine concatenate_apply_piece (t := S1024x3072) (a := (1 : Fin 2)) [⟨S1024x1024, W0⟩, ⟨S1024x1024, W1⟩, ⟨S1024x1024, W2⟩] concatenates_S1024x1024_S1024x1024_S1024x1024_S1024x3072_d1 (ValueIdx.ix2 k (colIdx 0 d)) 0 ?_ S1024x1024 W0 rfl rfl 0 rfl (ValueIdx.ix2 k d) (fun b hb => ?_) ?_
    · show 0 < 3; omega
    · match b with
      | ⟨0, _⟩ => rfl
      | ⟨1, _⟩ => exact absurd rfl hb
    · show 0 + d.val = 0 * 1024 + d.val; omega
  · refine concatenate_apply_piece (t := S1024x3072) (a := (1 : Fin 2)) [⟨S1024x1024, W0⟩, ⟨S1024x1024, W1⟩, ⟨S1024x1024, W2⟩] concatenates_S1024x1024_S1024x1024_S1024x1024_S1024x3072_d1 (ValueIdx.ix2 k (colIdx 1 d)) 1 ?_ S1024x1024 W1 rfl rfl 1024 rfl (ValueIdx.ix2 k d) (fun b hb => ?_) ?_
    · show 1 < 3; omega
    · match b with
      | ⟨0, _⟩ => rfl
      | ⟨1, _⟩ => exact absurd rfl hb
    · show 1024 + d.val = 1 * 1024 + d.val; omega
  · refine concatenate_apply_piece (t := S1024x3072) (a := (1 : Fin 2)) [⟨S1024x1024, W0⟩, ⟨S1024x1024, W1⟩, ⟨S1024x1024, W2⟩] concatenates_S1024x1024_S1024x1024_S1024x1024_S1024x3072_d1 (ValueIdx.ix2 k (colIdx 2 d)) 2 ?_ S1024x1024 W2 rfl rfl 2048 rfl (ValueIdx.ix2 k d) (fun b hb => ?_) ?_
    · show 2 < 3; omega
    · match b with
      | ⟨0, _⟩ => rfl
      | ⟨1, _⟩ => exact absurd rfl hb
    · show 2048 + d.val = 2 * 1024 + d.val; omega

/-- One of the three results after the region, read at (b, t, d): the 3×8192×1024 output viewed 3×4×2048×1024, its
    slice j along the leading axis, the unit axis dropped — entry (j, b·2048 + t, d) of the output. -/
theorem slice_out_apply (Y : S3x8192x1024.Idx → EReal) (j : Fin 3) (hs : S3x4x2048x1024.Slices ![j.val, 0, 0, 0] S1x4x2048x1024)
    (b : Fin 4) (t : Fin 2048) (d : Fin 1024) :
    shapeCast S4x2048x1024 (extractStridedSlice S1x4x2048x1024 ![j.val, 0, 0, 0] (shapeCast S3x4x2048x1024 Y shapeCasts_S3x8192x1024_S3x4x2048x1024) hs)
        shapeCasts_S1x4x2048x1024_S4x2048x1024 (ValueIdx.ix3 b t d)
      = Y (ValueIdx.ix3 j (rowIdx b t) d) := by
  refine (shapeCast_apply _ _ (ValueIdx.ix3 b t d) (ValueIdx.ix4 (0 : Fin 1) b t d) ?_).trans ?_
  · rw [Shape.rowMajor_val_three, Shape.rowMajor_val_four]
    show (((0 : Fin 1).val * 4 + b.val) * 2048 + t.val) * 1024 + d.val = (b.val * 2048 + t.val) * 1024 + d.val
    simp
  refine (extractStridedSlice_apply _ _ _ (ValueIdx.ix4 (0 : Fin 1) b t d) (ValueIdx.ix4 j b t d) fun a => ?_).trans ?_
  · match a with
    | ⟨0, _⟩ => show j.val = j.val + 0; rfl
    | ⟨1, _⟩ => show b.val = 0 + b.val; omega
    | ⟨2, _⟩ => show t.val = 0 + t.val; omega
    | ⟨3, _⟩ => show d.val = 0 + d.val; omega
  refine shapeCast_apply _ _ (ValueIdx.ix4 j b t d) (ValueIdx.ix3 j (rowIdx b t) d) ?_
  rw [Shape.rowMajor_val_three, Shape.rowMajor_val_four]
  show (j.val * 8192 + (b.val * 2048 + t.val)) * 1024 + d.val = ((j.val * 4 + b.val) * 2048 + t.val) * 1024 + d.val
  omega

open StableHlo in
/-- The three results as the attention region finds them, from the projection's output array. -/
theorem E3_main_v6_eq (m : (ℓ : Loc nD τ sig) → Buf (Elt Ideal) ℓ) (c : Dev nD) :
    (E3 (F := Ideal) m c main_v6 : S4x2048x1024.Idx → EReal)
      = shapeCast S4x2048x1024 (extractStridedSlice S1x4x2048x1024 ![0, 0, 0, 0] (shapeCast S3x4x2048x1024 (B2 m c (Proc.devRef .tc main_v3) : S3x8192x1024.Idx → EReal) shapeCasts_S3x8192x1024_S3x4x2048x1024) slices_S3x4x2048x1024_S1x4x2048x1024_0_0_0_0)
        shapeCasts_S1x4x2048x1024_S4x2048x1024 := by
  show StableHlo.after hostOps1 (B2 m c) (Proc.devRef .tc main_v6) = _
  after_results
  rfl

open StableHlo in
theorem E3_main_v8_eq (m : (ℓ : Loc nD τ sig) → Buf (Elt Ideal) ℓ) (c : Dev nD) :
    (E3 (F := Ideal) m c main_v8 : S4x2048x1024.Idx → EReal)
      = shapeCast S4x2048x1024 (extractStridedSlice S1x4x2048x1024 ![1, 0, 0, 0] (shapeCast S3x4x2048x1024 (B2 m c (Proc.devRef .tc main_v3) : S3x8192x1024.Idx → EReal) shapeCasts_S3x8192x1024_S3x4x2048x1024) slices_S3x4x2048x1024_S1x4x2048x1024_1_0_0_0)
        shapeCasts_S1x4x2048x1024_S4x2048x1024 := by
  show StableHlo.after hostOps1 (B2 m c) (Proc.devRef .tc main_v8) = _
  after_results
  rfl

open StableHlo in
theorem E3_main_v10_eq (m : (ℓ : Loc nD τ sig) → Buf (Elt Ideal) ℓ) (c : Dev nD) :
    (E3 (F := Ideal) m c main_v10 : S4x2048x1024.Idx → EReal)
      = shapeCast S4x2048x1024 (extractStridedSlice S1x4x2048x1024 ![2, 0, 0, 0] (shapeCast S3x4x2048x1024 (B2 m c (Proc.devRef .tc main_v3) : S3x8192x1024.Idx → EReal) shapeCasts_S3x8192x1024_S3x4x2048x1024) slices_S3x4x2048x1024_S1x4x2048x1024_2_0_0_0)
        shapeCasts_S1x4x2048x1024_S4x2048x1024 := by
  show StableHlo.after hostOps1 (B2 m c) (Proc.devRef .tc main_v10) = _
  after_results
  rfl

end Cert.KernelIdeal.Hand.Proj

end
-- ==== Proof.IdealProjArray.lean ====
/-
  From the projection body's blocks to its output array, at the ideal values: the block each grid point writes back is
  the restriction of one function of the two input arrays, and the sixteen blocks tile the array.
-/
import proofs.«160108_j10788957848091_2_alg».proof.Proof.IdealR0
import proofs.«160108_j10788957848091_2_alg».proof.Proof.IdealProjPayload
import Idealize.ShloMosaic.Lib.Pipeline.Value

set_option maxRecDepth 16384

noncomputable section

namespace Cert.KernelIdeal.Hand.Proj

open Idealize.ShloMosaic Idealize.ShloMosaic.TcCoe
open Idealize.ShloMosaic.Pipeline (Dat Cfg Window cellOf)
open Cert.KernelIdeal Cert.KernelIdeal.Gen
open scoped BigOperators

theorem hz2 : (![0, 0] : Fin 2 → Nat) = fun _ => 0 := funext fun a => by fin_cases a <;> rfl

/-- What the output block holds after the body, entry (j, r, d): row r of the input block against column d of panel j. -/
def blkFn (x0 : Vec Ideal S512x1024 .f32) (x1 : Vec Ideal S1024x3072 .bf16) : Vec Ideal S3x512x1024 .bf16 :=
  fun y => ∑ k : Fin 1024, x0 (ValueIdx.ix2 (y 1) k) * x1 (ValueIdx.ix2 k (colIdx (y 0) (y 2)))

/-- The three stores, one per leading slice, leave exactly that function. -/
theorem out0_2_eq (x0 : Vec Ideal S512x1024 .f32) (x1 : Vec Ideal S1024x3072 .bf16) : out0_2 x0 x1 = blkFn x0 x1 := by
  funext y
  unfold out0_2
  simp only [View.ld_unit_zero (S := S512x1024) hz2, View.ld_unit_zero (S := S1024x3072) hz2]
  refine View.canon_apply_of_pieces (blkFn x0 x1) _ (fun p hp x => ?_) y (cover0_2 _ _ _ y)
  simp only [List.mem_cons, List.not_mem_nil, or_false] at hp
  rcases hp with rfl | rfl | rfl
  · obtain ⟨a, r, d, rfl⟩ : ∃ (a : Fin 1) (r : Fin 512) (d : Fin 1024), x = ValueIdx.ix3 a r d := ⟨x 0, x 1, x 2, ValueIdx.eq_ix3 x⟩
    obtain rfl : a = 0 := Subsingleton.elim _ _
    show k0_pay4 x0 x1 (ValueIdx.ix3 (0 : Fin 1) r d) = _
    rw [pay4_apply]
    have e0 : rO2.emb (ValueIdx.ix3 (0 : Fin 1) r d) 0 = (2 : Fin 3) := Fin.ext (by show 2 + 1 * 0 = 2; rfl)
    have e1 : rO2.emb (ValueIdx.ix3 (0 : Fin 1) r d) 1 = r := Fin.ext (by show 0 + 1 * r.val = r.val; omega)
    have e2 : rO2.emb (ValueIdx.ix3 (0 : Fin 1) r d) 2 = d := Fin.ext (by show 0 + 1 * d.val = d.val; omega)
    unfold blkFn
    rw [e0, e1, e2]
  · obtain ⟨a, r, d, rfl⟩ : ∃ (a : Fin 1) (r : Fin 512) (d : Fin 1024), x = ValueIdx.ix3 a r d := ⟨x 0, x 1, x 2, ValueIdx.eq_ix3 x⟩
    obtain rfl : a = 0 := Subsingleton.elim _ _
    show k0_pay3 x0 x1 (ValueIdx.ix3 (0 : Fin 1) r d) = _
    rw [pay3_apply]
    have e0 : rO1.emb (ValueIdx.ix3 (0 : Fin 1) r d) 0 = (1 : Fin 3) := Fin.ext (by show 1 + 1 * 0 = 1; rfl)
    have e1 : rO1.emb (ValueIdx.ix3 (0 : Fin 1) r d) 1 = r := Fin.ext (by show 0 + 1 * r.val = r.val; omega)
    have e2 : rO1.emb (ValueIdx.ix3 (0 : Fin 1) r d) 2 = d := Fin.ext (by show 0 + 1 * d.val = d.val; omega)
    unfold blkFn
    rw [e0, e1, e2]
  · obtain ⟨a, r, d, rfl⟩ : ∃ (a : Fin 1) (r : Fin 512) (d : Fin 1024), x = ValueIdx.ix3 a r d := ⟨x 0, x 1, x 2, ValueIdx.eq_ix3 x⟩
    obtain rfl : a = 0 := Subsingleton.elim _ _
    show k0_pay2 x0 x1 (ValueIdx.ix3 (0 : Fin 1) r d) = _
    rw [pay2_apply]
    have e0 : rO0.emb (ValueIdx.ix3 (0 : Fin 1) r d) 0 = (0 : Fin 3) := Fin.ext (by show 0 + 1 * 0 = 0; rfl)
    have e1 : rO0.emb (ValueIdx.ix3 (0 : Fin 1) r d) 1 = r := Fin.ext (by show 0 + 1 * r.val = r.val; omega)
    have e2 : rO0.emb (ValueIdx.ix3 (0 : Fin 1) r d) 2 = d := Fin.ext (by show 0 + 1 * d.val = d.val; omega)
    unfold blkFn
    rw [e0, e1, e2]

/-- The relations between the three windows' block indices, decided over the sixteen grid points: the input block and the
    output block move together along the rows; every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- The projection's output array as one function of the two input arrays: entry (j, R, d) is row R of the 8192×1024
    input against column d of panel j of the 1024×3072 weight. -/
def arrFn (X : S8192x1024.Idx → EReal) (W : S1024x3072.Idx → EReal) : S3x8192x1024.Idx → EReal :=
  fun i => ∑ k : Fin 1024, X (ValueIdx.ix2 (i 1) k) * W (ValueIdx.ix2 k (colIdx (i 0) (i 2)))

/-- Block t of the output function is the body's block function of blocks t of the two inputs. -/
theorem flushed_fn (X : S8192x1024.Idx → EReal) (W : S1024x3072.Idx → EReal) (t : Fin cfg0.N) :
    (cfg0.win 2).cut (grid0.coords t) (blkFn (((cfg0.win 0).blk t).view.read (Elt Ideal) X) (((cfg0.win 1).blk t).view.read (Elt Ideal) W))
      = ((cfg0.win 2).blk t).view.read (Elt Ideal) (arrFn X W) := by
  obtain ⟨e00, e01, e10, e11, e20, e21, e22⟩ := idx_facts t
  funext j
  have hj0 : (j 0).val < 3 := (j 0).isLt
  have hj1 : (j 1).val < 512 := (j 1).isLt
  have hj2 : (j 2).val < 1024 := (j 2).isLt
  show ∑ k : Fin 1024, X (((cfg0.win 0).blk t).view.emb (ValueIdx.ix2 ⟨(j 1).val, hj1⟩ k)) * W (((cfg0.win 1).blk t).view.emb (ValueIdx.ix2 k (colIdx ⟨(j 0).val, hj0⟩ ⟨(j 2).val, hj2⟩)))
    = ∑ k : Fin 1024, X (ValueIdx.ix2 ((((cfg0.win 2).blk t).view.emb j) 1) k) * W (ValueIdx.ix2 k (colIdx ((((cfg0.win 2).blk t).view.emb j) 0) ((((cfg0.win 2).blk t).view.emb j) 2)))
  have h0 : ∀ k : Fin 1024, ((cfg0.win 0).blk t).view.emb (ValueIdx.ix2 ⟨(j 1).val, hj1⟩ k) = ValueIdx.ix2 ((((cfg0.win 2).blk t).view.emb j) 1) k := fun k => by
    funext a; apply Fin.ext
    match a with
    | ⟨0, _⟩ => show win0_0.index t (0 : Fin 2) * 512 + 1 * (j 1).val = win0_2.index t (1 : Fin 3) * 512 + 1 * (j 1).val; omega
    | ⟨1, _⟩ => show win0_0.index t (1 : Fin 2) * 1024 + 1 * k.val = k.val; omega
  have h1 : ∀ k : Fin 1024, ((cfg0.win 1).blk t).view.emb (ValueIdx.ix2 k (colIdx ⟨(j 0).val, hj0⟩ ⟨(j 2).val, hj2⟩))
      = ValueIdx.ix2 k (colIdx ((((cfg0.win 2).blk t).view.emb j) 0) ((((cfg0.win 2).blk t).view.emb j) 2)) := fun k => by
    funext a; apply Fin.ext
    match a with
    | ⟨0, _⟩ => show win0_1.index t (0 : Fin 2) * 1024 + 1 * k.val = k.val; omega
    | ⟨1, _⟩ => show win0_1.index t (1 : Fin 2) * 3072 + 1 * ((j 0).val * 1024 + (j 2).val) = (win0_2.index t (0 : Fin 3) * 3 + 1 * (j 0).val) * 1024 + (win0_2.index t (2 : Fin 3) * 1024 + 1 * (j 2).val); omega
  exact Finset.sum_congr rfl fun k _ => by rw [h0 k, h1 k] <;> rfl

variable (V : (c : Dev nD) → (b : Ref sig .tc) → Buf (Elt Ideal) ((c : Thread nD τ).loc b))

/-- What grid point t writes back is block t of that function of the arrays as the region finds them. -/
theorem flushed_eq (c : Dev nD) (t : Fin cfg0.N) :
    (dat0 V c).flushed 2 t = ((cfg0.win 2).blk t).view.read (Elt Ideal) (arrFn (V c main_v0) (V c main_v2)) := by
  show (cfg0.win 2).cut (grid0.coords t) ((dat0 V c).after 2 t) = _
  rw [after0_2, out0_2_eq]
  exact flushed_fn (V c main_v0) (V c main_v2) t

/-- An index of the output array is in point t's block iff each coordinate is in the block's range on its axis. -/
theorem mem_blk (t : Fin cfg0.N) (i : S3x8192x1024.Idx) :
    i ∈ ((cfg0.win 2).blk t).view.set ↔ ∀ a : Fin 3, win0_2.index t a * S3x512x1024.size a ≤ (i a).val ∧ (i a).val < win0_2.index t a * S3x512x1024.size a + S3x512x1024.size a := by
  show i ∈ ((View.whole main_v3).slice (win0_2.rect t)).set ↔ _
  rw [View.set_slice_whole, Rect.mem_set_unit]
  exact Iff.rfl

/-- The sixteen blocks of 512 rows tile the 8192 rows: row R is in the block of point R / 512. -/
theorem cover (i : S3x8192x1024.Idx) : ∃ t : Fin cfg0.N, (cfg0.win 2).flush t = true ∧ i ∈ ((cfg0.win 2).blk t).view.set := by
  have hi0 : (i 0).val < 3 := (i 0).isLt
  have hi1 : (i 1).val < 8192 := (i 1).isLt
  have hi2 : (i 2).val < 1024 := (i 2).isLt
  have hN : (i 1).val / 512 < cfg0.N := by show (i 1).val / 512 < grid0.N; rw [N_0]; omega
  refine ⟨⟨(i 1).val / 512, hN⟩, flush0_2 _, ?_⟩
  obtain ⟨-, -, -, -, e20, e21, e22⟩ := idx_facts ⟨(i 1).val / 512, hN⟩
  rw [mem_blk]
  intro a
  match a with
  | ⟨0, _⟩ => show win0_2.index _ (0 : Fin 3) * 3 ≤ (i 0).val ∧ (i 0).val < win0_2.index _ (0 : Fin 3) * 3 + 3; rw [e20]; omega
  | ⟨1, _⟩ => show win0_2.index _ (1 : Fin 3) * 512 ≤ (i 1).val ∧ (i 1).val < win0_2.index _ (1 : Fin 3) * 512 + 512; rw [e21]; show (i 1).val / 512 * 512 ≤ (i 1).val ∧ (i 1).val < (i 1).val / 512 * 512 + 512; omega
  | ⟨2, _⟩ => show win0_2.index _ (2 : Fin 3) * 1024 ≤ (i 2).val ∧ (i 2).val < win0_2.index _ (2 : Fin 3) * 1024 + 1024; rw [e22]; omega

/-- THE OUTPUT ARRAY after the projection region: the projection function of the two arrays as the region found them. -/
theorem arr_final (c : Dev nD) : (dat0 V c).arrAt 2 cfg0.N = arrFn (V c main_v0) (V c main_v2) :=
  (dat0 V c).arrAt_eq_of_cover 2 (arrFn (V c main_v0) (V c main_v2)) (fun t _ => flushed_eq V c t) cover

end Cert.KernelIdeal.Hand.Proj

end
-- ==== Proof.IdealProjValue.lean ====
/-
  The three projections as the attention region finds them, at the ideal values: each is the linear projection of the
  input by one of the three weights, entry (b, t, d) the sum over the 1024 model coordinates of x[b,t,k]·w[k,d].
-/
import proofs.«160108_j10788957848091_2_alg».proof.Proof.IdealProjHost
import proofs.«160108_j10788957848091_2_alg».proof.Proof.IdealProjArray

set_option maxRecDepth 16384

noncomputable section

namespace Cert.KernelIdeal.Hand

open Idealize.ShloMosaic Idealize.ShloMosaic.TcCoe
open Idealize.ShloMosaic.Pipeline (Dat Cfg Window cellOf)
open Cert.KernelIdeal Cert.KernelIdeal.Gen
open scoped BigOperators

namespace Proj

/-- The output function at slice j, row b·2048 + t, column d, over the reshaped input and the concatenated weights, is the
    projection of the input by weight j. -/
theorem arrFn_apply (X : S4x2048x1024.Idx → EReal) (W0 W1 W2 : S1024x1024.Idx → EReal) (b : Fin 4) (t : Fin 2048) (d : Fin 1024) :
    arrFn (shapeCast S8192x1024 X shapeCasts_S4x2048x1024_S8192x1024)
        (concatenate S1024x3072 1 [⟨S1024x1024, W0⟩, ⟨S1024x1024, W1⟩, ⟨S1024x1024, W2⟩] concatenates_S1024x1024_S1024x1024_S1024x1024_S1024x3072_d1)
        (ValueIdx.ix3 (0 : Fin 3) (rowIdx b t) d) = Cert.Attn.proj (Cert.Attn.act X) (Cert.Attn.mat W0) b t d
    ∧ arrFn (shapeCast S8192x1024 X shapeCasts_S4x2048x1024_S8192x1024)
        (concatenate S1024x3072 1 [⟨S1024x1024, W0⟩, ⟨S1024x1024, W1⟩, ⟨S1024x1024, W2⟩] concatenates_S1024x1024_S1024x1024_S1024x1024_S1024x3072_d1)
        (ValueIdx.ix3 (1 : Fin 3) (rowIdx b t) d) = Cert.Attn.proj (Cert.Attn.act X) (Cert.Attn.mat W1) b t d
    ∧ arrFn (shapeCast S8192x1024 X shapeCasts_S4x2048x1024_S8192x1024)
        (concatenate S1024x3072 1 [⟨S1024x1024, W0⟩, ⟨S1024x1024, W1⟩, ⟨S1024x1024, W2⟩] concatenates_S1024x1024_S1024x1024_S1024x1024_S1024x3072_d1)
        (ValueIdx.ix3 (2 : Fin 3) (rowIdx b t) d) = Cert.Attn.proj (Cert.Attn.act X) (Cert.Attn.mat W2) b t d := by
  refine ⟨?_, ?_, ?_⟩
  · show ∑ k : Fin 1024, shapeCast S8192x1024 X shapeCasts_S4x2048x1024_S8192x1024 (ValueIdx.ix2 (rowIdx b t) k)
        * concatenate S1024x3072 1 [⟨S1024x1024, W0⟩, ⟨S1024x1024, W1⟩, ⟨S1024x1024, W2⟩] concatenates_S1024x1024_S1024x1024_S1024x1024_S1024x3072_d1 (ValueIdx.ix2 k (colIdx 0 d))
      = ∑ k : Fin 1024, X (ValueIdx.ix3 b t k) * W0 (ValueIdx.ix2 k d)
    exact Finset.sum_congr rfl fun k _ => by rw [reshape_in_apply, (concat_w_apply W0 W1 W2 k d).1]
  · show ∑ k : Fin 1024, shapeCast S8192x1024 X shapeCasts_S4x2048x1024_S8192x1024 (ValueIdx.ix2 (rowIdx b t) k)
        * concatenate S1024x3072 1 [⟨S1024x1024, W0⟩, ⟨S1024x1024, W1⟩, ⟨S1024x1024, W2⟩] concatenates_S1024x1024_S1024x1024_S1024x1024_S1024x3072_d1 (ValueIdx.ix2 k (colIdx 1 d))
      = ∑ k : Fin 1024, X (ValueIdx.ix3 b t k) * W1 (ValueIdx.ix2 k d)
    exact Finset.sum_congr rfl fun k _ => by rw [reshape_in_apply, (concat_w_apply W0 W1 W2 k d).2.1]
  · show ∑ k : Fin 1024, shapeCast S8192x1024 X shapeCasts_S4x2048x1024_S8192x1024 (ValueIdx.ix2 (rowIdx b t) k)
        * concatenate S1024x3072 1 [⟨S1024x1024, W0⟩, ⟨S1024x1024, W1⟩, ⟨S1024x1024, W2⟩] concatenates_S1024x1024_S1024x1024_S1024x1024_S1024x3072_d1 (ValueIdx.ix2 k (colIdx 2 d))
      = ∑ k : Fin 1024, X (ValueIdx.ix3 b t k) * W2 (ValueIdx.ix2 k d)
    exact Finset.sum_congr rfl fun k _ => by rw [reshape_in_apply, (concat_w_apply W0 W1 W2 k d).2.2]

/-- The projection's output array at the region's exit, over the launch contents of the four arguments. -/
theorem B2_main_v3 (m : (ℓ : Loc nD τ sig) → Buf (Elt Ideal) ℓ) (c : Dev nD) :
    (B2 m c (Proc.devRef .tc main_v3) : S3x8192x1024.Idx → EReal)
      = arrFn (shapeCast S8192x1024 (m ((c : Thread nD τ).loc main_arg0) : S4x2048x1024.Idx → EReal) shapeCasts_S4x2048x1024_S8192x1024)
          (concatenate S1024x3072 1 [⟨S1024x1024, (m ((c : Thread nD τ).loc main_arg1) : S1024x1024.Idx → EReal)⟩, ⟨S1024x1024, (m ((c : Thread nD τ).loc main_arg2) : S1024x1024.Idx → EReal)⟩, ⟨S1024x1024, (m ((c : Thread nD τ).loc main_arg3) : S1024x1024.Idx → EReal)⟩] concatenates_S1024x1024_S1024x1024_S1024x1024_S1024x3072_d1) := by
  rw [← E1_main_v0 m c, ← E1_main_v2 m c]
  exact (B2_arr m c 2).trans (arr_final (E1 m) c)

end Proj

open Proj

/-- The query projection as the attention region finds it. -/
theorem E3_main_v6 (m : (ℓ : Loc nD τ sig) → Buf (Elt Ideal) ℓ) (c : Dev nD) :
    E3 (F := Ideal) m c main_v6
      = fun i => Cert.Attn.proj (Cert.Attn.act (m ((c : Thread nD τ).loc main_arg0))) (Cert.Attn.mat (m ((c : Thread nD τ).loc main_arg1))) (i 0) (i 1) (i 2) := by
  refine (E3_main_v6_eq m c).trans ?_
  rw [B2_main_v3]
  funext i
  obtain ⟨b, t, d, rfl⟩ : ∃ (b : Fin 4) (t : Fin 2048) (d : Fin 1024), i = ValueIdx.ix3 b t d := ⟨i 0, i 1, i 2, ValueIdx.eq_ix3 i⟩
  exact (slice_out_apply _ 0 _ b t d).trans (arrFn_apply _ _ _ _ b t d).1

/-- The key projection as the attention region finds it. -/
theorem E3_main_v8 (m : (ℓ : Loc nD τ sig) → Buf (Elt Ideal) ℓ) (c : Dev nD) :
    E3 (F := Ideal) m c main_v8
      = fun i => Cert.Attn.proj (Cert.Attn.act (m ((c : Thread nD τ).loc main_arg0))) (Cert.Attn.mat (m ((c : Thread nD τ).loc main_arg2))) (i 0) (i 1) (i 2) := by
  refine (E3_main_v8_eq m c).trans ?_
  rw [B2_main_v3]
  funext i
  obtain ⟨b, t, d, rfl⟩ : ∃ (b : Fin 4) (t : Fin 2048) (d : Fin 1024), i = ValueIdx.ix3 b t d := ⟨i 0, i 1, i 2, ValueIdx.eq_ix3 i⟩
  exact (slice_out_apply _ 1 _ b t d).trans (arrFn_apply _ _ _ _ b t d).2.1

/-- The value projection as the attention region finds it. -/
theorem E3_main_v10 (m : (ℓ : Loc nD τ sig) → Buf (Elt Ideal) ℓ) (c : Dev nD) :
    E3 (F := Ideal) m c main_v10
      = fun i => Cert.Attn.proj (Cert.Attn.act (m ((c : Thread nD τ).loc main_arg0))) (Cert.Attn.mat (m ((c : Thread nD τ).loc main_arg3))) (i 0) (i 1) (i 2) := by
  refine (E3_main_v10_eq m c).trans ?_
  rw [B2_main_v3]
  funext i
  obtain ⟨b, t, d, rfl⟩ : ∃ (b : Fin 4) (t : Fin 2048) (d : Fin 1024), i = ValueIdx.ix3 b t d := ⟨i 0, i 1, i 2, ValueIdx.eq_ix3 i⟩
  exact (slice_out_apply _ 2 _ b t d).trans (arrFn_apply _ _ _ _ b t d).2.2

end Cert.KernelIdeal.Hand

end
-- ==== Proof.IdealPayMat.lean ====
/-
  The attention body's arithmetic read at an index, in the extended reals.

  For one tile pair the body forms the 512×512 scaled scores of the query block's rows against the key block's rows,
  masks the entries whose key position is after the query position with -∞, and from them and the carried per-row
  maximum m, sum l and accumulator a computes the new ones. Each is read here at a row r (and a column d or a key j) as
  the textbook expression in the entries of the blocks.
-/
import proofs.«160108_j10788957848091_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators

namespace Cert.KernelIdeal.Pay

open Idealize.ShloMosaic Idealize.ShloMosaic.ValueIdx Cert.KernelIdeal Cert.KernelIdeal.Gen

/-- The two matrix products' shape records. -/
abbrev DQK := dot_S1x512x1024_S1x512x1024_S1x512x512_2_2_1_1_0_0
abbrev DPV := dot_S1x512x512_S1x512x1024_S1x512x1024_2_1_1_2_0_0

/-! ## The two matrix products at an index -/

theorem qk_l0 (i : S1x512x512.Idx) (q : DQK.contr.Idx) : (DQK.lhsIdx i q 0).val = (i 0).val := by
  unfold DotDims.lhsIdx
  rw [dif_pos (show (0 : Fin S1x512x1024.rank) ∈ DQK.lhsBatch by decide)]
  rfl
theorem qk_l1 (i : S1x512x512.Idx) (q : DQK.contr.Idx) : (DQK.lhsIdx i q 1).val = (i 1).val := by
  unfold DotDims.lhsIdx
  rw [dif_neg (show ¬(1 : Fin S1x512x1024.rank) ∈ DQK.lhsBatch by decide), dif_pos (show (1 : Fin S1x512x1024.rank) ∈ DQK.lhsNonContracting by decide)]
  rfl
theorem qk_l2 (i : S1x512x512.Idx) (q : DQK.contr.Idx) : (DQK.lhsIdx i q 2).val = (q ⟨0, by decide⟩).val :=
  DQK.lhsIdx_val_of_single rfl i q
theorem qk_r0 (i : S1x512x512.Idx) (q : DQK.contr.Idx) : (DQK.rhsIdx i q 0).val = (i 0).val := by
  unfold DotDims.rhsIdx
  rw [dif_pos (show (0 : Fin S1x512x1024.rank) ∈ DQK.rhsBatch by decide)]
  rfl
theorem qk_r1 (i : S1x512x512.Idx) (q : DQK.contr.Idx) : (DQK.rhsIdx i q 1).val = (i 2).val := by
  unfold DotDims.rhsIdx
  rw [dif_neg (show ¬(1 : Fin S1x512x1024.rank) ∈ DQK.rhsBatch by decide), dif_pos (show (1 : Fin S1x512x1024.rank) ∈ DQK.rhsNonContracting by decide)]
  rfl
theorem qk_r2 (i : S1x512x512.Idx) (q : DQK.contr.Idx) : (DQK.rhsIdx i q 2).val = (q ⟨0, by decide⟩).val :=
  DQK.rhsIdx_val_of_single rfl i q

/-- Entry (r, j) of the product of the query block with the transposed key block: the sum over the 1024 model
    coordinates of the products of row r of the one and row j of the other. -/
theorem qk_apply (x0 x1 : FVec Ideal S1x512x1024 .bf16) (r j : Fin 512) :
    matmul DQK none x0 x1 (constant S1x512x512 .f32 0x00000000#32) (ix3 (0 : Fin 1) r j)
      = ∑ d : Fin 1024, x0 (ix3 (0 : Fin 1) r d) * x1 (ix3 (0 : Fin 1) j d) := by
  simp only [matmul]
  rw [Ideal.matmul_constant_zero_apply, ← Equiv.sum_comp (ValueIdx.contrEquiv1 DQK 1024 rfl rfl).symm]
  refine Finset.sum_congr rfl fun k _ => ?_
  have hk := ValueIdx.contrEquiv1_symm_val DQK 1024 rfl rfl k
  have el : DQK.lhsIdx (ix3 (0 : Fin 1) r j) ((ValueIdx.contrEquiv1 DQK 1024 rfl rfl).symm k) = ix3 (0 : Fin 1) r k := funext fun a => Fin.ext (by
    match a with
    | ⟨0, _⟩ => exact qk_l0 _ _
    | ⟨1, _⟩ => exact qk_l1 _ _
    | ⟨2, _⟩ => exact (qk_l2 _ _).trans hk)
  have er : DQK.rhsIdx (ix3 (0 : Fin 1) r j) ((ValueIdx.contrEquiv1 DQK 1024 rfl rfl).symm k) = ix3 (0 : Fin 1) j k := funext fun a => Fin.ext (by
    match a with
    | ⟨0, _⟩ => exact qk_r0 _ _
    | ⟨1, _⟩ => exact qk_r1 _ _
    | ⟨2, _⟩ => exact (qk_r2 _ _).trans hk)
  rw [el, er]

theorem pv_l0 (i : S1x512x1024.Idx) (q : DPV.contr.Idx) : (DPV.lhsIdx i q 0).val = (i 0).val := by
  unfold DotDims.lhsIdx
  rw [dif_pos (show (0 : Fin S1x512x512.rank) ∈ DPV.lhsBatch by decide)]
  rfl
theorem pv_l1 (i : S1x512x1024.Idx) (q : DPV.contr.Idx) : (DPV.lhsIdx i q 1).val = (i 1).val := by
  unfold DotDims.lhsIdx
  rw [dif_neg (show ¬(1 : Fin S1x512x512.rank) ∈ DPV.lhsBatch by decide), dif_pos (show (1 : Fin S1x512x512.rank) ∈ DPV.lhsNonContracting by decide)]
  rfl
theorem pv_l2 (i : S1x512x1024.Idx) (q : DPV.contr.Idx) : (DPV.lhsIdx i q 2).val = (q ⟨0, by decide⟩).val :=
  DPV.lhsIdx_val_of_single rfl i q
theorem pv_r0 (i : S1x512x1024.Idx) (q : DPV.contr.Idx) : (DPV.rhsIdx i q 0).val = (i 0).val := by
  unfold DotDims.rhsIdx
  rw [dif_pos (show (0 : Fin S1x512x1024.rank) ∈ DPV.rhsBatch by decide)]
  rfl
theorem pv_r1 (i : S1x512x1024.Idx) (q : DPV.contr.Idx) : (DPV.rhsIdx i q 1).val = (q ⟨0, by decide⟩).val :=
  DPV.rhsIdx_val_of_single rfl i q
theorem pv_r2 (i : S1x512x1024.Idx) (q : DPV.contr.Idx) : (DPV.rhsIdx i q 2).val = (i 2).val := by
  unfold DotDims.rhsIdx
  rw [dif_neg (show ¬(2 : Fin S1x512x1024.rank) ∈ DPV.rhsBatch by decide), dif_pos (show (2 : Fin S1x512x1024.rank) ∈ DPV.rhsNonContracting by decide)]
  rfl

/-- Entry (r, d) of the product of the weights with the value block: the sum over the 512 keys of weight (r, j) times
    value (j, d). -/
theorem pv_apply (p : FVec Ideal S1x512x512 .bf16) (x2 : FVec Ideal S1x512x1024 .bf16) (r : Fin 512) (d : Fin 1024) :
    matmul DPV none p x2 (constant S1x512x1024 .f32 0x00000000#32) (ix3 (0 : Fin 1) r d)
      = ∑ j : Fin 512, p (ix3 (0 : Fin 1) r j) * x2 (ix3 (0 : Fin 1) j d) := by
  simp only [matmul]
  rw [Ideal.matmul_constant_zero_apply, ← Equiv.sum_comp (ValueIdx.contrEquiv1 DPV 512 rfl rfl).symm]
  refine Finset.sum_congr rfl fun k _ => ?_
  have hk := ValueIdx.contrEquiv1_symm_val DPV 512 rfl rfl k
  have el : DPV.lhsIdx (ix3 (0 : Fin 1) r d) ((ValueIdx.contrEquiv1 DPV 512 rfl rfl).symm k) = ix3 (0 : Fin 1) r k := funext fun a => Fin.ext (by
    match a with
    | ⟨0, _⟩ => exact pv_l0 _ _
    | ⟨1, _⟩ => exact pv_l1 _ _
    | ⟨2, _⟩ => exact (pv_l2 _ _).trans hk)
  have er : DPV.rhsIdx (ix3 (0 : Fin 1) r d) ((ValueIdx.contrEquiv1 DPV 512 rfl rfl).symm k) = ix3 (0 : Fin 1) k d := funext fun a => Fin.ext (by
    match a with
    | ⟨0, _⟩ => exact pv_r0 _ _
    | ⟨1, _⟩ => exact (pv_r1 _ _).trans hk
    | ⟨2, _⟩ => exact pv_r2 _ _)
  rw [el, er]

end Cert.KernelIdeal.Pay

end
-- ==== Proof.LibRealSums.lean ====
/-
  General algebra of finite sums of real numbers read inside the extended reals.

  At the ideal instance a float is an extended real, and the ring laws that join a program which aggregates
  first and multiplies afterwards to one which multiplies first (distributivity, exchange of two finite sums,
  cancellation in a mean) fail at the two infinities. Every law here is therefore stated for entries that are
  coercions of real numbers: it is proved in the reals and the coercion is pushed through sums, products and
  differences.
-/
import Mathlib
import Idealize.ShloMosaic.PureOps.Ideal
import Idealize.ShloMosaic.PureOps.Ideal.Laws

noncomputable section

open scoped BigOperators
open Idealize.ShloMosaic

namespace LibRealSums

/-! ## 1. The coercion commutes with finite sums -/

/-- The coercion of the reals into the extended reals commutes with a finite sum:
    the coercion of `∑ i ∈ s, f i` is `∑ i ∈ s` of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite index type. -/
theorem coe_sum_univ {ι : Type*} [Fintype ι] (f : ι → ℝ) :
    ((∑ i, f i : ℝ) : EReal) = ∑ i, (f i : EReal) :=
  coe_sum Finset.univ f

/-! ## 3. Regrouping a sum over `m * n` indices into `m` tiles of `n` -/

/-- A sum over `Fin N` with `N = m * n` is the sum over the `m` tiles of the sums over the `n` positions of a
    tile, the index of position `r` of tile `t` being `t * n + r`. -/
theorem sum_tiles {M : Type*} [AddCommMonoid M] {m n N : ℕ} (h : m * n = N) (f : Fin N → M) :
    ∑ t : Fin m, ∑ r : Fin n,
        f ⟨t.val * n + r.val, by
          have := t.isLt; have := r.isLt
          calc t.val * n + r.val < t.val * n + n := by omega
            _ = (t.val + 1) * n := by ring
            _ ≤ m * n := Nat.mul_le_mul_right _ (by omega)
            _ = N := h⟩
      = ∑ i : Fin N, f i := by
  subst h
  rw [← (finProdFinEquiv (m := m) (n := n)).sum_comp f, Fintype.sum_prod_type]
  refine Finset.sum_congr rfl fun t _ => Finset.sum_congr rfl fun r _ => congrArg f (Fin.ext ?_)
  simp only [finProdFinEquiv, Equiv.coe_fn_mk]
  ring

/-- `100000 = 25 * 4000`: a sum over 100000 indices is the sum over 25 tiles of 4000. -/
theorem sum_tiles_25_4000 {M : Type*} [AddCommMonoid M] (f : Fin 100000 → M) :
    ∑ t : Fin 25, ∑ r : Fin 4000, f ⟨t.val * 4000 + r.val, by omega⟩ = ∑ i : Fin 100000, f i :=
  sum_tiles (m := 25) (n := 4000) (N := 100000) (by norm_num) f

/-- `100000 = 50 * 2000`: a sum over 100000 indices is the sum over 50 tiles of 2000. -/
theorem sum_tiles_50_2000 {M : Type*} [AddCommMonoid M] (f : Fin 100000 → M) :
    ∑ t : Fin 50, ∑ r : Fin 2000, f ⟨t.val * 2000 + r.val, by omega⟩ = ∑ i : Fin 100000, f i :=
  sum_tiles (m := 50) (n := 2000) (N := 100000) (by norm_num) f

/-! ## 5. Aggregate, then multiply by the weight = multiply by the weight, then aggregate -/

/-- In the reals: the weighted sum over `k` of an aggregate `∑ e ∈ S, nrm e * g e k + d * y k` is the aggregate
    of the weighted sums: distributivity and the exchange of the two finite sums. -/
theorem real_aggregate_mul {E K : Type*} [Fintype K] (S : Finset E) (nrm : E → ℝ) (g : E → K → ℝ) (d : ℝ)
    (y W : K → ℝ) :
    ∑ k, ((∑ e ∈ S, nrm e * g e k) + d * y k) * W k
      = (∑ e ∈ S, nrm e * ∑ k, g e k * W k) + d * ∑ k, y k * W k := by
  simp only [add_mul, Finset.sum_add_distrib, Finset.sum_mul, Finset.mul_sum, mul_assoc]
  rw [Finset.sum_comm]

/-- In the extended reals, for real entries: a row that is first aggregated over the edges `e ∈ S` landing on it
    (each scaled by `nrm e`), has `d` times its own entry added, and is then contracted with the weight `W`, equals
    the row whose edge features and own entry are contracted with `W` first and aggregated afterwards. The leading
    `0 +` on both sides is the zero the scatter-add starts from. -/
theorem aggregate_mul {E K : Type*} [Fintype K] (S : Finset E) (nrm : E → ℝ) (g : E → K → ℝ) (d : ℝ)
    (y W : K → ℝ) :
    ∑ k, (((0 : EReal) + ∑ e ∈ S, (nrm e : EReal) * (g e k : EReal)) + (d : EReal) * (y k : EReal)) * (W k : EReal)
      = ((0 : EReal) + ∑ e ∈ S, (nrm e : EReal) * ∑ k, (g e k : EReal) * (W k : EReal))
          + (d : EReal) * ∑ k, (y k : EReal) * (W k : EReal) := by
  simp only [zero_add, ← EReal.coe_mul, ← coe_sum, ← EReal.coe_add]
  rw [real_aggregate_mul]

/-- The same with the edges selected by a decidable predicate: the sums over `Finset.univ.filter p`. -/
theorem aggregate_mul_filter {E K : Type*} [Fintype E] [Fintype K] (p : E → Prop) [DecidablePred p]
    (nrm : E → ℝ) (g : E → K → ℝ) (d : ℝ) (y W : K → ℝ) :
    ∑ k, (((0 : EReal) + ∑ e ∈ Finset.univ.filter p, (nrm e : EReal) * (g e k : EReal))
            + (d : EReal) * (y k : EReal)) * (W k : EReal)
      = ((0 : EReal) + ∑ e ∈ Finset.univ.filter p, (nrm e : EReal) * ∑ k, (g e k : EReal) * (W k : EReal))
          + (d : EReal) * ∑ k, (y k : EReal) * (W k : EReal) :=
  aggregate_mul (Finset.univ.filter p) nrm g d y W

/-- The aggregate without the self term: contraction with the weight commutes with the scaled aggregation. -/
theorem aggregate_mul_noself {E K : Type*} [Fintype K] (S : Finset E) (nrm : E → ℝ) (g : E → K → ℝ)
    (W : K → ℝ) :
    ∑ k, ((0 : EReal) + ∑ e ∈ S, (nrm e : EReal) * (g e k : EReal)) * (W k : EReal)
      = (0 : EReal) + ∑ e ∈ S, (nrm e : EReal) * ∑ k, (g e k : EReal) * (W k : EReal) := by
  simp only [zero_add, ← EReal.coe_mul, ← coe_sum]
  congr 1
  simp only [Finset.sum_mul, Finset.mul_sum, mul_assoc]
  rw [Finset.sum_comm]

/-! ## 4. The variance: mean of the squares minus the squared mean = mean of the squared deviations -/

/-- The quotient of a real by a nonzero real, taken in the extended reals, is the coercion of the real quotient. -/
theorem div_coe_coe (x : ℝ) {n : ℝ} (hn : n ≠ 0) :
    Ideal.div (x : EReal) (n : EReal) = ((x / n : ℝ) : EReal) := by
  rw [Ideal.div_coe hn, ← EReal.coe_mul, mul_one_div]

/-- In the reals, over `n ≠ 0` entries with mean `m = (∑ a) / n`:
    `(∑ a²) / n - m² = (∑ (a - m)²) / n`, since `∑ (a - m)² = ∑ a² - 2 m ∑ a + n m²` and `∑ a = n m`. -/
theorem real_variance {ι : Type*} [Fintype ι] (a : ι → ℝ) {n : ℝ} (hcard : (Fintype.card ι : ℝ) = n)
    (hn : n ≠ 0) :
    (∑ i, a i * a i) / n - (∑ i, a i) / n * ((∑ i, a i) / n)
      = (∑ i, (a i - (∑ j, a j) / n) * (a i - (∑ j, a j) / n)) / n := by
  have key : ∀ m : ℝ, ∑ i, (a i - m) * (a i - m) = (∑ i, a i * a i) - 2 * m * (∑ i, a i) + n * (m * m) := by
    intro m
    have h : ∀ i, (a i - m) * (a i - m) = a i * a i - 2 * m * a i + m * m := fun i => by ring
    simp only [h, Finset.sum_add_distrib, Finset.sum_sub_distrib, ← Finset.mul_sum, Finset.sum_const,
      Finset.card_univ, nsmul_eq_mul, hcard]
    ring
  rw [key]
  field_simp
  ring

/-- In the extended reals, for real entries `a i` over an index type of `n ≠ 0` elements, with the mean
    `μ = (∑ a) / n`: the mean of the squares minus the square of the mean is the mean of the squared deviations
    from the mean. (The two-pass and the one-pass formula of a batch variance.) -/
theorem variance {ι : Type*} [Fintype ι] (a : ι → ℝ) {n : ℝ} (hcard : (Fintype.card ι : ℝ) = n) (hn : n ≠ 0) :
    Ideal.div (∑ i, (a i : EReal) * (a i : EReal)) (n : EReal)
        - Ideal.div (∑ i, (a i : EReal)) (n : EReal) * Ideal.div (∑ i, (a i : EReal)) (n : EReal)
      = Ideal.div (∑ i, ((a i : EReal) - Ideal.div (∑ j, (a j : EReal)) (n : EReal))
                        * ((a i : EReal) - Ideal.div (∑ j, (a j : EReal)) (n : EReal))) (n : EReal) := by
  have hμ : Ideal.div (∑ j, (a j : EReal)) (n : EReal) = (((∑ j, a j) / n : ℝ) : EReal) := by
    rw [← coe_sum_univ, div_coe_coe _ hn]
  rw [hμ]
  simp only [← EReal.coe_mul, ← EReal.coe_sub, ← coe_sum_univ, div_coe_coe _ hn]
  rw [real_variance a hcard hn]

/-- The same with the mean named: for `μ` equal to `(∑ a) / n`. -/
theorem variance' {ι : Type*} [Fintype ι] (a : ι → ℝ) {n : ℝ} (hcard : (Fintype.card ι : ℝ) = n) (hn : n ≠ 0)
    (μ : EReal) (hμ : μ = Ideal.div (∑ i, (a i : EReal)) (n : EReal)) :
    Ideal.div (∑ i, (a i : EReal) * (a i : EReal)) (n : EReal) - μ * μ
      = Ideal.div (∑ i, ((a i : EReal) - μ) * ((a i : EReal) - μ)) (n : EReal) := by
  subst hμ
  exact variance a hcard hn

/-- The mean of real entries is real: `(∑ a) / n` in the extended reals is the coercion of the real mean. -/
theorem mean_eq_coe {ι : Type*} [Fintype ι] (a : ι → ℝ) {n : ℝ} (hn : n ≠ 0) :
    Ideal.div (∑ i, (a i : EReal)) (n : EReal) = (((∑ i, a i) / n : ℝ) : EReal) := by
  rw [← coe_sum_univ, div_coe_coe _ hn]

/-- Both forms of the variance of real entries are the coercion of ONE real number `v ≥ 0` (so that adding an
    `ε > 0` gives a real `> 0`): `v` is the real mean of the squared deviations. -/
theorem variance_eq_coe_nonneg {ι : Type*} [Fintype ι] (a : ι → ℝ) {n : ℝ} (hcard : (Fintype.card ι : ℝ) = n)
    (hn : n ≠ 0) :
    ∃ v : ℝ, 0 ≤ v
      ∧ Ideal.div (∑ i, (a i : EReal) * (a i : EReal)) (n : EReal)
          - Ideal.div (∑ i, (a i : EReal)) (n : EReal) * Ideal.div (∑ i, (a i : EReal)) (n : EReal) = (v : EReal)
      ∧ Ideal.div (∑ i, ((a i : EReal) - Ideal.div (∑ j, (a j : EReal)) (n : EReal))
                        * ((a i : EReal) - Ideal.div (∑ j, (a j : EReal)) (n : EReal))) (n : EReal) = (v : EReal) := by
  have hnn : 0 ≤ n := hcard ▸ Nat.cast_nonneg _
  have h2 : Ideal.div (∑ i, ((a i : EReal) - Ideal.div (∑ j, (a j : EReal)) (n : EReal))
                        * ((a i : EReal) - Ideal.div (∑ j, (a j : EReal)) (n : EReal))) (n : EReal)
      = (((∑ i, (a i - (∑ j, a j) / n) * (a i - (∑ j, a j) / n)) / n : ℝ) : EReal) := by
    rw [mean_eq_coe a hn]
    simp only [← EReal.coe_mul, ← EReal.coe_sub, ← coe_sum_univ, div_coe_coe _ hn]
  refine ⟨(∑ i, (a i - (∑ j, a j) / n) * (a i - (∑ j, a j) / n)) / n,
    div_nonneg (Finset.sum_nonneg fun i _ => mul_self_nonneg _) hnn, ?_, h2⟩
  rw [variance a hcard hn, h2]

/-! ## 2. The reals are closed, inside the extended reals, under the operations of a program

  `IsReal x` says that `x` is the coercion of a real number. The arithmetic and lattice operations, finite sums,
  division by a nonzero real, the reciprocal square root of a positive real and the smooth unary functions all
  keep a value real. -/

/-- An extended real is *real* when it is the coercion of a real number, i.e. neither infinity. -/
def IsReal (x : EReal) : Prop := ∃ r : ℝ, x = (r : EReal)

namespace IsReal

/-- The coercion of a real number is real. -/
theorem coe (r : ℝ) : IsReal (r : EReal) := ⟨r, rfl⟩

/-- Zero is real. -/
theorem zero : IsReal (0 : EReal) := ⟨0, rfl⟩

/-- One is real. -/
theorem one : IsReal (1 : EReal) := ⟨1, rfl⟩

/-- A real value is not `⊤`. -/
theorem ne_top {x : EReal} (h : IsReal x) : x ≠ ⊤ := by
  obtain ⟨r, rfl⟩ := h; exact EReal.coe_ne_top r

/-- A real value is not `⊥`. -/
theorem ne_bot {x : EReal} (h : IsReal x) : x ≠ ⊥ := by
  obtain ⟨r, rfl⟩ := h; exact EReal.coe_ne_bot r

/-- An extended real is real exactly when it is neither `⊥` nor `⊤`. -/
theorem iff_ne {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | coe r => exact ⟨r, rfl⟩
    | top => exact absurd rfl ht

/-- A real value is the coercion of its real part `x.toReal`. -/
theorem coe_toReal {x : EReal} (h : IsReal x) : ((x.toReal : ℝ) : EReal) = x := by
  obtain ⟨r, rfl⟩ := h; rfl

/-- The sum of two reals is real. -/
protected theorem add {x y : EReal} (hx : IsReal x) (hy : IsReal y) : IsReal (x + y) := by
  obtain ⟨a, rfl⟩ := hx; obtain ⟨b, rfl⟩ := hy; exact ⟨a + b, (EReal.coe_add a b).symm⟩

/-- The negation of a real is real. -/
protected theorem neg {x : EReal} (hx : IsReal x) : IsReal (-x) := by
  obtain ⟨a, rfl⟩ := hx; exact ⟨-a, (EReal.coe_neg a).symm⟩

/-- The difference of two reals is real. -/
protected theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
protected theorem mul {x y : EReal} (hx : IsReal x) (hy : IsReal y) : IsReal (x * y) := by
  obtain ⟨a, rfl⟩ := hx; obtain ⟨b, rfl⟩ := hy; exact ⟨a * b, (EReal.coe_mul a b).symm⟩

/-- The coercion commutes with the maximum (it is monotone). -/
theorem coe_max (a b : ℝ) : ((max a b : ℝ) : EReal) = max (a : EReal) (b : EReal) :=
  EReal.coe_strictMono.monotone.map_max

/-- The coercion commutes with the minimum (it is monotone). -/
theorem coe_min (a b : ℝ) : ((min a b : ℝ) : EReal) = min (a : EReal) (b : EReal) :=
  EReal.coe_strictMono.monotone.map_min

/-- The maximum of two reals is real. -/
protected theorem max {x y : EReal} (hx : IsReal x) (hy : IsReal y) : IsReal (max x y) := by
  obtain ⟨a, rfl⟩ := hx; obtain ⟨b, rfl⟩ := hy; exact ⟨Max.max a b, (coe_max a b).symm⟩

/-- The minimum of two reals is real. -/
protected theorem min {x y : EReal} (hx : IsReal x) (hy : IsReal y) : IsReal (min x y) := by
  obtain ⟨a, rfl⟩ := hx; obtain ⟨b, rfl⟩ := hy; exact ⟨Min.min a b, (coe_min a b).symm⟩

/-- A finite sum of reals is real. -/
protected theorem sum {ι : Type*} (s : Finset ι) (f : ι → EReal) (h : ∀ i ∈ s, IsReal (f i)) :
    IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- A sum of reals over a whole finite index type is real. -/
protected theorem sum_univ {ι : Type*} [Fintype ι] (f : ι → EReal) (h : ∀ i, IsReal (f i)) :
    IsReal (∑ i, f i) :=
  IsReal.sum Finset.univ f fun i _ => h i

/-- The quotient of a real by a nonzero real is real: it is the coercion of the real quotient. -/
theorem div_coe {x : EReal} (hx : IsReal x) {n : ℝ} (hn : n ≠ 0) : IsReal (Ideal.div x (n : EReal)) := by
  obtain ⟨a, rfl⟩ := hx
  exact ⟨a * (1 / n), by rw [Ideal.div_coe hn, EReal.coe_mul]⟩

/-- The quotient of two reals with a nonzero divisor is real. -/
protected theorem div {x y : EReal} (hx : IsReal x) (hy : IsReal y) (h0 : y ≠ 0) : IsReal (Ideal.div x y) := by
  obtain ⟨b, rfl⟩ := hy
  exact hx.div_coe (fun hb => h0 (by rw [hb, EReal.coe_zero]))

/-- The reciprocal square root of a positive real `r` is the real `(√r)⁻¹`, which is positive. -/
theorem rsqrt_coe_pos {r : ℝ} (hr : 0 < r) :
    Ideal.rsqrt (r : EReal) = (((Real.sqrt r)⁻¹ : ℝ) : EReal) ∧ 0 < (Real.sqrt r)⁻¹ := by
  refine ⟨?_, inv_pos.mpr (Real.sqrt_pos.mpr hr)⟩
  rw [Ideal.rsqrt_coe, if_neg (not_lt.mpr hr.le), if_neg hr.ne']

/-- The reciprocal square root of a positive real is a positive real. -/
theorem rsqrt_pos {x : EReal} (hx : IsReal x) (h0 : 0 < x) :
    ∃ s : ℝ, 0 < s ∧ Ideal.rsqrt x = (s : EReal) := by
  obtain ⟨r, rfl⟩ := hx
  have hr : 0 < r := EReal.coe_pos.mp h0
  exact ⟨(Real.sqrt r)⁻¹, (rsqrt_coe_pos hr).2, (rsqrt_coe_pos hr).1⟩

/-- The reciprocal square root of a positive real is real. -/
protected theorem rsqrt {x : EReal} (hx : IsReal x) (h0 : 0 < x) : IsReal (Ideal.rsqrt x) := by
  obtain ⟨s, _, hs⟩ := rsqrt_pos hx h0
  exact ⟨s, hs⟩

/-- A real `≥ 0` plus a real `> 0` is a real `> 0` (a variance plus its `ε`). -/
theorem add_pos_of_nonneg_of_pos {v e : ℝ} (hv : 0 ≤ v) (he : 0 < e) :
    ∃ r : ℝ, 0 < r ∧ (v : EReal) + (e : EReal) = (r : EReal) :=
  ⟨v + e, by positivity, (EReal.coe_add v e).symm⟩

/-- The hyperbolic tangent of a real is real. -/
protected theorem tanh {x : EReal} (hx : IsReal x) : IsReal (Ideal.tanh x) := by
  obtain ⟨r, rfl⟩ := hx; exact ⟨Real.tanh r, Ideal.tanh_coe r⟩

/-- The exponential of a real is real (and positive). -/
protected theorem exp {x : EReal} (hx : IsReal x) : IsReal (Ideal.exp x) := by
  obtain ⟨r, rfl⟩ := hx; exact ⟨Real.exp r, Ideal.exp_coe r⟩

/-- The logistic function of a real is real. -/
protected theorem logistic {x : EReal} (hx : IsReal x) : IsReal (Ideal.logistic x) := by
  obtain ⟨r, rfl⟩ := hx; exact ⟨(1 + Real.exp (-r))⁻¹, Ideal.logistic_coe r⟩

end IsReal

end LibRealSums
-- ==== Proof.Online.lean ====
/-
  The running (tile by tile) form of one row of softmax attention.

  For one query row and one output column the kernel keeps a triple (running maximum M, running sum L, accumulator A)
  and, for each tile of 512 keys with scores s and values v, replaces it by
      M' = max M (max_j s_j),   L' = exp(M − M')·L + ∑_j exp(s_j − M'),   A' = exp(M − M')·A + ∑_j exp(s_j − M')·v_j,
  starting from (−∞, 0, 0). After the tiles 0 … qi of a row of query tile qi, A / L is the attention value of the row.
-/
import proofs.«160108_j10788957848091_2_alg».proof.Proof.Attn
import proofs.«160108_j10788957848091_2_alg».proof.Proof.LibRealSums

noncomputable section

open scoped BigOperators
open Idealize.ShloMosaic

namespace Cert.Online

open Cert.Attn

/-- The triple (running maximum, running sum, accumulator). -/
abbrev Triple : Type := EReal × EReal × EReal

/-- One key tile's update, from the tile's scores `s` and values `v`. -/
def step (s v : Fin 512 → EReal) (st : Triple) : Triple :=
  (max st.1 (Finset.univ.sup s),
   Ideal.exp (st.1 - max st.1 (Finset.univ.sup s)) * st.2.1 + ∑ j, Ideal.exp (s j - max st.1 (Finset.univ.sup s)),
   Ideal.exp (st.1 - max st.1 (Finset.univ.sup s)) * st.2.2 + ∑ j, Ideal.exp (s j - max st.1 (Finset.univ.sup s)) * v j)

/-- The triple after the first `n` tiles. -/
def run (s v : ℕ → Fin 512 → EReal) : ℕ → Triple
  | 0 => (⊥, 0, 0)
  | n + 1 => step (s n) (v n) (run s v n)

/-- The key row at position `j` of key tile `T` (tiles are counted modulo 4; only T < 4 occurs). -/
def keyIdx (T : ℕ) (j : Fin 512) : Fin 2048 := ⟨T % 4 * 512 + j.val, by omega⟩

/-- Row `r` of query tile `qi`. -/
def rowIdx (qi : Fin 4) (r : Fin 512) : Fin 2048 := ⟨qi.val * 512 + r.val, by omega⟩

end Cert.Online

end
-- ==== Proof.RefSide1.lean ====
/-
  The mathematics of the reference side, over abstract data.

  1. The float literals the reference evaluates: the pattern of -∞ is ⊥, the pattern of 1024 is the real 1024,
     and 1 / √1024 is the scale 1/32.
  2. The causal mask: for row and column numbers below 2048 the signed comparison "row + 0 ≥ column" of their
     32-bit words answers 1 exactly when column ≤ row (nothing wraps below 2³¹).
  3. The maximum against -∞ of a fold of maxima started at -∞ is the supremum of the family.
  4. For real projections every unmasked score is real, the row maximum is real (the diagonal entry is
     unmasked), every weight exp(score − maximum) is a real ≥ 0 (a masked one is exp ⊥ = 0) and the sum of a
     row's weights is a real > 0 (the diagonal weight is > 0).
  5. The law joining the two arrangements: ∑ (w_j / L)·v_j = (∑ w_j·v_j) / L for real w, v and real L ≠ 0.
-/
import Mathlib
import Idealize.ShloMosaic.PureOps.Ideal
import Idealize.ShloMosaic.PureOps.Ideal.Laws
import Idealize.ShloMosaic.Lib.Affine
import Idealize.ShloMosaic.Lib.ValueIdx
import proofs.«160108_j10788957848091_2_alg».proof.Proof.LibRealSums
import proofs.«160108_j10788957848091_2_alg».proof.Proof.Attn

noncomputable section

open scoped BigOperators
open Idealize.ShloMosaic LibRealSums

namespace Cert.ReferenceIdeal.RefValue

/-! ## 1. Literals -/

/-- The pattern 0xFF800000 (sign set, exponent all ones, significand zero) denotes -∞. -/
theorem ofBits_neg_inf : Ideal.ofBits .f32 0xFF800000#32 = (⊥ : EReal) := by
  simp [Ideal.ofBits, Ideal.ieee]

/-- The pattern 0x44800000 denotes 2¹⁰ = 1024. -/
theorem ofBits_1024 : Ideal.ofBits .f32 0x44800000#32 = ((1024 : ℝ) : EReal) := by
  simp [Ideal.ofBits, Ideal.ieee, -EReal.coe_mul]; norm_num

/-- The pattern 0x3F800000 denotes 1. -/
theorem ofBits_one : Ideal.ofBits .f32 0x3F800000#32 = (1 : EReal) := by
  rw [show (1 : EReal) = ((1 : ℝ) : EReal) by norm_cast]
  simp [Ideal.ofBits, Ideal.ieee, -EReal.coe_mul]; norm_num

/-- √1024 = 32. -/
theorem sqrt_1024 : Real.sqrt 1024 = 32 := by
  rw [show (1024 : ℝ) = 32 ^ 2 by norm_num]
  exact Real.sqrt_sq (by norm_num)

/-- The scale: 1 / √1024 computed on the two literals is 1/32. -/
theorem scale_eq :
    Ideal.div (Ideal.ofBits .f32 0x3F800000#32) (Ideal.sqrt (Ideal.ofBits .f32 0x44800000#32)) = Cert.Attn.γ := by
  rw [ofBits_one, ofBits_1024, Ideal.sqrt_coe, if_neg (by norm_num), sqrt_1024,
    Ideal.div_coe (by norm_num : (32 : ℝ) ≠ 0), one_mul]
  rfl

/-! ## 2. The causal mask -/

/-- A number below 2048, as a 32-bit word read signed, is itself. -/
theorem toInt_ofNat_of_lt (n : Nat) (h : n < 2048) : (BitVec.ofNat 32 n).toInt = (n : Int) := by
  rw [BitVec.toInt_eq_toNat_of_lt]
  · simp [BitVec.toNat_ofNat]; omega
  · simp [BitVec.toNat_ofNat]; omega

/-- The mask word at row i and column j — the signed comparison (i + 0) ≥ j of the two words — is 1
    exactly when j ≤ i. -/
theorem mask_word (i j : Fin 2048) :
    IntOp.cmpi .sge (IntOp.addi (BitVec.ofNat 32 i.val) 0#32) (BitVec.ofNat 32 j.val) = 1#1 ↔ j.val ≤ i.val := by
  rw [IntOp.cmpi_sge, IntOp.addi_eq_add]
  show (BitVec.ofNat 32 j.val).toInt ≤ (BitVec.ofNat 32 i.val + 0#32).toInt ↔ _
  rw [BitVec.add_zero, toInt_ofNat_of_lt _ i.isLt, toInt_ofNat_of_lt _ j.isLt]
  exact Int.ofNat_le

/-- Selecting by the mask (itself the selection of true / false by the comparison word): the first value
    when j ≤ i, the second otherwise. -/
theorem mask_select {α : Type} (i j : Fin 2048) (a b : α) :
    Scalar.select (Scalar.select (IntOp.cmpi .sge (IntOp.addi (BitVec.ofNat 32 i.val) 0#32) (BitVec.ofNat 32 j.val))
        (1#1 : BitVec 1) (0#1 : BitVec 1)) a b
      = if j.val ≤ i.val then a else b := by
  by_cases h : j.val ≤ i.val
  · rw [(mask_word i j).2 h, ValueIdx.select_one, ValueIdx.select_one, if_pos h]
  · rw [ValueIdx.eq_zero_of_ne_one (fun e => h ((mask_word i j).1 e)), ValueIdx.select_zero, ValueIdx.select_zero,
      if_neg h]

/-! ## 3. A fold of maxima is the supremum -/

/-- The fold of the maximum from ⊥ over a finite set is the supremum of the family over it. -/
theorem fold_max_eq_sup {ι : Type*} (s : Finset ι) (f : ι → EReal) :
    s.fold (FloatOps.maximumf (F := Ideal) (φ := .f32)) (⊥ : EReal) f = s.sup f := by
  classical
  induction s using Finset.induction_on with
  | empty => rfl
  | insert a s ha ih => rw [Finset.fold_insert ha, Finset.sup_insert, ih]; rfl

/-- The same, under one more maximum against ⊥. -/
theorem max_bot_fold_max {ι : Type*} [Fintype ι] (f : ι → EReal) :
    max (⊥ : EReal) (Finset.univ.fold (FloatOps.maximumf (F := Ideal) (φ := .f32)) (⊥ : EReal) f)
      = Finset.univ.sup f := by
  rw [fold_max_eq_sup, max_eq_right bot_le]

/-! ## 4. Every intermediate value is real -/

open Cert.Attn

section Real
variable (q k v : Act)
variable (hq : ∀ b t d, IsReal (q b t d)) (hk : ∀ b t d, IsReal (k b t d))

/-- A projection of real activations by a real matrix is real. -/
theorem proj_real (x : Act) (w : Mat) (hx : ∀ b t d, IsReal (x b t d)) (hw : ∀ a d, IsReal (w a d))
    (b : Fin 4) (t : Fin 2048) (d : Fin 1024) : IsReal (proj x w b t d) :=
  IsReal.sum_univ _ fun a => (hx b t a).mul (hw a d)

include hq hk in
/-- An unmasked score is real. -/
theorem score_real (b : Fin 4) (i j : Fin 2048) (h : j.val ≤ i.val) : IsReal (score q k b i j) := by
  rw [score, if_pos h]
  exact (IsReal.sum_univ _ fun d => (hq b i d).mul (hk b j d)).mul (IsReal.coe _)

/-- A masked score is -∞. -/
theorem score_masked (b : Fin 4) (i j : Fin 2048) (h : ¬ j.val ≤ i.val) : score q k b i j = ⊥ := by
  rw [score, if_neg h]

include hq hk in
/-- No score is +∞. -/
theorem score_lt_top (b : Fin 4) (i j : Fin 2048) : score q k b i j < ⊤ := by
  by_cases h : j.val ≤ i.val
  · exact lt_top_iff_ne_top.2 (score_real q k hq hk b i j h).ne_top
  · rw [score_masked q k b i j h]; exact bot_lt_top

include hq hk in
/-- The row maximum is real: it is at least the (real) diagonal score, and below +∞ as every score is. -/
theorem rowMax_real (b : Fin 4) (i : Fin 2048) : IsReal (rowMax q k b i) := by
  rw [IsReal.iff_ne]
  constructor
  · intro e
    have hle : score q k b i i ≤ rowMax q k b i := Finset.le_sup (f := score q k b i) (Finset.mem_univ i)
    rw [e, le_bot_iff] at hle
    exact (score_real q k hq hk b i i le_rfl).ne_bot hle
  · have : rowMax q k b i < ⊤ :=
      (Finset.sup_lt_iff (f := score q k b i) bot_lt_top).2 fun j _ => score_lt_top q k hq hk b i j
    exact this.ne

include hq hk in
/-- Every weight is a real ≥ 0, and > 0 where the score is unmasked. -/
theorem wgt_real (b : Fin 4) (i j : Fin 2048) :
    ∃ w : ℝ, 0 ≤ w ∧ (j.val ≤ i.val → 0 < w) ∧ wgt q k b i j = (w : EReal) := by
  obtain ⟨m, hm⟩ := rowMax_real q k hq hk b i
  by_cases h : j.val ≤ i.val
  · obtain ⟨s, hs⟩ := score_real q k hq hk b i j h
    refine ⟨Real.exp (s - m), (Real.exp_pos _).le, fun _ => Real.exp_pos _, ?_⟩
    rw [wgt, hs, hm, ← EReal.coe_sub, Ideal.exp_coe]
  · refine ⟨0, le_rfl, fun h' => absurd h' h, ?_⟩
    rw [wgt, score_masked q k b i j h, hm, EReal.bot_sub, Ideal.exp_bot, EReal.coe_zero]

end Real

/-! ## 5. Normalizing the weights first or the weighted sum afterwards -/

/-- In the reals: ∑ (w_j / L)·v_j = (∑ w_j·v_j) / L. -/
theorem real_sum_div_mul {ι : Type*} [Fintype ι] (w v : ι → ℝ) (L : ℝ) :
    ∑ j, w j / L * v j = (∑ j, w j * v j) / L := by
  rw [Finset.sum_div]
  exact Finset.sum_congr rfl fun j _ => div_mul_eq_mul_div _ _ _

/-- In the extended reals, for real weights, real values and a real nonzero total. -/
theorem sum_div_mul {ι : Type*} [Fintype ι] (w v : ι → ℝ) {L : ℝ} (hL : L ≠ 0) :
    ∑ j, Ideal.div (w j : EReal) (L : EReal) * (v j : EReal)
      = Ideal.div (∑ j, (w j : EReal) * (v j : EReal)) (L : EReal) := by
  simp only [div_coe_coe _ hL, ← EReal.coe_mul, ← coe_sum_univ]
  rw [real_sum_div_mul]

/-- The reference's arrangement — each weight divided by the row's total, then the weighted sum of the value
    rows — is attention as specified, when the three projections are real. -/
theorem normalized_sum_eq_attn (q k v : Act) (hq : ∀ b t d, IsReal (q b t d)) (hk : ∀ b t d, IsReal (k b t d))
    (hv : ∀ b t d, IsReal (v b t d)) (b : Fin 4) (i : Fin 2048) (d : Fin 1024) :
    ∑ j : Fin 2048, Ideal.div (wgt q k b i j) (∑ j' : Fin 2048, wgt q k b i j') * v b j d = attn q k v b i d := by
  choose w hw0 hwpos hw using fun j => wgt_real q k hq hk b i j
  choose u hu using fun j => hv b j d
  have hL : (∑ j, w j) ≠ 0 :=
    (Finset.sum_pos' (fun j _ => hw0 j) ⟨i, Finset.mem_univ i, hwpos i le_rfl⟩).ne'
  unfold attn
  simp only [hw, hu]
  rw [← coe_sum_univ]
  exact sum_div_mul w u hL

end Cert.ReferenceIdeal.RefValue

end
-- ==== Proof.IdealPayScore.lean ====
/-
  The attention body's layout operations, constants and causal mask read at an index, and with them the tile's masked
  scaled scores: entry (r, j) is the scaled inner product of query row r and key row j when the key's position is not
  after the query's, else -∞.
-/
import proofs.«160108_j10788957848091_2_alg».proof.Proof.IdealPayMat
import proofs.«160108_j10788957848091_2_alg».proof.Proof.IdealR1
import proofs.«160108_j10788957848091_2_alg».proof.Proof.Online
import proofs.«160108_j10788957848091_2_alg».proof.Proof.RefSide1
import Idealize.ShloMosaic.Lib.Affine

noncomputable section

open scoped BigOperators

namespace Cert.KernelIdeal.Pay

open Idealize.ShloMosaic Idealize.ShloMosaic.ValueIdx Cert.KernelIdeal Cert.KernelIdeal.Gen Cert.KernelIdeal.Hand

/-! ## Layout operations of the body read at an index -/

/-- A 512×512 array viewed 1×512×512 reads (0, r, j) at (r, j). -/
theorem lead_unit {α : Type} (v : S512x512.Idx → α) (h : S512x512.ShapeCasts S1x512x512) (r j : Fin 512) :
    shapeCast S1x512x512 v h (ix3 (0 : Fin 1) r j) = v (ix2 r j) :=
  shapeCast_ab_1ab_apply v h 0 r j

/-- A 1×512 array viewed 1×512×1 reads (0, r, 0) at (0, r). -/
theorem trail_unit {α : Type} (v : S1x512.Idx → α) (h : S1x512.ShapeCasts S1x512x1) (r : Fin 512) :
    shapeCast S1x512x1 v h (ix3 (0 : Fin 1) r (0 : Fin 1)) = v (ix2 (0 : Fin 1) r) :=
  shapeCast_apply v h _ _ (by
    rw [Shape.rowMajor_val_three, Shape.rowMajor_val_two]
    show 0 * 512 + r.val = (0 * 512 + r.val) * 1 + 0
    omega)

/-- A 1×512×1 column broadcast along the keys reads (0, r, j) at (0, r, 0). -/
theorem bcast_keys {α : Type} (v : S1x512x1.Idx → α) (h : S1x512x1.Broadcasts S1x512x512) (r j : Fin 512) :
    broadcastTo S1x512x512 v h (ix3 (0 : Fin 1) r j) = v (ix3 (0 : Fin 1) r (0 : Fin 1)) :=
  broadcastTo_apply v h _ _ (fun a => by
    match a with
    | ⟨0, _⟩ => rfl
    | ⟨1, _⟩ => rfl
    | ⟨2, _⟩ => rfl)

/-- A 1×512×1 column broadcast along the model coordinates reads (0, r, d) at (0, r, 0). -/
theorem bcast_cols {α : Type} (v : S1x512x1.Idx → α) (h : S1x512x1.Broadcasts S1x512x1024) (r : Fin 512) (d : Fin 1024) :
    broadcastTo S1x512x1024 v h (ix3 (0 : Fin 1) r d) = v (ix3 (0 : Fin 1) r (0 : Fin 1)) :=
  broadcastTo_apply v h _ _ (fun a => by
    match a with
    | ⟨0, _⟩ => rfl
    | ⟨1, _⟩ => rfl
    | ⟨2, _⟩ => rfl)

/-- The maximum over the keys of a 1×512×512 array, kept as a column, at row r: the supremum of the row. -/
theorem row_max (s : FVec Ideal S1x512x512 .f32) (hφ : FKind.Formats .f32)
    (hacc : (0xFF800000#32 : BitVec 32) = FKind.maximumf.neutral .f32 hφ) (h : S1x512.ShapeCasts S1x512x1) (r : Fin 512) :
    shapeCast S1x512x1 (multiReduction .maximumf [2] S1x512 s 0xFF800000#32 reduces_S1x512x512_S1x512 hφ hacc) h (ix3 (0 : Fin 1) r (0 : Fin 1))
      = Finset.univ.sup fun j : Fin 512 => s (ix3 (0 : Fin 1) r j) := by
  rw [trail_unit]
  refine (Ideal.multiReduction_maximumf_single s 0xFF800000#32 reduces_S1x512x512_S1x512 hφ hacc (ix2 (0 : Fin 1) r)).trans ?_
  show (Finset.univ : Finset (Fin 512)).fold max (Ideal.ofBits .f32 0xFF800000#32) (s ∘ reduces_S1x512x512_S1x512.lift (ix2 (0 : Fin 1) r)) = _
  rw [Cert.ReferenceIdeal.RefValue.ofBits_neg_inf]
  refine (Cert.ReferenceIdeal.RefValue.fold_max_eq_sup Finset.univ _).trans ?_
  refine Finset.sup_congr rfl fun j _ => congrArg s (funext fun a => Fin.ext ?_)
  match a with
  | ⟨0, _⟩ => rfl
  | ⟨1, _⟩ => rfl
  | ⟨2, _⟩ => rfl

/-- The sum over the keys of a 1×512×512 array, kept as a column, at row r. -/
theorem row_sum (s : FVec Ideal S1x512x512 .f32) (hφ : FKind.Formats .f32)
    (hacc : (0x00000000#32 : BitVec 32) = FKind.add.neutral .f32 hφ) (h : S1x512.ShapeCasts S1x512x1) (r : Fin 512) :
    shapeCast S1x512x1 (multiReduction .add [2] S1x512 s 0x00000000#32 reduces_S1x512x512_S1x512 hφ hacc) h (ix3 (0 : Fin 1) r (0 : Fin 1))
      = ∑ j : Fin 512, s (ix3 (0 : Fin 1) r j) := by
  rw [trail_unit]
  refine (Ideal.multiReduction_add_single s 0x00000000#32 reduces_S1x512x512_S1x512 hφ hacc (ix2 (0 : Fin 1) r)).trans ?_
  refine Finset.sum_congr rfl fun j _ => congrArg s (funext fun a => Fin.ext ?_)
  match a with
  | ⟨0, _⟩ => rfl
  | ⟨1, _⟩ => rfl
  | ⟨2, _⟩ => rfl

/-! ## The constants -/

/-- The pattern 0x3D000000 denotes 2⁻⁵ = 1/32. -/
theorem ofBits_scale : Ideal.ofBits .f32 0x3D000000#32 = Cert.Attn.γ := by
  unfold Cert.Attn.γ
  simp [Ideal.ofBits, Ideal.ieee, -EReal.coe_mul]; norm_num

/-- The kernel's named stand-in for -∞ is -∞. -/
theorem neg_big_eq : Named.named (F := Ideal) κ "neg_big" (φ := .f32) 0xFF333332#32 = (⊥ : EReal) :=
  IdealRules.named_const.ideal_named_scalar _ _ _ _ rfl

/-! ## The causal mask of a tile pair -/

theorem toInt_lt (n : Nat) (h : n < 4096) : (BitVec.ofNat 32 n).toInt = (n : Int) := by
  rw [BitVec.toInt_eq_toNat_of_lt]
  · simp [BitVec.toNat_ofNat]; omega
  · simp [BitVec.toNat_ofNat]; omega

/-- The mask word at (r, j) of tile pair (qi, ki): the signed comparison of the key position ki·512 + j with the
    query position qi·512 + r, on 32-bit words (no wrap: both are below 2048). -/
theorem mask_word (qi ki : Nat) (hq : qi < 4) (hk : ki < 4) (r j : Fin 512) :
    IntOp.cmpi .sle (IntOp.addi (BitVec.ofNat 32 j.val) (Scalar.muli (BitVec.ofNat 32 ki) 512#32))
        (IntOp.addi (BitVec.ofNat 32 r.val) (Scalar.muli (BitVec.ofNat 32 qi) 512#32)) = 1#1
      ↔ ki * 512 + j.val ≤ qi * 512 + r.val := by
  have e1 : IntOp.addi (BitVec.ofNat 32 j.val) (Scalar.muli (BitVec.ofNat 32 ki) 512#32) = BitVec.ofNat 32 (j.val + ki * 512) := by
    show BitVec.ofNat 32 j.val + BitVec.ofNat 32 ki * BitVec.ofNat 32 512 = _
    rw [← BitVec.ofNat_mul, ← BitVec.ofNat_add]
  have e2 : IntOp.addi (BitVec.ofNat 32 r.val) (Scalar.muli (BitVec.ofNat 32 qi) 512#32) = BitVec.ofNat 32 (r.val + qi * 512) := by
    show BitVec.ofNat 32 r.val + BitVec.ofNat 32 qi * BitVec.ofNat 32 512 = _
    rw [← BitVec.ofNat_mul, ← BitVec.ofNat_add]
  have hr := r.isLt
  have hj := j.isLt
  rw [IntOp.cmpi_sle, e1, e2, toInt_lt _ (by omega), toInt_lt _ (by omega)]
  omega

/-! ## The tile's masked scaled scores -/

/-- The masked scaled score of row `r` of the query block against row `j` of the key block, at query tile `qi` and key
    tile `ki`: the scaled inner product when the key's position `ki·512 + j` is not after the query's `qi·512 + r`,
    else -∞. -/
def tileScore (qi ki : ℕ) (x0 x1 : Vec Ideal S1x512x1024 .bf16) (r j : Fin 512) : EReal :=
  if ki * 512 + j.val ≤ qi * 512 + r.val then (∑ d : Fin 1024, x0 (ix3 (0 : Fin 1) r d) * x1 (ix3 (0 : Fin 1) j d)) * Cert.Attn.γ else ⊥

/-- The body's masked scaled scores at (r, j). -/
theorem pay9_read (i : grid1.Coords) (x0 x1 : Vec Ideal S1x512x1024 .bf16) (r j : Fin 512) :
    k1_pay9 (F := Ideal) (BitVec.ofNat 32 (i 1).val) (BitVec.ofNat 32 (i 2).val) x0 x1 (ix3 (0 : Fin 1) r j)
      = tileScore (i 1).val (i 2).val x0 x1 r j := by
  have hq : (i 1).val < 4 := (i 1).isLt
  have hk : (i 2).val < 4 := (i 2).isLt
  unfold k1_pay9 tileScore
  simp only [select_apply, broadcast_apply, mulf_apply, shapeCast_self, lead_unit]
  rw [qk_apply]
  have hmask : cmpi .sle (addi (iota .tc S512x512 32 [1] iota_S512x512_d1_w32) (broadcast S512x512 (Scalar.muli (BitVec.ofNat 32 (i 2).val) 512#32)))
        (addi (iota .tc S512x512 32 [0] iota_S512x512_d0_w32) (broadcast S512x512 (Scalar.muli (BitVec.ofNat 32 (i 1).val) 512#32))) (ix2 r j)
      = IntOp.cmpi .sle (IntOp.addi (BitVec.ofNat 32 j.val) (Scalar.muli (BitVec.ofNat 32 (i 2).val) 512#32))
          (IntOp.addi (BitVec.ofNat 32 r.val) (Scalar.muli (BitVec.ofNat 32 (i 1).val) 512#32)) := by
    show IntOp.cmpi .sle (IntOp.addi (iota .tc S512x512 32 [1] iota_S512x512_d1_w32 (ix2 r j)) _)
        (IntOp.addi (iota .tc S512x512 32 [0] iota_S512x512_d0_w32 (ix2 r j)) _) = _
    rw [iota_single_apply, iota_single_apply]; rfl
  rw [hmask]
  by_cases h : (i 2).val * 512 + j.val ≤ (i 1).val * 512 + r.val
  · rw [(mask_word _ _ hq hk r j).2 h, select_one, if_pos h]
    exact congrArg (_ * ·) ofBits_scale
  · rw [eq_zero_of_ne_one (fun e => h ((mask_word _ _ hq hk r j).1 e)), select_zero, if_neg h]
    exact neg_big_eq

end Cert.KernelIdeal.Pay

end
-- ==== Proof.IdealPayStep.lean ====
/-
  One key tile's update of the attention body read at a row (and column): it is the textbook update of the running
  (maximum, sum, accumulator) triple on that row's masked scaled scores against the tile's keys and the tile's values.
-/
import proofs.«160108_j10788957848091_2_alg».proof.Proof.IdealPayScore

noncomputable section

open scoped BigOperators

namespace Cert.KernelIdeal.Pay

open Idealize.ShloMosaic Idealize.ShloMosaic.ValueIdx Cert.KernelIdeal Cert.KernelIdeal.Gen Cert.KernelIdeal.Hand

/-- The new running maximum at row r. -/
theorem pay10_read (i : grid1.Coords) (x0 x1 : Vec Ideal S1x512x1024 .bf16) (m : Vec Ideal S1x512x1 .f32) (r : Fin 512) :
    k1_pay10 (F := Ideal) (BitVec.ofNat 32 (i 1).val) (BitVec.ofNat 32 (i 2).val) x0 x1 m (ix3 (0 : Fin 1) r (0 : Fin 1))
      = max (m (ix3 (0 : Fin 1) r (0 : Fin 1))) (Finset.univ.sup (tileScore (i 1).val (i 2).val x0 x1 r)) := by
  unfold k1_pay10
  simp only [maximumf_apply]
  refine congrArg (max _) ((row_max _ _ _ _ r).trans ?_)
  exact Finset.sup_congr rfl fun j _ => pay9_read i x0 x1 r j

/-- The weights exp(score − new maximum) at (r, j). -/
theorem pay12_read (i : grid1.Coords) (x0 x1 : Vec Ideal S1x512x1024 .bf16) (m : Vec Ideal S1x512x1 .f32) (r j : Fin 512) :
    k1_pay12 (F := Ideal) (BitVec.ofNat 32 (i 1).val) (BitVec.ofNat 32 (i 2).val) x0 x1 m (ix3 (0 : Fin 1) r j)
      = Ideal.exp (tileScore (i 1).val (i 2).val x0 x1 r j
          - max (m (ix3 (0 : Fin 1) r (0 : Fin 1))) (Finset.univ.sup (tileScore (i 1).val (i 2).val x0 x1 r))) := by
  unfold k1_pay12
  show Ideal.exp (k1_pay9 _ _ x0 x1 (ix3 (0 : Fin 1) r j) - broadcastTo S1x512x512 (k1_pay10 _ _ x0 x1 m) _ (ix3 (0 : Fin 1) r j)) = _
  rw [bcast_keys, pay9_read, pay10_read]

/-- The rescaling factor exp(old maximum − new maximum) at row r. -/
theorem pay11_read (i : grid1.Coords) (x0 x1 : Vec Ideal S1x512x1024 .bf16) (m m' : Vec Ideal S1x512x1 .f32) (r : Fin 512) :
    k1_pay11 (F := Ideal) (BitVec.ofNat 32 (i 1).val) (BitVec.ofNat 32 (i 2).val) x0 x1 m m' (ix3 (0 : Fin 1) r (0 : Fin 1))
      = Ideal.exp (m' (ix3 (0 : Fin 1) r (0 : Fin 1))
          - max (m (ix3 (0 : Fin 1) r (0 : Fin 1))) (Finset.univ.sup (tileScore (i 1).val (i 2).val x0 x1 r))) := by
  unfold k1_pay11
  show Ideal.exp (m' (ix3 (0 : Fin 1) r (0 : Fin 1)) - k1_pay10 _ _ x0 x1 m (ix3 (0 : Fin 1) r (0 : Fin 1))) = _
  rw [pay10_read]

/-- The row sums of the weights at row r. -/
theorem pay14_read (i : grid1.Coords) (x0 x1 : Vec Ideal S1x512x1024 .bf16) (m : Vec Ideal S1x512x1 .f32) (r : Fin 512) :
    k1_pay14 (F := Ideal) (BitVec.ofNat 32 (i 1).val) (BitVec.ofNat 32 (i 2).val) x0 x1 m (ix3 (0 : Fin 1) r (0 : Fin 1))
      = ∑ j : Fin 512, Ideal.exp (tileScore (i 1).val (i 2).val x0 x1 r j
          - max (m (ix3 (0 : Fin 1) r (0 : Fin 1))) (Finset.univ.sup (tileScore (i 1).val (i 2).val x0 x1 r))) := by
  unfold k1_pay14
  refine (row_sum _ _ _ _ r).trans ?_
  exact Finset.sum_congr rfl fun j _ => pay12_read i x0 x1 m r j

/-! ## The statistics' start, one step, and the output -/

/-- The statistics a query tile starts from, at a row: (-∞, 0, 0). -/
theorem init_read (r : Fin 512) (d : Fin 1024) :
    (initM (F := Ideal) (ix3 (0 : Fin 1) r (0 : Fin 1)), initL (F := Ideal) (ix3 (0 : Fin 1) r (0 : Fin 1)), initA (F := Ideal) (ix3 (0 : Fin 1) r d))
      = ((⊥ : EReal), (0 : EReal), (0 : EReal)) := by
  unfold initM initL initA k1_pay1 k1_pay2 k1_pay3
  simp only [shapeCast_self, broadcast_apply]
  show (Ideal.ofBits .f32 0xFF800000#32, Ideal.ofBits .f32 0x00000000#32, Ideal.ofBits .f32 0x00000000#32) = _
  rw [Cert.ReferenceIdeal.RefValue.ofBits_neg_inf, Ideal.ofBits_zero_f32]

/-- One step of the body at grid coordinates `i` (query tile `i 1`, key tile `i 2`), read at row `r` and column `d`. -/
theorem step_read (i : grid1.Coords) (x0 x1 x2 : Vec Ideal S1x512x1024 .bf16) (m l : Vec Ideal S1x512x1 .f32) (a : Vec Ideal S1x512x1024 .f32)
    (r : Fin 512) (d : Fin 1024) :
    (stepM (F := Ideal) i x0 x1 m (ix3 (0 : Fin 1) r (0 : Fin 1)), stepL (F := Ideal) i x0 x1 m l (ix3 (0 : Fin 1) r (0 : Fin 1)),
        stepA (F := Ideal) i x0 x1 x2 m a (ix3 (0 : Fin 1) r d))
      = Cert.Online.step (tileScore (i 1).val (i 2).val x0 x1 r) (fun j => x2 (ix3 (0 : Fin 1) j d))
          (m (ix3 (0 : Fin 1) r (0 : Fin 1)), l (ix3 (0 : Fin 1) r (0 : Fin 1)), a (ix3 (0 : Fin 1) r d)) := by
  have hM : stepM (F := Ideal) i x0 x1 m (ix3 (0 : Fin 1) r (0 : Fin 1))
      = max (m (ix3 (0 : Fin 1) r (0 : Fin 1))) (Finset.univ.sup (tileScore (i 1).val (i 2).val x0 x1 r)) := by
    unfold stepM k1_pay6
    simp only [shapeCast_self]
    exact pay10_read i x0 x1 m r
  have hL : stepL (F := Ideal) i x0 x1 m l (ix3 (0 : Fin 1) r (0 : Fin 1))
      = Ideal.exp (m (ix3 (0 : Fin 1) r (0 : Fin 1)) - max (m (ix3 (0 : Fin 1) r (0 : Fin 1))) (Finset.univ.sup (tileScore (i 1).val (i 2).val x0 x1 r)))
          * l (ix3 (0 : Fin 1) r (0 : Fin 1))
        + ∑ j : Fin 512, Ideal.exp (tileScore (i 1).val (i 2).val x0 x1 r j
            - max (m (ix3 (0 : Fin 1) r (0 : Fin 1))) (Finset.univ.sup (tileScore (i 1).val (i 2).val x0 x1 r))) := by
    unfold stepL k1_pay4 k1_pay13
    simp only [shapeCast_self, addf_apply, mulf_apply]
    rw [pay11_read, pay14_read]
  have hA : stepA (F := Ideal) i x0 x1 x2 m a (ix3 (0 : Fin 1) r d)
      = Ideal.exp (m (ix3 (0 : Fin 1) r (0 : Fin 1)) - max (m (ix3 (0 : Fin 1) r (0 : Fin 1))) (Finset.univ.sup (tileScore (i 1).val (i 2).val x0 x1 r)))
          * a (ix3 (0 : Fin 1) r d)
        + ∑ j : Fin 512, Ideal.exp (tileScore (i 1).val (i 2).val x0 x1 r j
            - max (m (ix3 (0 : Fin 1) r (0 : Fin 1))) (Finset.univ.sup (tileScore (i 1).val (i 2).val x0 x1 r))) * x2 (ix3 (0 : Fin 1) j d) := by
    unfold stepA k1_pay5 k1_pay8
    simp only [shapeCast_self, addf_apply, mulf_apply, bcast_cols]
    rw [pv_apply, pay11_read]
    refine congrArg (_ + ·) (Finset.sum_congr rfl fun j _ => ?_)
    rw [truncf_apply, pay12_read]
  rw [hM, hL, hA]
  rfl

/-- The output block at a row and column: the accumulator over the sum. -/
theorem fin_read (a : Vec Ideal S1x512x1024 .f32) (l : Vec Ideal S1x512x1 .f32) (r : Fin 512) (d : Fin 1024) :
    finO (F := Ideal) a l (ix3 (0 : Fin 1) r d) = Ideal.div (a (ix3 (0 : Fin 1) r d)) (l (ix3 (0 : Fin 1) r (0 : Fin 1))) := by
  unfold finO k1_pay7
  simp only [divf_apply, bcast_cols]

end Cert.KernelIdeal.Pay

end
-- ==== Proof.OnlineAttn.lean ====
/-
  The running form of a row of softmax attention computes attention.

  Write s_j for the row's scores (each a real number, or -∞ where masked) and m for a real number. The weight of
  s_j against m is the real number exp(s_j − m), and 0 for s_j = -∞. Replacing m by m' multiplies every weight by
  exp(m − m'). Hence after n ≥ 1 tiles the triple is (M, ∑ exp(s_j − M), ∑ exp(s_j − M)·v_j), the sums over the keys
  of the tiles seen so far and M their (real) maximum: the first tile holds key 0, which is never masked. After
  the tiles 0 … qi of a row of query tile qi every later key is masked and has weight 0, so the sums run over
  all keys and M is the row maximum.
-/
import proofs.«160108_j10788957848091_2_alg».proof.Proof.Online
import proofs.«160108_j10788957848091_2_alg».proof.Proof.Attn
import proofs.«160108_j10788957848091_2_alg».proof.Proof.LibRealSums
import proofs.«160108_j10788957848091_2_alg».proof.Proof.RefSide1

noncomputable section

open scoped BigOperators
open Idealize.ShloMosaic LibRealSums

namespace Cert.Online

open Cert.Attn Cert.ReferenceIdeal.RefValue

/-! ## 1. The weight of a score against a real maximum -/

/-- The real number exp(s − m) for a score s that is real, and 0 for s = -∞. -/
def wrel (s : EReal) (m : ℝ) : ℝ := (Ideal.exp (s - (m : EReal))).toReal

theorem wrel_bot (m : ℝ) : wrel ⊥ m = 0 := by
  rw [wrel, EReal.bot_sub, Ideal.exp_bot, EReal.toReal_zero]

theorem wrel_coe (r m : ℝ) : wrel (r : EReal) m = Real.exp (r - m) := by
  rw [wrel, ← EReal.coe_sub, Ideal.exp_coe, EReal.toReal_coe]

/-- For a score other than +∞, exp(s − m) in the extended reals is the coercion of the real weight. -/
theorem exp_sub_coe {s : EReal} (hs : s ≠ ⊤) (m : ℝ) : Ideal.exp (s - (m : EReal)) = (wrel s m : EReal) := by
  induction s using EReal.rec with
  | bot => rw [wrel_bot, EReal.bot_sub, Ideal.exp_bot, EReal.coe_zero]
  | coe r => rw [wrel_coe, ← EReal.coe_sub, Ideal.exp_coe]
  | top => exact absurd rfl hs

/-- Changing the reference maximum from m to m' multiplies every weight by exp(m − m'). -/
theorem wrel_rescale {s : EReal} (hs : s ≠ ⊤) (m m' : ℝ) : Real.exp (m - m') * wrel s m = wrel s m' := by
  induction s using EReal.rec with
  | bot => rw [wrel_bot, wrel_bot, mul_zero]
  | coe r => rw [wrel_coe, wrel_coe, ← Real.exp_add]; congr 1; ring
  | top => exact absurd rfl hs

/-- A finite supremum of values other than +∞ is not +∞. -/
theorem sup_ne_top {ι : Type*} (t : Finset ι) (f : ι → EReal) (h : ∀ j ∈ t, f j ≠ ⊤) : t.sup f ≠ ⊤ :=
  ((Finset.sup_lt_iff bot_lt_top).2 fun j hj => lt_top_iff_ne_top.2 (h j hj)).ne

/-! ## 2. One tile's update on real data -/

/-- From a real triple: the new maximum m' is real and the sum and accumulator are rescaled by exp(m − m'). -/
theorem step_next (s : Fin 512 → EReal) (u : Fin 512 → ℝ) (hs : ∀ j, s j ≠ ⊤) (m l a : ℝ) :
    ∃ m' : ℝ, (m' : EReal) = max (m : EReal) (Finset.univ.sup s) ∧
      step s (fun j => (u j : EReal)) ((m : EReal), (l : EReal), (a : EReal))
        = ((m' : EReal), ((Real.exp (m - m') * l + ∑ j, wrel (s j) m' : ℝ) : EReal),
            ((Real.exp (m - m') * a + ∑ j, wrel (s j) m' * u j : ℝ) : EReal)) := by
  have hσ : Finset.univ.sup s ≠ ⊤ := sup_ne_top _ _ fun j _ => hs j
  have hreal : IsReal (max (m : EReal) (Finset.univ.sup s)) := by
    rw [IsReal.iff_ne]
    refine ⟨fun e => ?_, (max_lt (EReal.coe_lt_top m) (lt_top_iff_ne_top.2 hσ)).ne⟩
    have hle : (m : EReal) ≤ max (m : EReal) (Finset.univ.sup s) := le_max_left _ _
    rw [e, le_bot_iff] at hle
    exact EReal.coe_ne_bot m hle
  obtain ⟨m', hm'⟩ := hreal
  refine ⟨m', hm'.symm, ?_⟩
  have he : ∀ j, Ideal.exp (s j - (m' : EReal)) = (wrel (s j) m' : EReal) := fun j => exp_sub_coe (hs j) m'
  have e1 : Ideal.exp ((m : EReal) - (m' : EReal)) = ((Real.exp (m - m') : ℝ) : EReal) := by
    rw [← EReal.coe_sub, Ideal.exp_coe]
  unfold step
  dsimp only
  rw [hm']
  simp only [e1, he, ← EReal.coe_mul, ← coe_sum_univ, ← EReal.coe_add]

/-- From the initial triple (-∞, 0, 0), when some score of the tile is not -∞. -/
theorem step_first (s : Fin 512 → EReal) (u : Fin 512 → ℝ) (hs : ∀ j, s j ≠ ⊤) (h0 : ∃ j, s j ≠ ⊥) :
    ∃ m' : ℝ, (m' : EReal) = Finset.univ.sup s ∧
      step s (fun j => (u j : EReal)) ((⊥ : EReal), (0 : EReal), (0 : EReal))
        = ((m' : EReal), ((∑ j, wrel (s j) m' : ℝ) : EReal), ((∑ j, wrel (s j) m' * u j : ℝ) : EReal)) := by
  have hσ : Finset.univ.sup s ≠ ⊤ := sup_ne_top _ _ fun j _ => hs j
  obtain ⟨j0, hj0⟩ := h0
  have hσb : Finset.univ.sup s ≠ ⊥ := by
    intro e
    have hle : s j0 ≤ Finset.univ.sup s := Finset.le_sup (Finset.mem_univ j0)
    rw [e, le_bot_iff] at hle
    exact hj0 hle
  obtain ⟨m', hm'⟩ := IsReal.iff_ne.2 ⟨hσb, hσ⟩
  refine ⟨m', hm'.symm, ?_⟩
  have he : ∀ j, Ideal.exp (s j - (m' : EReal)) = (wrel (s j) m' : EReal) := fun j => exp_sub_coe (hs j) m'
  unfold step
  dsimp only
  rw [max_eq_right bot_le, hm', EReal.bot_sub, Ideal.exp_bot, mul_zero, zero_add, zero_add]
  simp only [he, ← EReal.coe_mul, ← coe_sum_univ]

/-! ## 3. The triple after n + 1 tiles -/

/-- After n + 1 tiles of scores S (none +∞, one of tile 0 not -∞) and real values u: the maximum is a real number m,
    the supremum of the scores seen, and the sum and the accumulator are the sums of the weights against m and of
    the weights times the values, over the tiles seen. -/
theorem run_real (S : ℕ → Fin 512 → EReal) (u : ℕ → Fin 512 → ℝ) (hS : ∀ T j, S T j ≠ ⊤)
    (h0 : ∃ j, S 0 j ≠ ⊥) (n : ℕ) :
    ∃ m : ℝ, (m : EReal) = (Finset.range (n + 1)).sup (fun T => Finset.univ.sup (S T)) ∧
      run S (fun T j => (u T j : EReal)) (n + 1)
        = ((m : EReal), ((∑ T ∈ Finset.range (n + 1), ∑ j, wrel (S T j) m : ℝ) : EReal),
            ((∑ T ∈ Finset.range (n + 1), ∑ j, wrel (S T j) m * u T j : ℝ) : EReal)) := by
  induction n with
  | zero =>
    obtain ⟨m', hm', hst⟩ := step_first (S 0) (u 0) (hS 0) h0
    refine ⟨m', ?_, ?_⟩
    · rw [hm', Finset.range_one, Finset.sup_singleton]
    · show step (S 0) (fun j => (u 0 j : EReal)) ((⊥ : EReal), (0 : EReal), (0 : EReal)) = _
      rw [hst, Finset.range_one, Finset.sum_singleton, Finset.sum_singleton]
  | succ n ih =>
    obtain ⟨m, hm, hrun⟩ := ih
    obtain ⟨m', hm', hst⟩ := step_next (S (n + 1)) (u (n + 1)) (hS (n + 1)) m
      (∑ T ∈ Finset.range (n + 1), ∑ j, wrel (S T j) m) (∑ T ∈ Finset.range (n + 1), ∑ j, wrel (S T j) m * u T j)
    have eL : Real.exp (m - m') * (∑ T ∈ Finset.range (n + 1), ∑ j, wrel (S T j) m) + ∑ j, wrel (S (n + 1) j) m'
        = ∑ T ∈ Finset.range (n + 1 + 1), ∑ j, wrel (S T j) m' := by
      rw [Finset.sum_range_succ (fun T => ∑ j, wrel (S T j) m') (n + 1), Finset.mul_sum]
      congr 1
      refine Finset.sum_congr rfl fun T _ => ?_
      rw [Finset.mul_sum]
      exact Finset.sum_congr rfl fun j _ => wrel_rescale (hS T j) m m'
    have eA : Real.exp (m - m') * (∑ T ∈ Finset.range (n + 1), ∑ j, wrel (S T j) m * u T j)
          + ∑ j, wrel (S (n + 1) j) m' * u (n + 1) j
        = ∑ T ∈ Finset.range (n + 1 + 1), ∑ j, wrel (S T j) m' * u T j := by
      rw [Finset.sum_range_succ (fun T => ∑ j, wrel (S T j) m' * u T j) (n + 1), Finset.mul_sum]
      congr 1
      refine Finset.sum_congr rfl fun T _ => ?_
      rw [Finset.mul_sum]
      exact Finset.sum_congr rfl fun j _ => by rw [← mul_assoc, wrel_rescale (hS T j) m m']
    refine ⟨m', ?_, ?_⟩
    · rw [hm', hm, Finset.range_add_one (n := n + 1), Finset.sup_insert, max_comm]
    · show step (S (n + 1)) (fun j => (u (n + 1) j : EReal)) (run S (fun T j => (u T j : EReal)) (n + 1)) = _
      rw [hrun, hst, eL, eA]

/-! ## 4. Tiles of keys against a row of query tile qi -/

/-- The key at position j of tile T < 4 is number 512·T + j. -/
theorem keyIdx_val (T : ℕ) (hT : T < 4) (j : Fin 512) : (keyIdx T j).val = T * 512 + j.val := by
  simp only [keyIdx, Nat.mod_eq_of_lt hT]

/-- Row r of query tile qi is number 512·qi + r. -/
theorem rowIdx_val (qi : Fin 4) (r : Fin 512) : (rowIdx qi r).val = qi.val * 512 + r.val := rfl

/-- Every key of a tile after the query tile lies after the row: it is masked. -/
theorem later_tile_masked (qi : Fin 4) (r : Fin 512) (T : ℕ) (hT : qi.val + 1 ≤ T) (hT4 : T < 4) (j : Fin 512) :
    ¬ (keyIdx T j).val ≤ (rowIdx qi r).val := by
  rw [keyIdx_val T hT4, rowIdx_val]
  have := r.isLt
  omega

/-- A sum over the 2048 keys is the sum over the first n ≤ 4 tiles when the later tiles contribute zero. -/
theorem sum_tiles_upto {M : Type*} [AddCommMonoid M] (f : Fin 2048 → M) (n : ℕ) (hn : n ≤ 4)
    (hz : ∀ T, n ≤ T → T < 4 → ∀ j, f (keyIdx T j) = 0) :
    ∑ T ∈ Finset.range n, ∑ j : Fin 512, f (keyIdx T j) = ∑ j' : Fin 2048, f j' :=
  calc ∑ T ∈ Finset.range n, ∑ j : Fin 512, f (keyIdx T j)
      = ∑ T ∈ Finset.range 4, ∑ j : Fin 512, f (keyIdx T j) :=
        Finset.sum_subset (Finset.range_mono hn) fun T hT4 hTn =>
          Finset.sum_eq_zero fun j _ =>
            hz T (not_lt.1 fun h => hTn (Finset.mem_range.2 h)) (Finset.mem_range.1 hT4) j
    _ = ∑ t : Fin 4, ∑ j : Fin 512, f (keyIdx t.val j) := Finset.sum_range _
    _ = ∑ t : Fin 4, ∑ j : Fin 512, f ⟨t.val * 512 + j.val, by have := t.isLt; have := j.isLt; omega⟩ :=
        Finset.sum_congr rfl fun t _ => Finset.sum_congr rfl fun j _ =>
          congrArg f (Fin.ext (keyIdx_val t.val t.isLt j))
    _ = ∑ j' : Fin 2048, f j' := sum_tiles (m := 4) (n := 512) (N := 2048) (by norm_num) f

/-- The supremum of the scores over the tiles 0 … qi is the row maximum: every later key is masked. -/
theorem sup_tiles_eq_rowMax (q k : Act) (b : Fin 4) (qi : Fin 4) (r : Fin 512) :
    (Finset.range (qi.val + 1)).sup (fun T => Finset.univ.sup fun j => score q k b (rowIdx qi r) (keyIdx T j))
      = rowMax q k b (rowIdx qi r) := by
  apply le_antisymm
  · exact Finset.sup_le fun T _ => Finset.sup_le fun j _ =>
      Finset.le_sup (f := score q k b (rowIdx qi r)) (Finset.mem_univ _)
  · unfold rowMax
    refine Finset.sup_le fun j' _ => ?_
    by_cases h : j'.val ≤ (rowIdx qi r).val
    · have hT : j'.val / 512 < qi.val + 1 := by
        rw [rowIdx_val] at h; have := r.isLt; omega
      have h4 : j'.val / 512 < 4 := by have := qi.isLt; omega
      have e : j' = keyIdx (j'.val / 512) ⟨j'.val % 512, Nat.mod_lt _ (by norm_num)⟩ :=
        Fin.ext (by rw [keyIdx_val _ h4]; simp only; omega)
      exact (congrArg (score q k b (rowIdx qi r)) e).le.trans
        ((Finset.le_sup (f := fun j => score q k b (rowIdx qi r) (keyIdx (j'.val / 512) j))
            (Finset.mem_univ _)).trans
          (Finset.le_sup (f := fun T => Finset.univ.sup fun j => score q k b (rowIdx qi r) (keyIdx T j))
            (Finset.mem_range.2 hT)))
    · rw [score_masked q k b _ j' h]; exact bot_le

/-! ## 5. The running form computes attention -/

/-- After the tiles 0 … qi the accumulator divided by the running sum is the attention value of the row. -/
theorem run_eq_attn (q k v : Cert.Attn.Act)
    (hq : ∀ b t d, LibRealSums.IsReal (q b t d)) (hk : ∀ b t d, LibRealSums.IsReal (k b t d))
    (hv : ∀ b t d, LibRealSums.IsReal (v b t d))
    (b : Fin 4) (qi : Fin 4) (r : Fin 512) (d : Fin 1024) :
    Ideal.div
        (run (fun T j => Cert.Attn.score q k b (rowIdx qi r) (keyIdx T j)) (fun T j => v b (keyIdx T j) d)
          (qi.val + 1)).2.2
        (run (fun T j => Cert.Attn.score q k b (rowIdx qi r) (keyIdx T j)) (fun T j => v b (keyIdx T j) d)
          (qi.val + 1)).2.1
      = Cert.Attn.attn q k v b (rowIdx qi r) d := by
  choose u hu using fun j' : Fin 2048 => hv b j' d
  have hS : ∀ (T : ℕ) (j : Fin 512), score q k b (rowIdx qi r) (keyIdx T j) ≠ ⊤ := fun T j =>
    (score_lt_top q k hq hk b (rowIdx qi r) (keyIdx T j)).ne
  have h0 : ∃ j : Fin 512, score q k b (rowIdx qi r) (keyIdx 0 j) ≠ ⊥ :=
    ⟨⟨0, by norm_num⟩, (score_real q k hq hk b (rowIdx qi r) _ (by simp [keyIdx])).ne_bot⟩
  obtain ⟨m, hm, hrun⟩ := run_real (fun T j => score q k b (rowIdx qi r) (keyIdx T j))
    (fun T j => u (keyIdx T j)) hS h0 qi.val
  have hV : (fun (T : ℕ) (j : Fin 512) => v b (keyIdx T j) d)
      = fun (T : ℕ) (j : Fin 512) => ((u (keyIdx T j) : ℝ) : EReal) :=
    funext fun T => funext fun j => hu _
  have hmax : (m : EReal) = rowMax q k b (rowIdx qi r) := hm.trans (sup_tiles_eq_rowMax q k b qi r)
  have hz : ∀ T, qi.val + 1 ≤ T → T < 4 → ∀ j : Fin 512,
      wrel (score q k b (rowIdx qi r) (keyIdx T j)) m = 0 := fun T h1 h4 j => by
    rw [score_masked q k b _ _ (later_tile_masked qi r T h1 h4 j), wrel_bot]
  have hn : qi.val + 1 ≤ 4 := qi.isLt
  have eL : ∑ T ∈ Finset.range (qi.val + 1), ∑ j : Fin 512, wrel (score q k b (rowIdx qi r) (keyIdx T j)) m
      = ∑ j' : Fin 2048, wrel (score q k b (rowIdx qi r) j') m :=
    sum_tiles_upto (fun j' => wrel (score q k b (rowIdx qi r) j') m) _ hn hz
  have eA : ∑ T ∈ Finset.range (qi.val + 1), ∑ j : Fin 512,
        wrel (score q k b (rowIdx qi r) (keyIdx T j)) m * u (keyIdx T j)
      = ∑ j' : Fin 2048, wrel (score q k b (rowIdx qi r) j') m * u j' :=
    sum_tiles_upto (fun j' => wrel (score q k b (rowIdx qi r) j') m * u j') _ hn
      fun T h1 h4 j => by rw [hz T h1 h4 j, zero_mul]
  have hw : ∀ j' : Fin 2048,
      wgt q k b (rowIdx qi r) j' = ((wrel (score q k b (rowIdx qi r) j') m : ℝ) : EReal) := fun j' => by
    rw [wgt, ← hmax, exp_sub_coe (score_lt_top q k hq hk b (rowIdx qi r) j').ne]
  rw [hV, hrun]
  dsimp only
  rw [eL, eA]
  unfold attn
  simp only [hw, hu, ← EReal.coe_mul, ← coe_sum_univ]

end Cert.Online

end
-- ==== Proof.IdealAttnIdx.lean ====
/-
  Where the attention region's blocks sit in their arrays.

  Point t = 16·(batch) + 4·(query tile) + (key tile) of the 4 × 4 × 4 grid reads the query block (batch, query tile),
  the key and value blocks (batch, min(key tile, query tile)) and writes the result block (batch, query tile); every
  block is 1 × 512 × 1024 of a 4 × 2048 × 1024 array, so the element (0, r, d) of a block with tile number T is the
  element (batch, 512·T + r, d) of the array.
-/
import proofs.«160108_j10788957848091_2_alg».proof.Proof.IdealPayStep
import proofs.«160108_j10788957848091_2_alg».proof.Proof.OnlineAttn

noncomputable section

open scoped BigOperators
open Idealize.ShloMosaic Idealize.ShloMosaic.ValueIdx Idealize.ShloMosaic.TcCoe Idealize.SL.Sem
open Idealize.ShloMosaic.Pipeline (Dat Cfg Window)
open Cert.KernelIdeal Cert.KernelIdeal.Gen

namespace Cert.KernelIdeal.Hand

/-- The block indices of the four windows and the grid coordinates, at each of the 64 points. -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = min (t.val % 4) (t.val / 4 % 4) ∧ win1_1.index t (2 : Fin 3) = 0
    ∧ win1_2.index t (0 : Fin 3) = t.val / 16 ∧ win1_2.index t (1 : Fin 3) = min (t.val % 4) (t.val / 4 % 4) ∧ win1_2.index t (2 : Fin 3) = 0
    ∧ win1_3.index t (0 : Fin 3) = t.val / 16 ∧ win1_3.index t (1 : Fin 3) = t.val / 4 % 4 ∧ win1_3.index t (2 : Fin 3) = 0
    ∧ (grid1.coords t 1).val = t.val / 4 % 4 ∧ (grid1.coords t 2).val = t.val % 4 :=
  (by decide +kernel : ∀ t : Fin grid1.N, _)

/-- There are 64 points. -/
theorem N1_eq : cfg1.N = 64 := N_1

/-- A function of three coordinates read as an array, at an index whose coordinates have the values of b, t, d. -/
theorem out_apply_of_vals (a : Cert.Attn.Act) (i : (⟨3, ![4, 2048, 1024]⟩ : Shape).Idx) (b : Fin 4) (t : Fin 2048)
    (d : Fin 1024) (h0 : (i 0).val = b.val) (h1 : (i 1).val = t.val) (h2 : (i 2).val = d.val) :
    Cert.Attn.out a i = a b t d := by
  have e : i = ix3 b t d := funext fun c => Fin.ext (by
    match c with
    | ⟨0, _⟩ => exact h0
    | ⟨1, _⟩ => exact h1
    | ⟨2, _⟩ => exact h2)
  rw [e]; rfl

/-- The batch of position n. -/
def bN (n : ℕ) : Fin 4 := ⟨n / 16 % 4, Nat.mod_lt _ (by norm_num)⟩
/-- The query tile of position n. -/
def qN (n : ℕ) : Fin 4 := ⟨n / 4 % 4, Nat.mod_lt _ (by norm_num)⟩

section Reads

variable (V : (c : Dev nD) → (b : Ref sig .tc) → Buf (Elt Ideal) ((c : Thread nD τ).loc b)) (c : Dev nD)

/-- The query block of point t holds rows 512·(query tile) … of its batch. -/
theorem blk0_read (q : Cert.Attn.Act) (hq : V c main_v6 = Cert.Attn.out q) (t : Fin cfg1.N) (r : Fin 512) (d : Fin 1024) :
    (iblk1 (F := Ideal) V c 0 t : Vec Ideal S1x512x1024 .bf16) (ix3 (0 : Fin 1) r d)
      = q (bN t.val) (Cert.Online.rowIdx (qN t.val) r) d := by
  obtain ⟨e0, e1, e2, -⟩ := idx_facts1 t
  have hN := N1_eq; have ht := t.isLt
  unfold iblk1
  rw [View.read_apply]
  show V c main_v6 (((cfg1.win 0).blk t).view.emb (ix3 (0 : Fin 1) r d)) = _
  rw [hq]
  refine out_apply_of_vals q _ _ _ _ ?_ ?_ ?_
  · show win1_0.index t (0 : Fin 3) * 1 + 1 * 0 = t.val / 16 % 4
    omega
  · show win1_0.index t (1 : Fin 3) * 512 + 1 * r.val = t.val / 4 % 4 * 512 + r.val
    omega
  · show win1_0.index t (2 : Fin 3) * 1024 + 1 * d.val = d.val
    omega

/-- The key block of a point whose key tile is not after its query tile holds rows 512·(key tile) … of its batch. -/
theorem blk1_read (k : Cert.Attn.Act) (hk : V c main_v8 = Cert.Attn.out k) (t : Fin cfg1.N)
    (hki : t.val % 4 ≤ t.val / 4 % 4) (j : Fin 512) (d : Fin 1024) :
    (iblk1 (F := Ideal) V c 1 t : Vec Ideal S1x512x1024 .bf16) (ix3 (0 : Fin 1) j d)
      = k (bN t.val) (Cert.Online.keyIdx (t.val % 4) j) d := by
  obtain ⟨-, -, -, e0, e1, e2, -⟩ := idx_facts1 t
  rw [Nat.min_eq_left hki] at e1
  have hN := N1_eq; have ht := t.isLt
  unfold iblk1
  rw [View.read_apply]
  show V c main_v8 (((cfg1.win 1).blk t).view.emb (ix3 (0 : Fin 1) j d)) = _
  rw [hk]
  refine out_apply_of_vals k _ _ _ _ ?_ ?_ ?_
  · show win1_1.index t (0 : Fin 3) * 1 + 1 * 0 = t.val / 16 % 4
    omega
  · show win1_1.index t (1 : Fin 3) * 512 + 1 * j.val = t.val % 4 % 4 * 512 + j.val
    omega
  · show win1_1.index t (2 : Fin 3) * 1024 + 1 * d.val = d.val
    omega

/-- The value block, likewise. -/
theorem blk2_read (v : Cert.Attn.Act) (hv : V c main_v10 = Cert.Attn.out v) (t : Fin cfg1.N)
    (hki : t.val % 4 ≤ t.val / 4 % 4) (j : Fin 512) (d : Fin 1024) :
    (iblk1 (F := Ideal) V c 2 t : Vec Ideal S1x512x1024 .bf16) (ix3 (0 : Fin 1) j d)
      = v (bN t.val) (Cert.Online.keyIdx (t.val % 4) j) d := by
  obtain ⟨-, -, -, -, -, -, e0, e1, e2, -⟩ := idx_facts1 t
  rw [Nat.min_eq_left hki] at e1
  have hN := N1_eq; have ht := t.isLt
  unfold iblk1
  rw [View.read_apply]
  show V c main_v10 (((cfg1.win 2).blk t).view.emb (ix3 (0 : Fin 1) j d)) = _
  rw [hv]
  refine out_apply_of_vals v _ _ _ _ ?_ ?_ ?_
  · show win1_2.index t (0 : Fin 3) * 1 + 1 * 0 = t.val / 16 % 4
    omega
  · show win1_2.index t (1 : Fin 3) * 512 + 1 * j.val = t.val % 4 % 4 * 512 + j.val
    omega
  · show win1_2.index t (2 : Fin 3) * 1024 + 1 * d.val = d.val
    omega

end Reads

end Cert.KernelIdeal.Hand

end
-- ==== Proof.IdealAttnValue.lean ====
/-
  The value of the attention region: its result array is attention of the three arrays it reads.

  At each point the body's update, read at a row r and a column d, is one step of the running triple on the row's
  scores against the point's key tile and that tile's values. By induction along a (batch, query tile) the carried
  statistics after key tile ki are the running triple after min(ki, qi) + 1 tiles: a key tile after the query tile
  leaves them alone. At the last key tile that is qi + 1 tiles, whose accumulator over sum is the attention value;
  the blocks written at the last key tiles tile the result array.
-/
import proofs.«160108_j10788957848091_2_alg».proof.Proof.IdealAttnIdx

noncomputable section

open scoped BigOperators
open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Attn Cert.Online

namespace Cert.KernelIdeal.Hand

/-! ## One step at a point, on blocks that are read off q, k, v -/

/-- A block's masked scaled scores of row r are the row's scores against the keys of the block's tile. -/
theorem tileScore_eq (q k : Act) (b qi : Fin 4) (ki : ℕ) (hk4 : ki < 4) (x0 x1 : Vec Ideal S1x512x1024 .bf16)
    (h0 : ∀ r d, x0 (ix3 (0 : Fin 1) r d) = q b (rowIdx qi r) d)
    (h1 : ∀ j d, x1 (ix3 (0 : Fin 1) j d) = k b (keyIdx ki j) d) (r : Fin 512) :
    Pay.tileScore qi.val ki x0 x1 r = fun j => score q k b (rowIdx qi r) (keyIdx ki j) := by
  funext j
  unfold Pay.tileScore score
  rw [keyIdx_val ki hk4, rowIdx_val]
  simp only [h0, h1]

/-- One step of the body at coordinates i = (·, qi, ki), read at row r and column d. -/
theorem point_step (i : grid1.Coords) (q k v : Act) (b qi : Fin 4) (ki : ℕ) (hk4 : ki < 4)
    (hi1 : (i 1).val = qi.val) (hi2 : (i 2).val = ki) (x0 x1 x2 : Vec Ideal S1x512x1024 .bf16)
    (h0 : ∀ r d, x0 (ix3 (0 : Fin 1) r d) = q b (rowIdx qi r) d)
    (h1 : ∀ j d, x1 (ix3 (0 : Fin 1) j d) = k b (keyIdx ki j) d)
    (h2 : ∀ j d, x2 (ix3 (0 : Fin 1) j d) = v b (keyIdx ki j) d)
    (m l : Vec Ideal S1x512x1 .f32) (a : Vec Ideal S1x512x1024 .f32) (r : Fin 512) (d : Fin 1024) :
    (stepM (F := Ideal) i x0 x1 m (ix3 (0 : Fin 1) r (0 : Fin 1)), stepL (F := Ideal) i x0 x1 m l (ix3 (0 : Fin 1) r (0 : Fin 1)),
        stepA (F := Ideal) i x0 x1 x2 m a (ix3 (0 : Fin 1) r d))
      = step (fun j => score q k b (rowIdx qi r) (keyIdx ki j)) (fun j => v b (keyIdx ki j) d)
          (m (ix3 (0 : Fin 1) r (0 : Fin 1)), l (ix3 (0 : Fin 1) r (0 : Fin 1)), a (ix3 (0 : Fin 1) r d)) := by
  rw [Pay.step_read, hi1, hi2, tileScore_eq q k b qi ki hk4 x0 x1 h0 h1 r,
    show (fun j => x2 (ix3 (0 : Fin 1) j d)) = fun j => v b (keyIdx ki j) d from funext fun j => h2 j d]

section Region

variable (V : (c : Dev nD) → (b : Ref sig .tc) → Buf (Elt Ideal) ((c : Thread nD τ).loc b)) (c : Dev nD)
variable (q k v : Act)
variable (hq : V c main_v6 = out q) (hk : V c main_v8 = out k) (hv : V c main_v10 = out v)

/-- The triple of statistics read at row r and column d. -/
def rd (s : Stat Ideal) (r : Fin 512) (d : Fin 1024) : Triple :=
  (s.1 (ix3 (0 : Fin 1) r (0 : Fin 1)), s.2.1 (ix3 (0 : Fin 1) r (0 : Fin 1)), s.2.2 (ix3 (0 : Fin 1) r d))

/-- The row's scores against the keys of tile T, and the tile's values in column d, at position n. -/
def scoreAt (n : ℕ) (r : Fin 512) : ℕ → Fin 512 → EReal := fun T j => score q k (bN n) (rowIdx (qN n) r) (keyIdx T j)
def valAt (n : ℕ) (d : Fin 1024) : ℕ → Fin 512 → EReal := fun T j => v (bN n) (keyIdx T j) d

include hq hk hv in
/-- A step at a point whose key tile is not after its query tile, read at (r, d). -/
theorem stepAt_read (t : Fin cfg1.N) (hki : t.val % 4 ≤ t.val / 4 % 4) (s : Stat Ideal) (r : Fin 512) (d : Fin 1024) :
    rd (stepAt V c t s) r d = step (scoreAt q k t.val r (t.val % 4)) (valAt v t.val d (t.val % 4)) (rd s r d) := by
  obtain ⟨-, -, -, -, -, -, -, -, -, -, -, -, g1, g2⟩ := idx_facts1 t
  exact point_step (grid1.coords t) q k v (bN t.val) (qN t.val) (t.val % 4) (Nat.mod_lt _ (by norm_num)) g1 g2
    (iblk1 V c 0 t) (iblk1 V c 1 t) (iblk1 V c 2 t) (blk0_read V c q hq t) (blk1_read V c k hk t hki)
    (blk2_read V c v hv t hki) s.1 s.2.1 s.2.2 r d

/-! ## The carried statistics are the running triple -/

/-- Positions n and n + 1 with n + 1 not a first key tile have the same batch and query tile. -/
theorem bN_succ (n : ℕ) (h : ¬ (n + 1) % 4 = 0) : bN n = bN (n + 1) :=
  Fin.ext (by show n / 16 % 4 = (n + 1) / 16 % 4; omega)
theorem qN_succ (n : ℕ) (h : ¬ (n + 1) % 4 = 0) : qN n = qN (n + 1) :=
  Fin.ext (by show n / 4 % 4 = (n + 1) / 4 % 4; omega)

include hq hk hv in
/-- After position n = 16·b + 4·qi + ki the statistics, read at row r and column d, are the running triple of the
    row's scores and the column's values after min(ki, qi) + 1 tiles. -/
theorem stat_inv (n : ℕ) : ∀ (hn : n < cfg1.N) (r : Fin 512) (d : Fin 1024),
    rd (stat1 V c n hn) r d = run (scoreAt q k n r) (valAt v n d) (min (n % 4) (n / 4 % 4) + 1) := by
  induction n with
  | zero =>
    intro hn r d
    show rd (stepAt V c ⟨0, hn⟩ (initM, initL, initA)) r d = _
    rw [stepAt_read V c q k v hq hk hv ⟨0, hn⟩ (by show (0 : ℕ) % 4 ≤ 0 / 4 % 4; omega) _ r d,
      show rd ((initM, initL, initA) : Stat Ideal) r d = ((⊥ : EReal), (0 : EReal), (0 : EReal)) from Pay.init_read r d]
    rfl
  | succ n ih =>
    intro hn r d
    have hN := N1_eq
    have hn' : n < cfg1.N := Nat.lt_of_succ_lt hn
    by_cases h0 : (n + 1) % 4 = 0
    · have e : stat1 V c (n + 1) hn = stepAt V c ⟨n + 1, hn⟩ (initM, initL, initA) := if_pos h0
      have hki : (⟨n + 1, hn⟩ : Fin cfg1.N).val % 4 ≤ (⟨n + 1, hn⟩ : Fin cfg1.N).val / 4 % 4 := by
        show (n + 1) % 4 ≤ (n + 1) / 4 % 4; omega
      rw [e, stepAt_read V c q k v hq hk hv ⟨n + 1, hn⟩ hki _ r d,
        show rd ((initM, initL, initA) : Stat Ideal) r d = ((⊥ : EReal), (0 : EReal), (0 : EReal)) from Pay.init_read r d]
      show step (scoreAt q k (n + 1) r ((n + 1) % 4)) (valAt v (n + 1) d ((n + 1) % 4)) ((⊥ : EReal), (0 : EReal), (0 : EReal))
        = run (scoreAt q k (n + 1) r) (valAt v (n + 1) d) (min ((n + 1) % 4) ((n + 1) / 4 % 4) + 1)
      rw [h0, Nat.zero_min]
      rfl
    · have eb := bN_succ n h0
      have eq' := qN_succ n h0
      have es : scoreAt q k n r = scoreAt q k (n + 1) r := by unfold scoreAt; rw [eb, eq']
      have ev : valAt v n d = valAt v (n + 1) d := by unfold valAt; rw [eb]
      by_cases h1 : (n + 1) % 4 ≤ (n + 1) / 4 % 4
      · have e : stat1 V c (n + 1) hn = stepAt V c ⟨n + 1, hn⟩ (stat1 V c n hn') := (if_neg h0).trans (if_pos h1)
        have c1 : min (n % 4) (n / 4 % 4) + 1 = (n + 1) % 4 := by omega
        have c2 : min ((n + 1) % 4) ((n + 1) / 4 % 4) + 1 = (n + 1) % 4 + 1 := by omega
        rw [e, stepAt_read V c q k v hq hk hv ⟨n + 1, hn⟩ h1 _ r d, ih hn' r d, es, ev, c1, c2]
        rfl
      · have e : stat1 V c (n + 1) hn = stat1 V c n hn' := (if_neg h0).trans (if_neg h1)
        have c3 : min (n % 4) (n / 4 % 4) + 1 = min ((n + 1) % 4) ((n + 1) / 4 % 4) + 1 := by omega
        rw [e, ih hn' r d, es, ev, c3]

/-! ## The result array -/

include hq hk hv in
/-- What a last key tile writes back is its block of attention of q, k, v. -/
theorem flushed3_eq (hqr : ∀ b t d, LibRealSums.IsReal (q b t d)) (hkr : ∀ b t d, LibRealSums.IsReal (k b t d))
    (hvr : ∀ b t d, LibRealSums.IsReal (v b t d)) (t : Fin cfg1.N) (hf : t.val % 4 = 3) :
    (dat1 (F := Ideal) V c).flushed 3 t = ((cfg1.win 3).blk t).view.read (Elt Ideal) (out (attn q k v)) := by
  obtain ⟨-, -, -, -, -, -, -, -, -, e0, e1, e2, -⟩ := idx_facts1 t
  have hN := N1_eq; have ht := t.isLt
  show (cfg1.win 3).cut (grid1.coords t) ((dat1 V c).after 3 t) = _
  rw [after1_3]
  funext j
  obtain ⟨z, r, d, rfl⟩ : ∃ (z : Fin 1) (r : Fin 512) (d : Fin 1024), j = ix3 z r d := ⟨j 0, j 1, j 2, eq_ix3 j⟩
  obtain rfl : z = 0 := Subsingleton.elim _ _
  show finO (F := Ideal) (stat1 V c t.val t.isLt).2.2 (stat1 V c t.val t.isLt).2.1 (ix3 (0 : Fin 1) r d) = _
  rw [Pay.fin_read]
  have inv := stat_inv V c q k v hq hk hv t.val t.isLt r d
  have hcnt : min (t.val % 4) (t.val / 4 % 4) + 1 = (qN t.val).val + 1 := by
    show _ = t.val / 4 % 4 + 1; omega
  rw [hcnt] at inv
  have h22 : (stat1 V c t.val t.isLt).2.2 (ix3 (0 : Fin 1) r d)
      = (run (scoreAt q k t.val r) (valAt v t.val d) ((qN t.val).val + 1)).2.2 := congrArg (fun x : Triple => x.2.2) inv
  have h21 : (stat1 V c t.val t.isLt).2.1 (ix3 (0 : Fin 1) r (0 : Fin 1))
      = (run (scoreAt q k t.val r) (valAt v t.val d) ((qN t.val).val + 1)).2.1 := congrArg (fun x : Triple => x.2.1) inv
  rw [h22, h21]
  unfold scoreAt valAt
  rw [run_eq_attn q k v hqr hkr hvr (bN t.val) (qN t.val) r d, View.read_apply]
  show attn q k v (bN t.val) (rowIdx (qN t.val) r) d = out (attn q k v) (((cfg1.win 3).blk t).view.emb (ix3 (0 : Fin 1) r d))
  symm
  refine out_apply_of_vals (attn q k v) _ _ _ _ ?_ ?_ ?_
  · show win1_3.index t (0 : Fin 3) * 1 + 1 * 0 = t.val / 16 % 4
    omega
  · show win1_3.index t (1 : Fin 3) * 512 + 1 * r.val = t.val / 4 % 4 * 512 + r.val
    omega
  · show win1_3.index t (2 : Fin 3) * 1024 + 1 * d.val = d.val
    omega

/-- An index of the result array is in point t's block iff each coordinate is in the block's range on its axis. -/
theorem mem_blk3 (t : Fin cfg1.N) (i : S4x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v11).slice (win1_3.rect t)).set ↔ _
  rw [View.set_slice_whole, Rect.mem_set_unit]
  exact Iff.rfl

/-- Every index (b, t', d) of the result array is in the block written at the last key tile of query tile t' / 512
    of batch b. -/
theorem cover3 (i : S4x2048x1024.Idx) :
    ∃ t : Fin cfg1.N, (cfg1.win 3).flush t = true ∧ i ∈ ((cfg1.win 3).blk t).view.set := by
  have hN := N1_eq
  have hi0 : (i 0).val < 4 := (i 0).isLt
  have hi1 : (i 1).val < 2048 := (i 1).isLt
  have hi2 : (i 2).val < 1024 := (i 2).isLt
  refine ⟨⟨16 * (i 0).val + 4 * ((i 1).val / 512) + 3, by omega⟩, (flush1_3 _).2 (by show (16 * (i 0).val + 4 * ((i 1).val / 512) + 3) % 4 = 3; omega), ?_⟩
  rw [mem_blk3]
  obtain ⟨-, -, -, -, -, -, -, -, -, e0, e1, e2, -⟩ :=
    idx_facts1 ⟨16 * (i 0).val + 4 * ((i 1).val / 512) + 3, by omega⟩
  simp only at e0 e1 e2
  intro a
  match a with
  | ⟨0, _⟩ =>
    show win1_3.index _ (0 : Fin 3) * 1 ≤ (i 0).val ∧ (i 0).val < win1_3.index _ (0 : Fin 3) * 1 + 1
    rw [e0]; omega
  | ⟨1, _⟩ =>
    show win1_3.index _ (1 : Fin 3) * 512 ≤ (i 1).val ∧ (i 1).val < win1_3.index _ (1 : Fin 3) * 512 + 512
    rw [e1]; omega
  | ⟨2, _⟩ =>
    show win1_3.index _ (2 : Fin 3) * 1024 ≤ (i 2).val ∧ (i 2).val < win1_3.index _ (2 : Fin 3) * 1024 + 1024
    rw [e2]; omega

include hq hk hv in
/-- After the region the result array holds attention of the three arrays the region reads, when they are real. -/
theorem attn_final (hqr : ∀ b t d, LibRealSums.IsReal (q b t d)) (hkr : ∀ b t d, LibRealSums.IsReal (k b t d))
    (hvr : ∀ b t d, LibRealSums.IsReal (v b t d)) :
    (dat1 (F := Ideal) V c).arrAt 3 cfg1.N = out (attn q k v) :=
  (dat1 (F := Ideal) V c).arrAt_eq_of_cover 3 (out (attn q k v))
    (fun t hf => flushed3_eq V c q k v hq hk hv hqr hkr hvr t ((flush1_3 t).1 hf)) cover3

end Region

end Cert.KernelIdeal.Hand

end
-- ==== Proof.IdealValue.lean ====
/-
  The value of the idealized kernel program: under finite inputs its result array is causal softmax attention of the
  three projections of the input, entry by entry.

  The projection region leaves q, k, v as the three linear projections (no finiteness needed); finite inputs make every
  projection entry a real number; the attention region then leaves attention of q, k, v.
-/
import proofs.«160108_j10788957848091_2_alg».proof.Proof.IdealProjValue
import proofs.«160108_j10788957848091_2_alg».proof.Proof.IdealAttnValue
import proofs.«160108_j10788957848091_2_alg».proof.Proof.IdealRun

noncomputable section

namespace Cert.KernelIdeal.Hand

open Idealize.ShloMosaic Idealize.ShloMosaic.TcCoe Idealize.SL.Sem
open Cert.KernelIdeal Cert.KernelIdeal.Gen

/-- The result array after the run, for real argument entries. -/
theorem kernel_value (m : (ℓ : Loc nD τ sig) → Buf (Elt Ideal) ℓ) (c : Dev nD)
    (h0 : ∀ i, LibRealSums.IsReal (m ((c : Thread nD τ).loc main_arg0) i))
    (h1 : ∀ i, LibRealSums.IsReal (m ((c : Thread nD τ).loc main_arg1) i))
    (h2 : ∀ i, LibRealSums.IsReal (m ((c : Thread nD τ).loc main_arg2) i))
    (h3 : ∀ i, LibRealSums.IsReal (m ((c : Thread nD τ).loc main_arg3) i)) :
    (dat1 (F := Ideal) (E3 m) c).arrAt 3 cfg1.N
      = Cert.Attn.out (Cert.Attn.G (Cert.Attn.act (m ((c : Thread nD τ).loc main_arg0))) (Cert.Attn.mat (m ((c : Thread nD τ).loc main_arg1)))
          (Cert.Attn.mat (m ((c : Thread nD τ).loc main_arg2))) (Cert.Attn.mat (m ((c : Thread nD τ).loc main_arg3)))) := by
  have hx : ∀ b t d, LibRealSums.IsReal (Cert.Attn.act (m ((c : Thread nD τ).loc main_arg0)) b t d) := fun b t d => h0 _
  have hw1 : ∀ a d, LibRealSums.IsReal (Cert.Attn.mat (m ((c : Thread nD τ).loc main_arg1)) a d) := fun a d => h1 _
  have hw2 : ∀ a d, LibRealSums.IsReal (Cert.Attn.mat (m ((c : Thread nD τ).loc main_arg2)) a d) := fun a d => h2 _
  have hw3 : ∀ a d, LibRealSums.IsReal (Cert.Attn.mat (m ((c : Thread nD τ).loc main_arg3)) a d) := fun a d => h3 _
  exact attn_final (E3 m) c _ _ _ (E3_main_v6 m c) (E3_main_v8 m c) (E3_main_v10 m c)
    (fun b t d => Cert.ReferenceIdeal.RefValue.proj_real _ _ hx hw1 b t d)
    (fun b t d => Cert.ReferenceIdeal.RefValue.proj_real _ _ hx hw2 b t d)
    (fun b t d => Cert.ReferenceIdeal.RefValue.proj_real _ _ hx hw3 b t d)

end Cert.KernelIdeal.Hand

end
-- ==== Proof.RefSide2.lean ====
/-
  The reference program read one operation at a time, at an index given by its coordinates.

  q, k, v are the three projections; the scalar 1/√1024 is the scale 1/32; the lower-triangular mask selects the
  scaled product q·kᵀ where the column is at most the row and -∞ elsewhere, which is the score; the row maximum,
  the weights exp(score − maximum), their row sums, the normalized weights and the final product with v follow.
  The last step joins the reference's arrangement (normalize each weight, then sum) with the specification's
  (sum, then divide), which needs the argument arrays to be real.
-/
import proofs.«160108_j10788957848091_2_alg».proof.Proof.Gen.ReferenceIdeal.Read
import proofs.«160108_j10788957848091_2_alg».proof.Proof.RefSide1

noncomputable section

open scoped BigOperators
open Idealize.ShloMosaic Idealize.ShloMosaic.ValueIdx LibRealSums Cert.Attn
open Cert.ReferenceIdeal Cert.ReferenceIdeal.Gen Cert.ReferenceIdeal.Read

namespace Cert.ReferenceIdeal.RefValue

variable (x0 : (⟨S4x2048x1024, .f32⟩ : BufTy).Contents (Elt Ideal))
variable (x1 x2 x3 : (⟨S1024x1024, .f32⟩ : BufTy).Contents (Elt Ideal))

/-! ## The projections -/

/-- Operation 0: the projection by the query matrix, entry by entry. -/
theorem v0_at (b : Fin 4) (t : Fin 2048) (d : Fin 1024) :
    val_main_v0 (F := Ideal) x0 x1 (ix3 b t d) = proj (act x0) (mat x1) b t d := by
  rw [val_main_v0_apply]
  show _ = ∑ a : Fin 1024, x0 (ix3 b t a) * x1 (ix2 a d)
  refine Finset.sum_congr rfl fun a _ => ?_
  rw [show lidx_main_v0 (ix3 b t d) a = ix3 b t a from (funext fun c => Fin.ext (by match c with | ⟨0, _⟩ => rfl | ⟨1, _⟩ => rfl | ⟨2, _⟩ => rfl)),
    show ridx_main_v0 (ix3 b t d) a = ix2 a d from (funext fun c => Fin.ext (by match c with | ⟨0, _⟩ => rfl | ⟨1, _⟩ => rfl))]

/-- Operation 1: the projection by the key matrix, entry by entry. -/
theorem v1_at (b : Fin 4) (t : Fin 2048) (d : Fin 1024) :
    val_main_v1 (F := Ideal) x0 x2 (ix3 b t d) = proj (act x0) (mat x2) b t d := by
  rw [val_main_v1_apply]
  show _ = ∑ a : Fin 1024, x0 (ix3 b t a) * x2 (ix2 a d)
  refine Finset.sum_congr rfl fun a _ => ?_
  rw [show lidx_main_v1 (ix3 b t d) a = ix3 b t a from (funext fun c => Fin.ext (by match c with | ⟨0, _⟩ => rfl | ⟨1, _⟩ => rfl | ⟨2, _⟩ => rfl)),
    show ridx_main_v1 (ix3 b t d) a = ix2 a d from (funext fun c => Fin.ext (by match c with | ⟨0, _⟩ => rfl | ⟨1, _⟩ => rfl))]

/-- Operation 2: the projection by the value matrix, entry by entry. -/
theorem v2_at (b : Fin 4) (t : Fin 2048) (d : Fin 1024) :
    val_main_v2 (F := Ideal) x0 x3 (ix3 b t d) = proj (act x0) (mat x3) b t d := by
  rw [val_main_v2_apply]
  show _ = ∑ a : Fin 1024, x0 (ix3 b t a) * x3 (ix2 a d)
  refine Finset.sum_congr rfl fun a _ => ?_
  rw [show lidx_main_v2 (ix3 b t d) a = ix3 b t a from (funext fun c => Fin.ext (by match c with | ⟨0, _⟩ => rfl | ⟨1, _⟩ => rfl | ⟨2, _⟩ => rfl)),
    show ridx_main_v2 (ix3 b t d) a = ix2 a d from (funext fun c => Fin.ext (by match c with | ⟨0, _⟩ => rfl | ⟨1, _⟩ => rfl))]

/-! ## The scale and the mask -/

/-- Operation 4: the scalar 1 / √1024 is the scale. -/
theorem v4_at (j : S_.Idx) : val_main_v4 (F := Ideal) j = γ := by
  rw [val_main_v4_apply, val_main_cst_0_apply, val_main_v3_apply, val_main_cst_apply]
  exact scale_eq

/-- Operation 6: the mask word at row i and column j. -/
theorem v6_at (i j : Fin 2048) :
    val_main_v6 (F := Ideal) (ix2 i j)
      = Scalar.select (IntOp.cmpi .sge (IntOp.addi (BitVec.ofNat 32 i.val) 0#32) (BitVec.ofNat 32 j.val))
          (1#1 : BitVec 1) (0#1 : BitVec 1) := by
  rw [val_main_v6_apply, val_main_call0_v4_apply, val_main_call0_v2_apply, val_main_call0_v0_apply,
    val_main_call0_v1_apply, val_main_call0_c_apply, val_main_call0_v3_apply, val_main_v5_apply, val_main_c_apply,
    val_main_call0_v5_apply, val_main_call0_c_0_apply]

/-! ## The scores -/

/-- Operation 11: the masked, scaled product of a query row and a key row is the score. -/
theorem v11_at (b : Fin 4) (i j : Fin 2048) :
    val_main_v11 (F := Ideal) x0 x1 x2 (ix3 b i j)
      = score (proj (act x0) (mat x1)) (proj (act x0) (mat x2)) b i j := by
  rw [val_main_v11_apply, val_main_call1_v1_apply, val_main_v10_apply,
    show idx_main_v10 (idx_main_call1_v1 (ix3 b i j)) = ix2 i j from (funext fun c => Fin.ext (by match c with | ⟨0, _⟩ => rfl | ⟨1, _⟩ => rfl)),
    v6_at, mask_select, val_main_v9_apply, val_main_v7_apply, val_main_v8_apply, v4_at,
    val_main_call1_v2_apply, val_main_call1_v0_apply, val_main_cst_1_apply]
  have hs : ∑ a : Fin 1024, val_main_v0 (F := Ideal) x0 x1 (lidx_main_v7 (ix3 b i j) a)
        * val_main_v1 (F := Ideal) x0 x2 (ridx_main_v7 (ix3 b i j) a)
      = ∑ a : Fin 1024, proj (act x0) (mat x1) b i a * proj (act x0) (mat x2) b j a :=
    Finset.sum_congr rfl fun a _ => by
      rw [show lidx_main_v7 (ix3 b i j) a = ix3 b i a from (funext fun c => Fin.ext (by match c with | ⟨0, _⟩ => rfl | ⟨1, _⟩ => rfl | ⟨2, _⟩ => rfl)),
        show ridx_main_v7 (ix3 b i j) a = ix3 b j a from (funext fun c => Fin.ext (by match c with | ⟨0, _⟩ => rfl | ⟨1, _⟩ => rfl | ⟨2, _⟩ => rfl)), v0_at, v1_at]
  rw [hs, Ideal.ofBits_def, ofBits_neg_inf]
  rfl

/-! ## The row maximum -/

/-- Operations 12–14: the maximum against -∞ of the row's fold of maxima from -∞ is the row maximum. -/
theorem v14_at (b : Fin 4) (i : Fin 2048) :
    val_main_v14 (F := Ideal) x0 x1 x2 (ix2 b i)
      = rowMax (proj (act x0) (mat x1)) (proj (act x0) (mat x2)) b i := by
  have hR : S4x2048x2048.Reduces [2] S4x2048 := by decide
  have key : ∀ y : S4x2048x2048.Idx → EReal,
      Host.reduce (FloatOps.maximumf (F := Ideal) (φ := .f32)) y (val_main_cst_2 (F := Ideal))
          reducesTo_S4x2048x2048_S4x2048_d2 h_S_ (ix2 b i)
        = Finset.univ.fold (FloatOps.maximumf (F := Ideal) (φ := .f32)) (⊥ : EReal)
            (fun j : Fin 2048 => y (ix3 b i j)) := by
    intro y
    rw [Host.reduce_eq_fold_single _ y _ reducesTo_S4x2048x2048_S4x2048_d2 hR h_S_, val_main_cst_2_apply,
      Ideal.ofBits_def, ofBits_neg_inf]
    have hl : ∀ j : Fin 2048, hR.lift (ix2 b i) j = ix3 b i j := fun j => (funext fun c => Fin.ext (by match c with | ⟨0, _⟩ => rfl | ⟨1, _⟩ => rfl | ⟨2, _⟩ => rfl))
    exact congrArg (Finset.univ.fold (FloatOps.maximumf (F := Ideal) (φ := .f32)) (⊥ : EReal))
      (funext fun j => congrArg y (hl j))
  rw [val_main_v14_apply, val_main_v13_apply, val_main_cst_3_apply, Ideal.ofBits_def, ofBits_neg_inf]
  unfold val_main_v12
  rw [key]
  simp only [v11_at]
  exact max_bot_fold_max _

/-! ## The weights, their sums, and the normalized weights -/

/-- Operation 18: exp(score − row maximum) is the weight. -/
theorem v18_at (b : Fin 4) (i j : Fin 2048) :
    val_main_v18 (F := Ideal) x0 x1 x2 (ix3 b i j)
      = wgt (proj (act x0) (mat x1)) (proj (act x0) (mat x2)) b i j := by
  rw [val_main_v18_apply, val_main_v17_apply, val_main_v16_apply, val_main_v15_apply, v11_at,
    show idx_main_v15 (idx_main_v16 (ix3 b i j)) = ix2 b i from (funext fun c => Fin.ext (by match c with | ⟨0, _⟩ => rfl | ⟨1, _⟩ => rfl)), v14_at]
  rfl

/-- Operation 19: the row's sum of weights (from the literal zero). -/
theorem v19_at (b : Fin 4) (i : Fin 2048) :
    val_main_v19 (F := Ideal) x0 x1 x2 (ix2 b i)
      = ∑ j : Fin 2048, wgt (proj (act x0) (mat x1)) (proj (act x0) (mat x2)) b i j := by
  rw [val_main_v19_apply, val_main_cst_4_apply, Ideal.ofBits_def, Ideal.ofBits_zero_f32, zero_add]
  refine Finset.sum_congr rfl fun j _ => ?_
  rw [show idx_main_v19 (ix2 b i) j = ix3 b i j from (funext fun c => Fin.ext (by match c with | ⟨0, _⟩ => rfl | ⟨1, _⟩ => rfl | ⟨2, _⟩ => rfl)), v18_at]

/-- Operation 22: each weight divided by its row's sum. -/
theorem v22_at (b : Fin 4) (i j : Fin 2048) :
    val_main_v22 (F := Ideal) x0 x1 x2 (ix3 b i j)
      = Ideal.div (wgt (proj (act x0) (mat x1)) (proj (act x0) (mat x2)) b i j)
          (∑ j' : Fin 2048, wgt (proj (act x0) (mat x1)) (proj (act x0) (mat x2)) b i j') := by
  rw [val_main_v22_apply, v18_at, val_main_v21_apply, val_main_v20_apply,
    show idx_main_v20 (idx_main_v21 (ix3 b i j)) = ix2 b i from (funext fun c => Fin.ext (by match c with | ⟨0, _⟩ => rfl | ⟨1, _⟩ => rfl)), v19_at]
  rfl

/-! ## The result -/

/-- Operation 23 at an index: the reference's result is attention of the three projections. -/
theorem v23_at (h0 : ∀ i, IsReal (x0 i)) (h1 : ∀ i, IsReal (x1 i)) (h2 : ∀ i, IsReal (x2 i))
    (h3 : ∀ i, IsReal (x3 i)) (b : Fin 4) (i : Fin 2048) (d : Fin 1024) :
    val_main_v23 (F := Ideal) x0 x1 x2 x3 (ix3 b i d)
      = attn (proj (act x0) (mat x1)) (proj (act x0) (mat x2)) (proj (act x0) (mat x3)) b i d := by
  rw [val_main_v23_apply]
  have hs : ∑ j : Fin 2048, val_main_v22 (F := Ideal) x0 x1 x2 (lidx_main_v23 (ix3 b i d) j)
        * val_main_v2 (F := Ideal) x0 x3 (ridx_main_v23 (ix3 b i d) j)
      = ∑ j : Fin 2048, Ideal.div (wgt (proj (act x0) (mat x1)) (proj (act x0) (mat x2)) b i j)
          (∑ j' : Fin 2048, wgt (proj (act x0) (mat x1)) (proj (act x0) (mat x2)) b i j')
          * proj (act x0) (mat x3) b j d :=
    Finset.sum_congr rfl fun j _ => by
      rw [show lidx_main_v23 (ix3 b i d) j = ix3 b i j from (funext fun c => Fin.ext (by match c with | ⟨0, _⟩ => rfl | ⟨1, _⟩ => rfl | ⟨2, _⟩ => rfl)),
        show ridx_main_v23 (ix3 b i d) j = ix3 b j d from (funext fun c => Fin.ext (by match c with | ⟨0, _⟩ => rfl | ⟨1, _⟩ => rfl | ⟨2, _⟩ => rfl)), v22_at, v2_at]
  rw [hs]
  exact normalized_sum_eq_attn _ _ _
    (proj_real _ _ (fun _ _ _ => h0 _) (fun _ _ => h1 _))
    (proj_real _ _ (fun _ _ _ => h0 _) (fun _ _ => h2 _))
    (proj_real _ _ (fun _ _ _ => h0 _) (fun _ _ => h3 _)) b i d

/-- The reference computes the specified function of its four argument arrays, when they are real. -/
theorem ref_eq (x0 : (⟨Cert.ReferenceIdeal.S4x2048x1024, .f32⟩ : BufTy).Contents (Elt Ideal))
    (x1 x2 x3 : (⟨Cert.ReferenceIdeal.S1024x1024, .f32⟩ : BufTy).Contents (Elt Ideal))
    (h0 : ∀ i, LibRealSums.IsReal (x0 i)) (h1 : ∀ i, LibRealSums.IsReal (x1 i))
    (h2 : ∀ i, LibRealSums.IsReal (x2 i)) (h3 : ∀ i, LibRealSums.IsReal (x3 i)) :
    Cert.ReferenceIdeal.Read.val_main_v23 (F := Ideal) x0 x1 x2 x3
      = Cert.Attn.out (Cert.Attn.G (Cert.Attn.act x0) (Cert.Attn.mat x1) (Cert.Attn.mat x2) (Cert.Attn.mat x3)) := by
  funext i
  obtain ⟨b, t, d, rfl⟩ : ∃ (b : Fin 4) (t : Fin 2048) (d : Fin 1024), i = ix3 b t d :=
    ⟨i 0, i 1, i 2, eq_ix3 i⟩
  rw [v23_at x0 x1 x2 x3 h0 h1 h2 h3]
  rfl

end Cert.ReferenceIdeal.RefValue

end
-- ==== Proof.Finite.lean ====
/-
  Finiteness of the four argument arrays.

  The precondition is the conjunction, over the four arrays, of "every entry x satisfies |x| < +∞". In the
  extended reals |x| = max x (-x), so |x| < ⊤ excludes both x = ⊤ (|⊤| = ⊤) and x = ⊥ (|⊥| = max ⊥ ⊤ = ⊤):
  the entry is the coercion of a real number.
-/
import proofs.«160108_j10788957848091_2_alg».proof.Pre_finite_inputs
import proofs.«160108_j10788957848091_2_alg».proof.Proof.Gen.Pre_finite_inputs
import proofs.«160108_j10788957848091_2_alg».proof.Proof.LibRealSums
import Idealize.ShloMosaic.Lib.ReduceAll

noncomputable section

open Idealize.ShloMosaic

namespace Cert.Finite

/-- The pattern 0x7F800000 (exponent all ones, significand zero, sign clear) denotes +∞. -/
theorem ofBits_inf_f32 : Ideal.ofBits .f32 0x7F800000#32 = (⊤ : EReal) := by
  simp [Ideal.ofBits, Ideal.ieee]

/-- An extended real whose absolute value max x (-x) is strictly below ⊤ is a real number. -/
theorem isReal_of_abs_lt_top (x : EReal) (h : max x (-x) < ⊤) : LibRealSums.IsReal x := by
  induction x using EReal.rec with
  | bot => simp at h
  | coe r => exact ⟨r, rfl⟩
  | top => simp at h

/-- One entry: if the comparison "|x| < the value of the pattern 0x7F800000" answers 1, then x is real. -/
theorem isReal_of_cmp (x : EReal)
    (h : FloatOps.cmpf (F := Ideal) (φ := .f32) .olt (FloatOps.hostAbsf (F := Ideal) (φ := .f32) x)
          (FloatOps.ofBits (F := Ideal) .f32 0x7F800000#32) = 1#1) : LibRealSums.IsReal x := by
  apply isReal_of_abs_lt_top
  have h' : Ideal.cmp .olt (max x (-x)) (Ideal.ofBits .f32 0x7F800000#32) = 1#1 := h
  rw [ofBits_inf_f32] at h'
  simp only [Ideal.cmp] at h'
  by_contra hn
  rw [decide_eq_false hn] at h'
  exact absurd h' (by decide)

/-- The result shape of a reduction over all axes has exactly one index. -/
instance : Subsingleton Cert.Pre_finite_inputs.S_.Idx := ⟨fun a b => funext fun d => d.elim0⟩

/-- Under the precondition every entry of each of the four argument arrays is a real number. -/
theorem real_of_pre [Cert.Pre_finite_inputs.Facts]
    (x : FVec Ideal Cert.Pre_finite_inputs.S4x2048x1024 .f32)
    (wq wk wv : FVec Ideal Cert.Pre_finite_inputs.S1024x1024 .f32)
    (h : Cert.Pre_finite_inputs.fn (F := Ideal) x wq wk wv = fun _ => 1#1) :
    (∀ i, LibRealSums.IsReal (x i)) ∧ (∀ i, LibRealSums.IsReal (wq i)) ∧ (∀ i, LibRealSums.IsReal (wk i))
      ∧ (∀ i, LibRealSums.IsReal (wv i)) := by
  have h0 := congrFun h (fun a => a.elim0)
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact isReal_of_cmp _ (Host.reduce_andi_all _ _ _ _ _ h1 i)
  · exact isReal_of_cmp _ (Host.reduce_andi_all _ _ _ _ _ h2 i)
  · exact isReal_of_cmp _ (Host.reduce_andi_all _ _ _ _ _ h3 i)
  · exact isReal_of_cmp _ (Host.reduce_andi_all _ _ _ _ _ h4 i)

end Cert.Finite

end
-- ==== Proof.lean ====
/-
  The certificate: a two-stage attention kernel (a projection matmul producing q, k, v, then causal attention with
  a running softmax over key tiles) against the plain reference (three projections, masked scaled scores, softmax,
  weighted sum of the values).

  The three frames: each kernel program's run is followed through its host operations and its two kernel regions
  (the buffers' contents at every boundary, the arguments untouched); the reference's run is its list of host
  operations. The idealization's one rewrite reads the kernel's finite stand-in for -∞ as -∞. The value claim: at the
  exact instance the result array of the kernel program and the reference's are one function of the arguments, causal
  softmax attention, entry by entry (finite inputs make every score real, which the rescaling of the running sums and
  the reference's normalization before the last product both need).
-/
import proofs.«160108_j10788957848091_2_alg».proof.Defs
import proofs.«160108_j10788957848091_2_alg».proof.Proof.Gen.Kernel
import proofs.«160108_j10788957848091_2_alg».proof.Proof.Gen.KernelIdeal
import proofs.«160108_j10788957848091_2_alg».proof.Proof.Gen.ReferenceIdeal
import proofs.«160108_j10788957848091_2_alg».proof.Proof.Gen.Pre_finite_inputs
import proofs.«160108_j10788957848091_2_alg».proof.Proof.Gen.ReferenceIdeal.Run
import proofs.«160108_j10788957848091_2_alg».proof.Proof.Gen.ReferenceIdeal.Read
import proofs.«160108_j10788957848091_2_alg».proof.Proof.BitsRun
import proofs.«160108_j10788957848091_2_alg».proof.Proof.IdealRun
import proofs.«160108_j10788957848091_2_alg».proof.Proof.IdealValue
import proofs.«160108_j10788957848091_2_alg».proof.Proof.RefSide2
import proofs.«160108_j10788957848091_2_alg».proof.Proof.Finite
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's finite stand-in for -∞ denotes -∞ at the exact instance. -/
theorem preserves : Cert.preserves_Kernel_KernelIdeal :=
  IdealRules.named_const.statement Cert.KernelIdeal.κ "neg_big" .f32 0xFF333332#32 ⊥ rfl

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Attn.out (Cert.Attn.G (Cert.Attn.act (m ((c.tc : Thread Cert.KernelIdeal.nD Cert.KernelIdeal.τ).loc Cert.KernelIdeal.main_arg0)))
      (Cert.Attn.mat (m ((c.tc : Thread Cert.KernelIdeal.nD Cert.KernelIdeal.τ).loc Cert.KernelIdeal.main_arg1)))
      (Cert.Attn.mat (m ((c.tc : Thread Cert.KernelIdeal.nD Cert.KernelIdeal.τ).loc Cert.KernelIdeal.main_arg2)))
      (Cert.Attn.mat (m ((c.tc : Thread Cert.KernelIdeal.nD Cert.KernelIdeal.τ).loc Cert.KernelIdeal.main_arg3)))), ?_, ?_⟩
  · refine (θ_run Cert.KernelIdeal.defs _ _).mono (fun r h c => ⟨(h c).1.trans ?_, (h c).2⟩)
      (Cert.KernelIdeal.Hand.run_result (F := Ideal) m ρ)
    obtain ⟨h0, h1, h2, h3⟩ := Cert.Finite.real_of_pre _ _ _ _ (hpre c)
    exact Cert.KernelIdeal.Hand.kernel_value m c h0 h1 h2 h3
  · refine (θ_run Cert.ReferenceIdeal.defs _ _).mono (fun r h c => ⟨(h c).1.trans ?_, (h c).2⟩)
      (Cert.ReferenceIdeal.Value.run (F := Ideal) m' ρ')
    obtain ⟨h0, h1, h2, h3⟩ := Cert.Finite.real_of_pre _ _ _ _ (hpre c)
    rw [Cert.ReferenceIdeal.Read.val_main_v23_eq, (hagree c).1, (hagree c).2.1, (hagree c).2.2.1, (hagree c).2.2.2]
    exact Cert.ReferenceIdeal.RefValue.ref_eq _ _ _ _ h0 h1 h2 h3

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
